-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x64 : Shape := ⟨3, ![2, 1024, 64]⟩
abbrev S2x1024x1024 : Shape := ⟨3, ![2, 1024, 1024]⟩
abbrev S64x64 : Shape := ⟨2, ![64, 64]⟩
abbrev S64 : Shape := ⟨1, ![64]⟩
abbrev S_ : Shape := ⟨0, ![]⟩

class Facts : Prop where
  bcast_S_S2x1024x64 : S_.BroadcastsInDim S2x1024x64 (![] : Fin 0 → Fin S2x1024x64.rank)
  reducesTo_S2x1024x64_S_d0_1_2 : S2x1024x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x1024x1024 : S_.BroadcastsInDim S2x1024x1024 (![] : Fin 0 → Fin S2x1024x1024.rank)
  reducesTo_S2x1024x1024_S_d0_1_2 : S2x1024x1024.ReducesTo [0, 1, 2] S_

variable [Facts]

def fn_part1 {F : FTy → Type} [FloatOps F] (main_arg1 : IVec S2x1024x1024 32) (main_v13 : IVec S_ 1) (main_v15 : IVec S2x1024x1024 1) (main_c_5 : IVec S_ 32) : IVec S_ 1 :=
  let main_v16 : IVec S2x1024x1024 32 := broadcastInDim S2x1024x1024 ![] bcast_S_S2x1024x1024 main_c_5
  let main_v17 : IVec S2x1024x1024 1 := cmpi .eq main_arg1 main_v16
  let main_v18 : IVec S2x1024x1024 1 := ori main_v15 main_v17
  let main_c_6 : IVec S_ 1 := constantI S_ 1 1#1
  let main_v19 : IVec S_ 1 := (fun x v => Host.reduce IntOp.andi x v reducesTo_S2x1024x1024_S_d0_1_2 h_S_) main_v18 main_c_6
  let main_v20 : IVec S_ 1 := andi main_v13 main_v19
  main_v20

def fn {F : FTy → Type} [FloatOps F] (main_arg0 : FVec F S2x1024x64 .f32) (main_arg1 : IVec S2x1024x1024 32) (main_arg2 : FVec F S64x64 .f32) (main_arg3 : FVec F S64 .f32) : IVec S_ 1 :=
  let main_v0 : FVec F S2x1024x64 .f32 := Host.absf main_arg0
  let main_cst : FVec F S_ .f32 := constant S_ .f32 0x7F800000#32
  let main_v1 : FVec F S2x1024x64 .f32 := broadcastInDim S2x1024x64 ![] bcast_S_S2x1024x64 main_cst
  let main_v2 : IVec S2x1024x64 1 := cmpf .olt main_v0 main_v1
  let main_c : IVec S_ 1 := constantI S_ 1 1#1
  let main_v3 : IVec S_ 1 := (fun x v => Host.reduce IntOp.andi x v reducesTo_S2x1024x64_S_d0_1_2 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S2x1024x1024 32 := broadcastInDim S2x1024x1024 ![] bcast_S_S2x1024x1024 main_c_4
  let main_v15 : IVec S2x1024x1024 1 := cmpi .eq main_arg1 main_v14
  let main_c_5 : IVec S_ 32 := constantI S_ 32 1#32
  fn_part1 (F := F) main_arg1 main_v13 main_v15 main_c_5
-- ==== Kernel.lean ====
abbrev S2x1024x64 : Shape := ⟨3, ![2, 1024, 64]⟩
abbrev S2x1024x1024 : Shape := ⟨3, ![2, 1024, 1024]⟩
abbrev S64x64 : Shape := ⟨2, ![64, 64]⟩
abbrev S64 : Shape := ⟨1, ![64]⟩
abbrev S1x64 : Shape := ⟨2, ![1, 64]⟩
abbrev S2048x64 : Shape := ⟨2, ![2048, 64]⟩
abbrev S1x1024x1024 : Shape := ⟨3, ![1, 1024, 1024]⟩
abbrev S1x1024x64 : Shape := ⟨3, ![1, 1024, 64]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S2x1024x64, .f32⟩
  | .hbm, ⟨1, _⟩ => ⟨S2x1024x1024, .i32⟩
  | .hbm, ⟨2, _⟩ => ⟨S64x64, .f32⟩
  | .hbm, ⟨3, _⟩ => ⟨S64, .f32⟩
  | .hbm, ⟨4, _⟩ => ⟨S1x64, .f32⟩
  | .hbm, ⟨5, _⟩ => ⟨S2048x64, .f32⟩
  | .local _ .vmem, ⟨0, _⟩ => ⟨S1x1024x1024, .i32⟩
  | .local _ .vmem, ⟨1, _⟩ => ⟨S1x1024x1024, .i32⟩
  | .local _ .vmem, ⟨2, _⟩ => ⟨S1x1024x64, .f32⟩
  | .local _ .vmem, ⟨3, _⟩ => ⟨S1x1024x64, .f32⟩
  | .local _ .vmem, ⟨4, _⟩ => ⟨S64x64, .f32⟩
  | .local _ .vmem, ⟨5, _⟩ => ⟨S1x64, .f32⟩
  | .local _ .vmem, ⟨6, _⟩ => ⟨S1024x64, .f32⟩
  | .local _ .vmem, ⟨7, _⟩ => ⟨S1024x64, .f32⟩
  | _, _ => ⟨S2x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64_S1x64 : S64.ShapeCasts S1x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [0] S1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S64x64_S64x64_0_0 : ∀ a, (![0, 0] : Fin 2 → Nat) a + S64x64.size a ≤ S64x64.size a
  h_S64x64 : 0 < S64x64.numel
  shapeCasts_S1024_S1024x1 : S1024.ShapeCasts S1024x1
  broadcasts_S1024x1_S1024x64 : S1024x1.Broadcasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  dot_S1024x64_S64x64_S1024x64_1_0_0_1_n_n_wf : DotDims.WF S1024x64 S64x64 S1024x64 [1] [0] [0] [1] [] []
  dot_S1024x1024_S1024x64_S1024x64_0_0_1_1_n_n_wf : DotDims.WF S1024x1024 S1024x64 S1024x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S2x1024x1024.size a
  hwx0_0 : ∀ i : grid0.Coords, EltTy.bits .i32 = 32 ∨ (Rect.block (s := S2x1024x1024) S1x1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S2x1024x64.size a
  hwx0_1 : ∀ i : grid0.Coords, EltTy.bits .f32 = 32 ∨ (Rect.block (s := S2x1024x64) S1x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S2048x64.size a
  hwx0_4 : ∀ i : grid0.Coords, EltTy.bits .f32 = 32 ∨ (Rect.block (s := S2048x64) S1024x64.size (cc0_transform_4 i) (hinb0_4 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x1024_S1024x64_S1024x64_0_0_1_1_n_n : DotDims S1024x1024 S1024x64 S1024x64 where
  lhsContracting := [0]
  rhsContracting := [0]
  lhsNonContracting := [1]
  rhsNonContracting := [1]
  lhsBatch := []
  rhsBatch := []
  wf := dot_S1024x1024_S1024x64_S1024x64_0_0_1_1_n_n_wf

abbrev win0_0 : Pipeline.Window sig grid0 :=
  Pipeline.Window.ofSpec (Memref.whole main_arg1) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x1024x64 : Shape := ⟨3, ![2, 1024, 64]⟩
abbrev S2x1024x1024 : Shape := ⟨3, ![2, 1024, 1024]⟩
abbrev S64x64 : Shape := ⟨2, ![64, 64]⟩
abbrev S64 : Shape := ⟨1, ![64]⟩
abbrev S1024 : Shape := ⟨1, ![1024]⟩
abbrev S1024x1 : Shape := ⟨2, ![1024, 1]⟩
abbrev S1024x1024 : Shape := ⟨2, ![1024, 1024]⟩
abbrev S1048576 : Shape := ⟨1, ![1048576]⟩
abbrev S1x1024 : Shape := ⟨2, ![1, 1024]⟩
abbrev S_ : Shape := ⟨0, ![]⟩
abbrev S1x1048576 : Shape := ⟨2, ![1, 1048576]⟩
abbrev S2x1048576 : Shape := ⟨2, ![2, 1048576]⟩
abbrev S1x1024x1024 : Shape := ⟨3, ![1, 1024, 1024]⟩
abbrev S2x2097152 : Shape := ⟨2, ![2, 2097152]⟩
abbrev S2097152 : Shape := ⟨1, ![2097152]⟩
abbrev S2048x64 : Shape := ⟨2, ![2048, 64]⟩
abbrev S1x2097152 : Shape := ⟨2, ![1, 2097152]⟩
abbrev S2048 : Shape := ⟨1, ![2048]⟩
abbrev S2099200 : Shape := ⟨1, ![2099200]⟩
abbrev S2099200x1 : Shape := ⟨2, ![2099200, 1]⟩
abbrev S2099200x64 : Shape := ⟨2, ![2099200, 64]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S2x1024x64, .f32⟩
  | .hbm, ⟨1, _⟩ => ⟨S2x1024x1024, .i32⟩
  | .hbm, ⟨2, _⟩ => ⟨S64x64, .f32⟩
  | .hbm, ⟨3, _⟩ => ⟨S64, .f32⟩
  | .hbm, ⟨4, _⟩ => ⟨S1024, .i32⟩
  | .hbm, ⟨5, _⟩ => ⟨S1024x1, .i32⟩
  | .hbm, ⟨6, _⟩ => ⟨S1024x1024, .i32⟩
  | .hbm, ⟨7, _⟩ => ⟨S1048576, .i32⟩
  | .hbm, ⟨8, _⟩ => ⟨S1x1024, .i32⟩
  | .hbm, ⟨9, _⟩ => ⟨S1024x1024, .i32⟩
  | .hbm, ⟨10, _⟩ => ⟨S1048576, .i32⟩
  | .hbm, ⟨11, _⟩ => ⟨S_, .i32⟩
  | .hbm, ⟨12, _⟩ => ⟨S1048576, .i32⟩
  | .hbm, ⟨13, _⟩ => ⟨S1048576, .i32⟩
  | .hbm, ⟨14, _⟩ => ⟨S_, .i32⟩
  | .hbm, ⟨15, _⟩ => ⟨S1048576, .i32⟩
  | .hbm, ⟨16, _⟩ => ⟨S1048576, .i32⟩
  | .hbm, ⟨17, _⟩ => ⟨S1x1048576, .i32⟩
  | .hbm, ⟨18, _⟩ => ⟨S1x1048576, .i32⟩
  | .hbm, ⟨19, _⟩ => ⟨S2x1048576, .i32⟩
  | .hbm, ⟨20, _⟩ => ⟨S1x1024x1024, .i32⟩
  | .hbm, ⟨21, _⟩ => ⟨S1024x1024, .i32⟩
  | .hbm, ⟨22, _⟩ => ⟨S_, .i32⟩
  | .hbm, ⟨23, _⟩ => ⟨S1024x1024, .i32⟩
  | .hbm, ⟨24, _⟩ => ⟨S1024x1024, .i1⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S_, .i32⟩
  | .hbm, ⟨30, _⟩ => ⟨S1048576, .i32⟩
  | .hbm, ⟨31, _⟩ => ⟨S1048576, .i32⟩
  | .hbm, ⟨32, _⟩ => ⟨S1x1048576, .i32⟩
  | .hbm, ⟨33, _⟩ => ⟨S1x1048576, .i32⟩
  | .hbm, ⟨34, _⟩ => ⟨S2x1048576, .i32⟩
  | .hbm, ⟨35, _⟩ => ⟨S1x1024x1024, .i32⟩
  | .hbm, ⟨36, _⟩ => ⟨S1024x1024, .i32⟩
  | .hbm, ⟨37, _⟩ => ⟨S_, .i32⟩
  | .hbm, ⟨38, _⟩ => ⟨S1024x1024, .i32⟩
  | .hbm, ⟨39, _⟩ => ⟨S1024x1024, .i1⟩
  | .hbm, ⟨40, _⟩ => ⟨S1048576, .i1⟩
  | .hbm, ⟨41, _⟩ => ⟨S2x2097152, .i32⟩
  | .hbm, ⟨42, _⟩ => ⟨S2097152, .i1⟩
  | .hbm, ⟨43, _⟩ => ⟨S2048x64, .f32⟩
  | .hbm, ⟨44, _⟩ => ⟨S2048x64, .f32⟩
  | .hbm, ⟨45, _⟩ => ⟨S1x2097152, .i32⟩
  | .hbm, ⟨46, _⟩ => ⟨S2097152, .i32⟩
  | .hbm, ⟨47, _⟩ => ⟨S1x2097152, .i32⟩
  | .hbm, ⟨48, _⟩ => ⟨S2097152, .i32⟩
  | .hbm, ⟨49, _⟩ => ⟨S2048, .i32⟩
  | .hbm, ⟨50, _⟩ => ⟨S2099200, .i32⟩
  | .hbm, ⟨51, _⟩ => ⟨S2099200, .i32⟩
  | .hbm, ⟨52, _⟩ => ⟨S2097152, .f32⟩
  | .hbm, ⟨53, _⟩ => ⟨S_, .f32⟩
  | .hbm, ⟨54, _⟩ => ⟨S2048, .f32⟩
  | .hbm, ⟨55, _⟩ => ⟨S2099200, .f32⟩
  | .hbm, ⟨56, _⟩ => ⟨S_, .f32⟩
  | .hbm, ⟨57, _⟩ => ⟨S2048, .f32⟩
  | .hbm, ⟨58, _⟩ => ⟨S_, .i32⟩
  | .hbm, ⟨59, _⟩ => ⟨S2099200, .i32⟩
  | .hbm, ⟨60, _⟩ => ⟨S2099200, .i1⟩
  | .hbm, ⟨61, _⟩ => ⟨S_, .i32⟩
  | .hbm, ⟨62, _⟩ => ⟨S2099200, .i32⟩
  | .hbm, ⟨63, _⟩ => ⟨S2099200, .i32⟩
  | .hbm, ⟨64, _⟩ => ⟨S2099200, .i32⟩
  | .hbm, ⟨65, _⟩ => ⟨S2099200x1, .i32⟩
  | .hbm, ⟨66, _⟩ => ⟨S2048, .f32⟩
  | .hbm, ⟨67, _⟩ => ⟨S_, .f32⟩
  | .hbm, ⟨68, _⟩ => ⟨S2048, .f32⟩
  | .hbm, ⟨69, _⟩ => ⟨S2048, .i1⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S2048, .f32⟩
  | .hbm, ⟨74, _⟩ => ⟨S_, .f32⟩
  | .hbm, ⟨75, _⟩ => ⟨S_, .f32⟩
  | .hbm, ⟨76, _⟩ => ⟨S2048, .f32⟩
  | .hbm, ⟨77, _⟩ => ⟨S2048, .f32⟩
  | .hbm, ⟨78, _⟩ => ⟨S_, .i32⟩
  | .hbm, ⟨79, _⟩ => ⟨S2099200, .i32⟩
  | .hbm, ⟨80, _⟩ => ⟨S2099200, .i1⟩
  | .hbm, ⟨81, _⟩ => ⟨S_, .i32⟩
  | .hbm, ⟨82, _⟩ => ⟨S2099200, .i32⟩
  | .hbm, ⟨83, _⟩ => ⟨S2099200, .i32⟩
  | .hbm, ⟨84, _⟩ => ⟨S2099200, .i32⟩
  | .hbm, ⟨85, _⟩ => ⟨S2099200x1, .i32⟩
  | .hbm, ⟨86, _⟩ => ⟨S2099200, .f32⟩
  | .hbm, ⟨87, _⟩ => ⟨S_, .i32⟩
  | .hbm, ⟨88, _⟩ => ⟨S2099200, .i32⟩
  | .hbm, ⟨89, _⟩ => ⟨S2099200, .i1⟩
  | .hbm, ⟨90, _⟩ => ⟨S_, .i32⟩
  | .hbm, ⟨91, _⟩ => ⟨S2099200, .i32⟩
  | .hbm, ⟨92, _⟩ => ⟨S2099200, .i32⟩
  | .hbm, ⟨93, _⟩ => ⟨S2099200, .i32⟩
  | .hbm, ⟨94, _⟩ => ⟨S2099200x1, .i32⟩
  | .hbm, ⟨95, _⟩ => ⟨S2099200, .f32⟩
  | .hbm, ⟨96, _⟩ => ⟨S2099200, .f32⟩
  | .hbm, ⟨97, _⟩ => ⟨S2099200, .f32⟩
  | .hbm, ⟨98, _⟩ => ⟨S_, .i32⟩
  | .hbm, ⟨99, _⟩ => ⟨S2099200, .i32⟩
  | .hbm, ⟨100, _⟩ => ⟨S2099200, .i1⟩
  | .hbm, ⟨101, _⟩ => ⟨S_, .i32⟩
  | .hbm, ⟨102, _⟩ => ⟨S2099200, .i32⟩
  | .hbm, ⟨103, _⟩ => ⟨S2099200, .i32⟩
  | .hbm, ⟨104, _⟩ => ⟨S2099200, .i32⟩
  | .hbm, ⟨105, _⟩ => ⟨S2099200x1, .i32⟩
  | .hbm, ⟨106, _⟩ => ⟨S2099200x64, .f32⟩
  | .hbm, ⟨107, _⟩ => ⟨S2099200x1, .f32⟩
  | .hbm, ⟨108, _⟩ => ⟨S2099200x64, .f32⟩
  | .hbm, ⟨109, _⟩ => ⟨S2099200x64, .f32⟩
  | .hbm, ⟨110, _⟩ => ⟨S_, .f32⟩
  | .hbm, ⟨111, _⟩ => ⟨S2048x64, .f32⟩
  | .hbm, ⟨112, _⟩ => ⟨S_, .i32⟩
  | .hbm, ⟨113, _⟩ => ⟨S2099200, .i32⟩
  | .hbm, ⟨114, _⟩ => ⟨S2099200, .i1⟩
  | .hbm, ⟨115, _⟩ => ⟨S_, .i32⟩
  | .hbm, ⟨116, _⟩ => ⟨S2099200, .i32⟩
  | .hbm, ⟨117, _⟩ => ⟨S2099200, .i32⟩
  | .hbm, ⟨118, _⟩ => ⟨S2099200, .i32⟩
  | .hbm, ⟨119, _⟩ => ⟨S2099200x1, .i32⟩
  | .hbm, ⟨120, _⟩ => ⟨S2048x64, .f32⟩
  | .hbm, ⟨121, _⟩ => ⟨S1x64, .f32⟩
  | .hbm, ⟨122, _⟩ => ⟨S2048x64, .f32⟩
  | .hbm, ⟨123, _⟩ => ⟨S2048x64, .f32⟩
  | _, _ => ⟨S2x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_c_6 : Ref sig .tc := ⟨.hbm, 58, rfl⟩
abbrev main_v46 : Ref sig .tc := ⟨.hbm, 59, rfl⟩
abbrev main_v47 : Ref sig .tc := ⟨.hbm, 60, rfl⟩
abbrev main_c_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_8 : Ref sig .tc := ⟨.hbm, 67, rfl⟩
abbrev main_v53 : Ref sig .tc := ⟨.hbm, 68, rfl⟩
abbrev main_v54 : Ref sig .tc := ⟨.hbm, 69, rfl⟩
abbrev main_cst_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_10 : Ref sig .tc := ⟨.hbm, 74, rfl⟩
abbrev main_call0_v0 : Ref sig .tc := ⟨.hbm, 75, rfl⟩
abbrev main_call0_v1 : Ref sig .tc := ⟨.hbm, 76, rfl⟩
abbrev main_v58 : Ref sig .tc := ⟨.hbm, 77, rfl⟩
abbrev main_c_11 : Ref sig .tc := ⟨.hbm, 78, rfl⟩
abbrev main_v59 : Ref sig .tc := ⟨.hbm, 79, rfl⟩
abbrev main_v60 : Ref sig .tc := ⟨.hbm, 80, rfl⟩
abbrev main_c_12 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_13 : Ref sig .tc := ⟨.hbm, 87, rfl⟩
abbrev main_v66 : Ref sig .tc := ⟨.hbm, 88, rfl⟩
abbrev main_v67 : Ref sig .tc := ⟨.hbm, 89, rfl⟩
abbrev main_c_14 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_15 : Ref sig .tc := ⟨.hbm, 98, rfl⟩
abbrev main_v75 : Ref sig .tc := ⟨.hbm, 99, rfl⟩
abbrev main_v76 : Ref sig .tc := ⟨.hbm, 100, rfl⟩
abbrev main_c_16 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_17 : Ref sig .tc := ⟨.hbm, 110, rfl⟩
abbrev main_v85 : Ref sig .tc := ⟨.hbm, 111, rfl⟩
abbrev main_c_18 : Ref sig .tc := ⟨.hbm, 112, rfl⟩
abbrev main_v86 : Ref sig .tc := ⟨.hbm, 113, rfl⟩
abbrev main_v87 : Ref sig .tc := ⟨.hbm, 114, rfl⟩
abbrev main_c_19 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩

abbrev nD : Nat := 1
abbrev τ : Topo := Topo.v7x

variable {F : FTy → Type} [FloatOps F]

class Facts₀ : Prop where
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  shapeCasts_S1024x1024_S1048576 : S1024x1024.ShapeCasts S1048576
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1048576 : S_.BroadcastsInDim S1048576 (![] : Fin 0 → Fin S1048576.rank)
  bcast_S1048576_S1x1048576_1 : S1048576.BroadcastsInDim S1x1048576 (![1] : Fin 1 → Fin S1x1048576.rank)
  concatenates_S1x1048576_S1x1048576_S2x1048576_d0 : Shape.Concatenates [S1x1048576, S1x1048576] S2x1048576 0
  slices_S2x1024x1024_S1x1024x1024_0_0_0 : S2x1024x1024.Slices ![0, 0, 0] S1x1024x1024
  shapeCasts_S1x1024x1024_S1024x1024 : S1x1024x1024.ShapeCasts S1024x1024
  bcast_S_S1024x1024 : S_.BroadcastsInDim S1024x1024 (![] : Fin 0 → Fin S1024x1024.rank)
  slices_S2x1024x1024_S1x1024x1024_1_0_0 : S2x1024x1024.Slices ![1, 0, 0] S1x1024x1024
  concatenates_S2x1048576_S2x1048576_S2x2097152_d1 : Shape.Concatenates [S2x1048576, S2x1048576] S2x2097152 1
  concatenates_S1048576_S1048576_S2097152_d0 : Shape.Concatenates [S1048576, S1048576] S2097152 0
  shapeCasts_S2x1024x64_S2048x64 : S2x1024x64.ShapeCasts S2048x64
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  concatenates_S2097152_S2048_S2099200_d0 : Shape.Concatenates [S2097152, S2048] S2099200 0
  bcast_S_S2048 : S_.BroadcastsInDim S2048 (![] : Fin 0 → Fin S2048.rank)
  bcast_S_S2099200 : S_.BroadcastsInDim S2099200 (![] : Fin 0 → Fin S2099200.rank)
  bcast_S2099200_S2099200x1_0 : S2099200.BroadcastsInDim S2099200x1 (![0] : Fin 1 → Fin S2099200x1.rank)
  bcast_S2099200x1_S2099200x64_0_1 : S2099200x1.BroadcastsInDim S2099200x64 (![0, 1] : Fin 2 → Fin S2099200x64.rank)
  bcast_S_S2048x64 : S_.BroadcastsInDim S2048x64 (![] : Fin 0 → Fin S2048x64.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  dot_S2048x64_S64x64_S2048x64_1_0_0_1_n_n_wf : DotDims.WF S2048x64 S64x64 S2048x64 [1] [0] [0] [1] [] []
  scatter_S2048_S2099200x1_S2099200_n_0_0_1_wf : ScatterDims.WF S2048 S2099200x1 S2099200 [] [0] [0] 1
  gather_S2048_S2099200x1_S2099200_n_0_n_n_0_1_1_wf : GatherDims.WF S2048 S2099200x1 S2099200 [] [0] [] [0] [] 1 ![1]
  gather_S2048x64_S2099200x1_S2099200x64_1_0_n_n_0_1_164_wf : GatherDims.WF S2048x64 S2099200x1 S2099200x64 [1] [0] [] [0] [] 1 ![1, 64]
  scatter_S2048x64_S2099200x1_S2099200x64_1_0_0_1_wf : ScatterDims.WF S2048x64 S2099200x1 S2099200x64 [1] [0] [0] 1

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def scatter_S2048_S2099200x1_S2099200_n_0_0_1 : ScatterDims S2048 S2099200x1 S2099200 where
  updateWindowDims := []
  insertedWindowDims := [0]
  scatterDimsToOperandDims := [0]
  indexVectorDim := 1
  wf := scatter_S2048_S2099200x1_S2099200_n_0_0_1_wf
def gather_S2048_S2099200x1_S2099200_n_0_n_n_0_1_1 : GatherDims S2048 S2099200x1 S2099200 where
  offsetDims := []
  collapsedSliceDims := [0]
  operandBatchingDims := []
  startIndicesBatchingDims := []
  startIndexMap := [0]
  indexVectorDim := 1
  sliceSizes := ![1]
  wf := gather_S2048_S2099200x1_S2099200_n_0_n_n_0_1_1_wf
def gather_S2048x64_S2099200x1_S2099200x64_1_0_n_n_0_1_164 : GatherDims S2048x64 S2099200x1 S2099200x64 where
  offsetDims := [1]
  collapsedSliceDims := [0]
  operandBatchingDims := []
  startIndicesBatchingDims := []
  startIndexMap := [0]
  indexVectorDim := 1
  sliceSizes := ![1, 64]
  wf := gather_S2048x64_S2099200x1_S2099200x64_1_0_n_n_0_1_164_wf
def scatter_S2048x64_S2099200x1_S2099200x64_1_0_0_1 : ScatterDims S2048x64 S2099200x1 S2099200x64 where
  updateWindowDims := [1]
  insertedWindowDims := [0]
  scatterDimsToOperandDims := [0]
  indexVectorDim := 1
  wf := scatter_S2048x64_S2099200x1_S2099200x64_1_0_0_1_wf

class Facts : Prop extends Facts₀ where

variable [Facts]
-- ==== Proof.Spec.lean ====
/-
  A graph convolution on two samples of 1024 nodes each, 64 features in and 64 out.

  For sample `s` the adjacency entry `a s i j` says that node `i` sends to node `j`. Node `j` receives from every
  sender and from itself, so its degree is `1 + ∑ i, a s i j`, and it is normalised by `dinv s j = 1 / √(deg s j)`.
  With `feat s i d = ∑ k, x s i k · w k d` the layer's output at node `j`, feature `d` is

      dinv s j · (∑ i, a s i j · (feat s i d · dinv s i) + feat s j d · dinv s j) + b d ,

  and the two samples are stacked: row `s · 1024 + j` of the result. The same number, with the normalisation applied
  edge by edge, is `∑ i, feat s i d · (dinv s i · dinv s j · a s i j) + feat s j d · (dinv s j · dinv s j · 1) + b d`:
  the edge list of all 2 · 1024 · 1024 candidate pairs followed by the 2048 self loops is numbered by `edgeIx` and `loopIx`.
-/
import Idealize.ShloMosaic.PureOps.Ideal
import Idealize.ShloMosaic.Lib.ValueIdx

noncomputable section

open scoped BigOperators

namespace Cert.GraphConv

open Idealize.ShloMosaic Idealize.ShloMosaic.ValueIdx

/-- The features `[2, 1024, 64]`, the adjacency words `[2, 1024, 1024]`, the weights `[64, 64]`, the bias `[64]` and
    the result `[2048, 64]`. -/
abbrev SX : Shape := ⟨3, ![2, 1024, 64]⟩
abbrev SC : Shape := ⟨3, ![2, 1024, 1024]⟩
abbrev SW : Shape := ⟨2, ![64, 64]⟩
abbrev SB : Shape := ⟨1, ![64]⟩
abbrev SO : Shape := ⟨2, ![2048, 64]⟩

/-! ## Rows of the stacked samples -/

/-- Node `j` of sample `s` is row `s · 1024 + j`. -/
def rowOf (s : Fin 2) (j : Fin 1024) : Fin 2048 := ⟨s.val * 1024 + j.val, by omega⟩
def sampleOf (r : Fin 2048) : Fin 2 := ⟨r.val / 1024, by omega⟩
def nodeOf (r : Fin 2048) : Fin 1024 := ⟨r.val % 1024, by omega⟩

theorem rowOf_sampleOf_nodeOf (r : Fin 2048) : rowOf (sampleOf r) (nodeOf r) = r := by
  apply Fin.ext; show r.val / 1024 * 1024 + r.val % 1024 = r.val; omega

theorem sampleOf_rowOf (s : Fin 2) (j : Fin 1024) : sampleOf (rowOf s j) = s := by
  apply Fin.ext; show (s.val * 1024 + j.val) / 1024 = s.val; omega

theorem nodeOf_rowOf (s : Fin 2) (j : Fin 1024) : nodeOf (rowOf s j) = j := by
  apply Fin.ext; show (s.val * 1024 + j.val) % 1024 = j.val; omega

theorem rowOf_val (s : Fin 2) (j : Fin 1024) : (rowOf s j).val = s.val * 1024 + j.val := rfl

/-! ## The edge list -/

/-- The candidate pair (sender `i`, receiver `j`) of sample `s` is entry `s · 1024² + i · 1024 + j` of the edge list. -/
def edgeIx (s : Fin 2) (i j : Fin 1024) : Fin 2099200 := ⟨s.val * 1048576 + i.val * 1024 + j.val, by omega⟩
/-- The self loop of row `r` is entry `2 · 1024² + r`. -/
def loopIx (r : Fin 2048) : Fin 2099200 := ⟨2097152 + r.val, by omega⟩

theorem edgeIx_val (s : Fin 2) (i j : Fin 1024) : (edgeIx s i j).val = s.val * 1048576 + i.val * 1024 + j.val := rfl
theorem loopIx_val (r : Fin 2048) : (loopIx r).val = 2097152 + r.val := rfl

/-- Every entry of the edge list is a candidate pair or a self loop. -/
theorem edge_or_loop (e : Fin 2099200) :
    (∃ (s : Fin 2) (i j : Fin 1024), e = edgeIx s i j) ∨ (∃ r : Fin 2048, e = loopIx r) := by
  by_cases h : e.val < 2097152
  · left
    refine ⟨⟨e.val / 1048576, by omega⟩, ⟨e.val % 1048576 / 1024, by omega⟩, ⟨e.val % 1024, by omega⟩, Fin.ext ?_⟩
    show e.val = e.val / 1048576 * 1048576 + e.val % 1048576 / 1024 * 1024 + e.val % 1024
    omega
  · right
    exact ⟨⟨e.val - 2097152, by omega⟩, Fin.ext (by show e.val = 2097152 + (e.val - 2097152); omega)⟩

/-! ## The layer -/

variable (X : SX.Idx → EReal) (Cn : SC.Idx → BitVec 32) (W : SW.Idx → EReal) (Bv : SB.Idx → EReal)

/-- The adjacency word as a number: the integer it spells, signed. -/
def adj (s : Fin 2) (i j : Fin 1024) : EReal := (((Cn (ix3 s i j)).toInt : ℝ) : EReal)

/-- The features of node `i` times the weights. -/
def feat (s : Fin 2) (i : Fin 1024) (d : Fin 64) : EReal := ∑ k : Fin 64, X (ix3 s i k) * W (ix2 k d)

/-- The degree of node `j`: itself and its senders. -/
def deg (s : Fin 2) (j : Fin 1024) : EReal := 1 + ∑ i : Fin 1024, adj Cn s i j

/-- One over the square root of the degree. -/
def dinv (s : Fin 2) (j : Fin 1024) : EReal := Ideal.rsqrt (deg Cn s j)

/-- The features of node `i` times the weights, normalised at the sender. -/
def scaled (s : Fin 2) (i : Fin 1024) (d : Fin 64) : EReal := feat X W s i d * dinv Cn s i

/-- The layer at node `j` of sample `s`, feature `d`. -/
def out (s : Fin 2) (j : Fin 1024) (d : Fin 64) : EReal :=
  dinv Cn s j * ((∑ i : Fin 1024, adj Cn s i j * scaled X Cn W s i d) + scaled X Cn W s j d) + Bv (ix1 d)

/-- The result array: row `s · 1024 + j` is node `j` of sample `s`. -/
def result : SO.Idx → EReal := fun idx => out X Cn W Bv (sampleOf (idx 0)) (nodeOf (idx 0)) (idx 1)

theorem result_at (s : Fin 2) (j : Fin 1024) (d : Fin 64) :
    result X Cn W Bv (ix2 (rowOf s j) d) = out X Cn W Bv s j d := by
  show out X Cn W Bv (sampleOf (rowOf s j)) (nodeOf (rowOf s j)) d = _
  rw [sampleOf_rowOf, nodeOf_rowOf]

end Cert.GraphConv

end
-- ==== Proof.LibProductColsAt.lean ====
/-
  A product of two matrices that share their ROW index — both factors contracted along axis 0, no batch axis, the kept
  axes the two factors' columns: [K, A] × [K, B] → [A, B] (the left factor used transposed: lᵀ · r) — read at an entry
  (a, b): the sum over the contraction index is Σ_{k<K} l(k, a) · r(k, b), so the product into the zero accumulator is
  that sum and reads one column of each factor. The two facts a reading needs about the kept coordinates (the left factor
  is read in column a, the right factor in column b) are proved here once from the dimension numbers' lists, for any
  record with those lists; an instance at a literal record supplies each list by `rfl`.
  General: nothing here depends on a particular program.
-/
import Idealize.ShloMosaic.Lib.ValueIdx
import Idealize.ShloMosaic.PureOps.Ideal.Laws

noncomputable section

open scoped BigOperators

namespace Cert.LibProductColsAt

open Idealize.ShloMosaic Idealize.ShloMosaic.ValueIdx

variable {A B K : Nat}

/-- The left factor is read in the column named by the result's row coordinate. -/
theorem lhs_col (d : DotDims (⟨2, ![K, A]⟩ : Shape) (⟨2, ![K, B]⟩ : Shape) (⟨2, ![A, B]⟩ : Shape))
    (hlb : d.lhsBatch = []) (hln : d.lhsNonContracting = [(1 : Fin 2)])
    (j : (⟨2, ![A, B]⟩ : Shape).Idx) (q : d.contr.Idx) : (d.lhsIdx j q 1).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![K, A]⟩ : Shape) (⟨2, ![K, B]⟩ : Shape) (⟨2, ![A, B]⟩ : Shape))
    (hlb : d.lhsBatch = []) (hln : d.lhsNonContracting = [(1 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a product along the shared row index, at (a, b): Σ_k l(k, a) · r(k, b). -/
theorem sum_at {φ₁ φ₂ : FTy} (d : DotDims (⟨2, ![K, A]⟩ : Shape) (⟨2, ![K, B]⟩ : Shape) (⟨2, ![A, B]⟩ : Shape))
    (hr : d.contr.rank = 1) (hs : d.contr.size ⟨0, by omega⟩ = K)
    (hlc : d.lhsContracting = [(0 : Fin 2)]) (hrc : d.rhsContracting = [(0 : Fin 2)])
    (hlb : d.lhsBatch = []) (hln : d.lhsNonContracting = [(1 : Fin 2)])
    (hrb : d.rhsBatch = []) (hrn : d.rhsNonContracting = [(1 : Fin 2)])
    (l : FVec Ideal (⟨2, ![K, A]⟩ : Shape) φ₁) (r : FVec Ideal (⟨2, ![K, B]⟩ : Shape) φ₂) (a : Fin A) (b : Fin B) :
    ∑ c : d.contr.Idx, l (d.lhsIdx (ix2 a b) c) * r (d.rhsIdx (ix2 a b) c) = ∑ k : Fin K, l (ix2 k a) * r (ix2 k b) := by
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 k a :=
    funext fun c => Fin.ext (by
      match c with
      | ⟨0, _⟩ => exact (d.lhsIdx_val_of_single hlc (ix2 a b) _).trans hk
      | ⟨1, _⟩ => exact lhs_col d hlb hln (ix2 a b) _)
  have er : d.rhsIdx (ix2 a b) ((contrEquiv1 d K hr hs).symm k) = ix2 k b :=
    funext fun c => Fin.ext (by
      match c with
      | ⟨0, _⟩ => exact (d.rhsIdx_val_of_single hrc (ix2 a b) _).trans hk
      | ⟨1, _⟩ => exact rhs_col d hlb hln hrb hrn (ix2 a b) _)
  rw [el, er]

/-- A product along the shared row index into the zero accumulator, at (a, b). -/
theorem matmul_zero_at {φ₁ φ₂ : FTy} (d : DotDims (⟨2, ![K, A]⟩ : Shape) (⟨2, ![K, B]⟩ : Shape) (⟨2, ![A, B]⟩ : Shape))
    (hr : d.contr.rank = 1) (hs : d.contr.size ⟨0, by omega⟩ = K)
    (hlc : d.lhsContracting = [(0 : Fin 2)]) (hrc : d.rhsContracting = [(0 : Fin 2)])
    (hlb : d.lhsBatch = []) (hln : d.lhsNonContracting = [(1 : Fin 2)])
    (hrb : d.rhsBatch = []) (hrn : d.rhsNonContracting = [(1 : Fin 2)])
    (prec : Option ContractPrecision)
    (l : FVec Ideal (⟨2, ![K, A]⟩ : Shape) φ₁) (r : FVec Ideal (⟨2, ![K, B]⟩ : Shape) φ₂) (a : Fin A) (b : Fin B) :
    FloatOps.matmul d prec l r (constant (⟨2, ![A, B]⟩ : Shape) .f32 0x00000000#32) (ix2 a b)
      = ∑ k : Fin K, l (ix2 k a) * r (ix2 k b) := by
  rw [Ideal.matmul_constant_zero_apply]
  exact sum_at d hr hs hlc hrc hlb hln hrb hrn l r a b

end Cert.LibProductColsAt

end
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«117760_g41240275976349_cont_sun_c4_136_3_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibSmallF32.lean ====
import Idealize.ShloMosaic.PureOps.Ideal

/-!
# The single-precision patterns of the integers 1 … 9

At the exact instance a float literal denotes the dyadic rational its IEEE pattern spells. For the nine small
integers that multiply an angle (`m·φ`, `m = 1 … 9`) that rational is the integer itself.
-/

noncomputable section

namespace Cert.LibSmallF32

open Idealize.ShloMosaic

theorem f32_1 : Ideal.ofBits .f32 0x3F800000#32 = ((1 : ℝ) : EReal) := by
  simp [Ideal.ofBits, Ideal.ieee, -EReal.coe_mul]; norm_num
theorem f32_2 : Ideal.ofBits .f32 0x40000000#32 = ((2 : ℝ) : EReal) := by
  simp [Ideal.ofBits, Ideal.ieee, -EReal.coe_mul]; norm_num
theorem f32_3 : Ideal.ofBits .f32 0x40400000#32 = ((3 : ℝ) : EReal) := by
  simp [Ideal.ofBits, Ideal.ieee, -EReal.coe_mul]; norm_num
theorem f32_4 : Ideal.ofBits .f32 0x40800000#32 = ((4 : ℝ) : EReal) := by
  simp [Ideal.ofBits, Ideal.ieee, -EReal.coe_mul]; norm_num
theorem f32_5 : Ideal.ofBits .f32 0x40A00000#32 = ((5 : ℝ) : EReal) := by
  simp [Ideal.ofBits, Ideal.ieee, -EReal.coe_mul]; norm_num
theorem f32_6 : Ideal.ofBits .f32 0x40C00000#32 = ((6 : ℝ) : EReal) := by
  simp [Ideal.ofBits, Ideal.ieee, -EReal.coe_mul]; norm_num
theorem f32_7 : Ideal.ofBits .f32 0x40E00000#32 = ((7 : ℝ) : EReal) := by
  simp [Ideal.ofBits, Ideal.ieee, -EReal.coe_mul]; norm_num
theorem f32_8 : Ideal.ofBits .f32 0x41000000#32 = ((8 : ℝ) : EReal) := by
  simp [Ideal.ofBits, Ideal.ieee, -EReal.coe_mul]; norm_num
theorem f32_9 : Ideal.ofBits .f32 0x41100000#32 = ((9 : ℝ) : EReal) := by
  simp [Ideal.ofBits, Ideal.ieee, -EReal.coe_mul]; norm_num

end Cert.LibSmallF32

end
-- ==== Proof.KernelPayload.lean ====
/-
  The body of the graph-convolution kernel at one grid point, read at a node and a feature.

  The body loads one sample's adjacency words a[i, j] (sender i, receiver j), its features x[i, k], the weights w[k, d] and the
  bias row, and stores, for node j and feature d,

      r(j) · ( Σ_i a(i, j) · (f(i, d) · r(i)) + f(j, d) · r(j) ) + b(d),     f(i, d) = Σ_k x(i, k) · w(k, d),
      r(j) = 1 / √(1 + Σ_i a(i, j)),

  with a(i, j) the signed integer the word spells. Each operation of the body is read at an index by one small lemma; the
  body's intermediate vectors (the adjacency numbers, the inverse square roots of the degrees, the scaled features) are named,
  so that the sums over the senders rewrite term by term. The last lemma identifies the result with the layer of the
  specification when the four blocks are the sample's parts of the four arrays.
-/
import proofs.«117760_g41240275976349_cont_sun_c4_136_3_alg».proof.Proof.Gen.KernelIdeal.Skeleton
import proofs.«117760_g41240275976349_cont_sun_c4_136_3_alg».proof.Proof.Spec
import proofs.«117760_g41240275976349_cont_sun_c4_136_3_alg».proof.Proof.LibProductColsAt
import proofs.«117760_g41240275976349_cont_sun_c4_136_3_alg».proof.Proof.LibPlainDot
import proofs.«117760_g41240275976349_cont_sun_c4_136_3_alg».proof.Proof.LibColumn
import proofs.«117760_g41240275976349_cont_sun_c4_136_3_alg».proof.Proof.LibLayout
import proofs.«117760_g41240275976349_cont_sun_c4_136_3_alg».proof.Proof.LibSmallF32
import Idealize.ShloMosaic.Lib.ValueLayout
import Idealize.ShloMosaic.Lib.Pipeline.Value

noncomputable section

open scoped BigOperators

namespace Cert.KernelIdeal.Bridge

open Cert.KernelIdeal Cert.KernelIdeal.Gen Idealize.ShloMosaic Idealize.ShloMosaic.ValueIdx

/-! ## The body's operations, one at a time, read at an index -/

/-- The adjacency block as numbers: entry (i, j) of the recast block is the signed integer its word spells. -/
theorem adjacency_cast_at (v0 : IVec S1x1024x1024 32) (i j : Fin 1024) :
    (sitofp .f32 (shapeCast S1024x1024 v0 shapeCasts_S1x1024x1024_S1024x1024) : FVec Ideal S1024x1024 .f32) (ix2 i j)
      = (((v0 (ix3 (0 : Fin 1) i j)).toInt : ℝ) : EReal) := by
  rw [sitofp_apply, shapeCast_1ab_ab_apply]
  rfl

/-- The column sums: the reduction over the senders' axis, at receiver j, is the sum over the senders. -/
theorem column_sum_at (v2 : FVec Ideal S1024x1024 .f32) (j : Fin 1024) :
    multiReduction (F := Ideal) .add [0] S1024 v2 0x00000000#32 reduces_S1024x1024_S1024 (.inl rfl) rfl (ix1 j)
      = ∑ i : Fin 1024, v2 (ix2 i j) := by
  refine (Ideal.multiReduction_add_single v2 0x00000000#32 reduces_S1024x1024_S1024 (.inl rfl) rfl (ix1 j)).trans ?_
  refine Finset.sum_congr rfl fun i _ => congrArg v2 ?_
  funext a
  apply Fin.ext
  match a with
  | ⟨0, _⟩ => rfl
  | ⟨1, _⟩ => rfl

/-- One over the square root, entry by entry. -/
theorem rsqrt_at (v : FVec Ideal S1024 .f32) (j : Fin 1024) : (rsqrt v : FVec Ideal S1024 .f32) (ix1 j) = Ideal.rsqrt (v (ix1 j)) := rfl

/-- One plus a vector: the splat of the pattern of 1 is the number 1. -/
theorem one_add_at (v3 : FVec Ideal S1024 .f32) (j : Fin 1024) :
    (addf (broadcast S1024 (Scalar.ofBits (F := Ideal) .f32 0x3F800000#32)) v3 : FVec Ideal S1024 .f32) (ix1 j) = 1 + v3 (ix1 j) := by
  rw [addf_apply, broadcast_apply]
  show Ideal.ofBits .f32 0x3F800000#32 + _ = _
  rw [Cert.LibSmallF32.f32_1]
  rfl

/-- The features times the weights: entry (i, d) of the product into the zero accumulator. -/
theorem features_at (v8 : FVec Ideal S1024x64 .f32) (v9 : FVec Ideal S64x64 .f32) (i : Fin 1024) (d : Fin 64) :
    (matmul dot_S1024x64_S64x64_S1024x64_1_0_0_1_n_n none v8 v9 (constant S1024x64 .f32 0x00000000#32) : FVec Ideal S1024x64 .f32) (ix2 i d)
      = ∑ k : Fin 64, v8 (ix2 i k) * v9 (ix2 k d) :=
  Cert.LibPlainDot.matmul_zero_at (A := 1024) (B := 64) (K := 64) dot_S1024x64_S64x64_S1024x64_1_0_0_1_n_n rfl rfl rfl rfl rfl rfl rfl rfl none v8 v9 i d

/-- The senders' messages gathered: entry (j, d) of the product along the shared sender axis into the zero accumulator. -/
theorem gathered_at (v2 : FVec Ideal S1024x1024 .f32) (v13 : FVec Ideal S1024x64 .f32) (j : Fin 1024) (d : Fin 64) :
    (matmul dot_S1024x1024_S1024x64_S1024x64_0_0_1_1_n_n none v2 v13 (constant S1024x64 .f32 0x00000000#32) : FVec Ideal S1024x64 .f32) (ix2 j d)
      = ∑ i : Fin 1024, v2 (ix2 i j) * v13 (ix2 i d) :=
  Cert.LibProductColsAt.matmul_zero_at (A := 1024) (B := 64) (K := 1024) dot_S1024x1024_S1024x64_S1024x64_0_0_1_1_n_n rfl rfl rfl rfl rfl rfl rfl rfl none v2 v13 j d

/-- A vector over the nodes spread along the features: entry (i, d) is the vector's entry i. -/
theorem spread_at (v6 : FVec Ideal S1024 .f32) (i : Fin 1024) (d : Fin 64) :
    (broadcastTo S1024x64 (shapeCast S1024x1 v6 shapeCasts_S1024_S1024x1) broadcasts_S1024x1_S1024x64 : FVec Ideal S1024x64 .f32) (ix2 i d)
      = v6 (ix1 i) := by
  rw [broadcastTo_a1_ab_apply, shapeCast_a_a1_apply]

/-- The bias row spread over the nodes: entry (j, d) is the row's entry d. -/
theorem bias_at (v19 : FVec Ideal S1x64 .f32) (j : Fin 1024) (d : Fin 64) :
    (broadcastTo S1024x64 (shapeCast S1x64 v19 shapeCasts_S1x64_S1x64) broadcasts_S1x64_S1024x64 : FVec Ideal S1024x64 .f32) (ix2 j d)
      = v19 (ix2 (0 : Fin 1) d) := by
  rw [broadcastTo_1b_ab_apply, shapeCast_self]

/-! ## The body's intermediate vectors -/

/-- The adjacency block as numbers. -/
def adjacency (v0 : IVec S1x1024x1024 32) : FVec Ideal S1024x1024 .f32 :=
  sitofp .f32 (shapeCast S1024x1024 v0 shapeCasts_S1x1024x1024_S1024x1024)

/-- One over the square root of each node's degree: one plus its column sum. -/
def invSqrtDeg (v0 : IVec S1x1024x1024 32) : FVec Ideal S1024 .f32 :=
  rsqrt (addf (broadcast S1024 (Scalar.ofBits (F := Ideal) .f32 0x3F800000#32))
    (multiReduction (F := Ideal) .add [0] S1024 (adjacency v0) 0x00000000#32 reduces_S1024x1024_S1024 (.inl rfl) rfl))

/-- The features times the weights, scaled at the sender. -/
def message (v0 : IVec S1x1024x1024 32) (v7 : FVec Ideal S1x1024x64 .f32) (v9 : FVec Ideal S64x64 .f32) : FVec Ideal S1024x64 .f32 :=
  mulf (matmul dot_S1024x64_S64x64_S1024x64_1_0_0_1_n_n none (shapeCast S1024x64 v7 shapeCasts_S1x1024x64_S1024x64) v9
      (constant S1024x64 .f32 0x00000000#32))
    (broadcastTo S1024x64 (shapeCast S1024x1 (invSqrtDeg v0) shapeCasts_S1024_S1024x1) broadcasts_S1024x1_S1024x64)

/-- The body's result is: gather the messages along the senders, add the node's own, scale at the receiver, add the bias. -/
theorem payload_eq (v0 : IVec S1x1024x1024 32) (v7 : FVec Ideal S1x1024x64 .f32) (v9 : FVec Ideal S64x64 .f32)
    (v19 : FVec Ideal S1x64 .f32) :
    k0_pay1 (F := Ideal) v0 v7 v9 v19
      = addf (mulf (broadcastTo S1024x64 (shapeCast S1024x1 (invSqrtDeg v0) shapeCasts_S1024_S1024x1) broadcasts_S1024x1_S1024x64)
              (addf (matmul dot_S1024x1024_S1024x64_S1024x64_0_0_1_1_n_n none (adjacency v0) (message v0 v7 v9)
                      (constant S1024x64 .f32 0x00000000#32))
                    (message v0 v7 v9)))
          (broadcastTo S1024x64 (shapeCast S1x64 v19 shapeCasts_S1x64_S1x64) broadcasts_S1x64_S1024x64) := rfl

theorem adjacency_at (v0 : IVec S1x1024x1024 32) (i j : Fin 1024) :
    adjacency v0 (ix2 i j) = (((v0 (ix3 (0 : Fin 1) i j)).toInt : ℝ) : EReal) :=
  adjacency_cast_at v0 i j

theorem invSqrtDeg_at (v0 : IVec S1x1024x1024 32) (j : Fin 1024) :
    invSqrtDeg v0 (ix1 j) = Ideal.rsqrt (1 + ∑ i : Fin 1024, (((v0 (ix3 (0 : Fin 1) i j)).toInt : ℝ) : EReal)) := by
  unfold invSqrtDeg
  rw [rsqrt_at, one_add_at, column_sum_at]
  simp only [adjacency_at]

theorem message_at (v0 : IVec S1x1024x1024 32) (v7 : FVec Ideal S1x1024x64 .f32) (v9 : FVec Ideal S64x64 .f32)
    (i : Fin 1024) (d : Fin 64) :
    message v0 v7 v9 (ix2 i d)
      = (∑ k : Fin 64, v7 (ix3 (0 : Fin 1) i k) * v9 (ix2 k d))
          * Ideal.rsqrt (1 + ∑ i' : Fin 1024, (((v0 (ix3 (0 : Fin 1) i' i)).toInt : ℝ) : EReal)) := by
  unfold message
  rw [mulf_apply, features_at, spread_at, invSqrtDeg_at]
  simp only [shapeCast_1ab_ab_apply]

/-! ## The body's result at a node and a feature -/

/-- The body's result at node j, feature d, as a term of the four loaded blocks. -/
theorem payload_block_at (v0 : IVec S1x1024x1024 32) (v7 : FVec Ideal S1x1024x64 .f32) (v9 : FVec Ideal S64x64 .f32)
    (v19 : FVec Ideal S1x64 .f32) (j : Fin 1024) (d : Fin 64) :
    k0_pay1 (F := Ideal) v0 v7 v9 v19 (ix2 j d)
      = Ideal.rsqrt (1 + ∑ i : Fin 1024, (((v0 (ix3 (0 : Fin 1) i j)).toInt : ℝ) : EReal))
          * ((∑ i : Fin 1024, (((v0 (ix3 (0 : Fin 1) i j)).toInt : ℝ) : EReal)
                * ((∑ k : Fin 64, v7 (ix3 (0 : Fin 1) i k) * v9 (ix2 k d))
                    * Ideal.rsqrt (1 + ∑ i' : Fin 1024, (((v0 (ix3 (0 : Fin 1) i' i)).toInt : ℝ) : EReal))))
              + (∑ k : Fin 64, v7 (ix3 (0 : Fin 1) j k) * v9 (ix2 k d))
                  * Ideal.rsqrt (1 + ∑ i : Fin 1024, (((v0 (ix3 (0 : Fin 1) i j)).toInt : ℝ) : EReal)))
          + v19 (ix2 (0 : Fin 1) d) := by
  rw [payload_eq, addf_apply, bias_at, mulf_apply, spread_at, invSqrtDeg_at, addf_apply, gathered_at, message_at]
  simp only [adjacency_at, message_at]

/-- When the four blocks are sample s's parts of the four arrays (the adjacency words and the features of sample s, the
    weights, the bias laid out as a row), the body's result at node j, feature d, is the layer there. -/
theorem payload_at (X : Cert.GraphConv.SX.Idx → EReal) (Cn : Cert.GraphConv.SC.Idx → BitVec 32)
    (W : Cert.GraphConv.SW.Idx → EReal) (Bv : Cert.GraphConv.SB.Idx → EReal) (s : Fin 2)
    (v0 : IVec S1x1024x1024 32) (v7 : FVec Ideal S1x1024x64 .f32) (v9 : FVec Ideal S64x64 .f32) (v19 : FVec Ideal S1x64 .f32)
    (h0 : ∀ i j : Fin 1024, v0 (ix3 (0 : Fin 1) i j) = Cn (ix3 s i j))
    (h7 : ∀ (i : Fin 1024) (k : Fin 64), v7 (ix3 (0 : Fin 1) i k) = X (ix3 s i k))
    (h9 : ∀ k d : Fin 64, v9 (ix2 k d) = W (ix2 k d))
    (h19 : ∀ d : Fin 64, v19 (ix2 (0 : Fin 1) d) = Bv (ix1 d))
    (j : Fin 1024) (d : Fin 64) :
    k0_pay1 (F := Ideal) v0 v7 v9 v19 (ix2 j d) = Cert.GraphConv.out X Cn W Bv s j d := by
  rw [payload_block_at]
  unfold Cert.GraphConv.out Cert.GraphConv.scaled Cert.GraphConv.dinv Cert.GraphConv.deg Cert.GraphConv.feat Cert.GraphConv.adj
  simp only [h0, h7, h9, h19]

end Cert.KernelIdeal.Bridge

end
-- ==== Proof.KernelValue.lean ====
/-
  The graph-convolution kernel's run, read: after it the result array holds the layer of the four argument arrays.

  The kernel runs its body once per sample. At grid point t the body sees sample t's adjacency words and features, the
  whole weight matrix and the bias laid out as one row (the host recasts the bias vector [64] to [1, 64] before the region),
  and writes rows t · 1024 … t · 1024 + 1023 of the result. Each window's block is read at its coordinates as the sample's
  part of its argument array; with that, what point t writes back is block t of the layer's result array (the body's result
  at a node and a feature is the layer there), the two blocks cover the 2048 rows (row r lies in block r / 1024), so the
  array after the run is the layer's result array; the four arguments are as launched.
-/
import proofs.«117760_g41240275976349_cont_sun_c4_136_3_alg».proof.Proof.Gen.KernelIdeal.Value
import proofs.«117760_g41240275976349_cont_sun_c4_136_3_alg».proof.Proof.KernelPayload
import Idealize.ShloMosaic.Lib.ValueLayout
import Idealize.ShloMosaic.Lib.Pipeline.Value
import Idealize.ShloMosaic.Lib.Tactic

noncomputable section

open scoped BigOperators

namespace Cert.KernelIdeal.Bridge

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- A grid point is a sample. -/
def sampleAt (t : Fin cfg0.N) : Fin 2 := ⟨t.val, by have h : cfg0.N = 2 := N_0; have := t.isLt; omega⟩

theorem sampleAt_val (t : Fin cfg0.N) : (sampleAt t).val = t.val := rfl

/-- The printed index maps, decided over the two grid points: the adjacency, feature and result windows are at block t
    along their first axis, the weights and the bias row are whole. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The adjacency window's block at point t is sample t of the adjacency words. -/
theorem adjacency_block_at (c : Dev nD) (t : Fin cfg0.N) (i j : Fin 1024) :
    (iblk m c 0 t : Vec Ideal S1x1024x1024 .i32) (ix3 (0 : Fin 1) i j)
      = (m ((c : Thread nD τ).loc main_arg1) : S2x1024x1024.Idx → BitVec 32) (ix3 (sampleAt t) i j) := by
  obtain ⟨e0, e1, e2, -⟩ := index_facts t
  unfold iblk
  rw [View.read_apply]
  show V m c main_arg1 _ = _
  rw [V_main_arg1]
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * i.val = i.val; omega
  | ⟨2, _⟩ => show win0_0.index t (2 : Fin 3) * 1024 + 1 * j.val = j.val; omega

/-- The feature window's block at point t is sample t of the features. -/
theorem feature_block_at (c : Dev nD) (t : Fin cfg0.N) (i : Fin 1024) (k : Fin 64) :
    (iblk m c 1 t : Vec Ideal S1x1024x64 .f32) (ix3 (0 : Fin 1) i k)
      = (m ((c : Thread nD τ).loc main_arg0) : S2x1024x64.Idx → EReal) (ix3 (sampleAt t) i k) := by
  obtain ⟨-, -, -, e0, e1, e2, -⟩ := index_facts t
  unfold iblk
  rw [View.read_apply]
  show V m c main_arg0 _ = _
  rw [V_main_arg0]
  refine congrArg _ (funext fun a => Fin.ext ?_)
  match a with
  | ⟨0, _⟩ => show win0_1.index t (0 : Fin 3) * 1 + 1 * 0 = t.val; omega
  | ⟨1, _⟩ => show win0_1.index t (1 : Fin 3) * 1024 + 1 * i.val = i.val; omega
  | ⟨2, _⟩ => show win0_1.index t (2 : Fin 3) * 64 + 1 * k.val = k.val; omega

/-- The weight window's block at any point is the weights. -/
theorem weight_block_at (c : Dev nD) (t : Fin cfg0.N) (k d : Fin 64) :
    (iblk m c 2 t : Vec Ideal S64x64 .f32) (ix2 k d)
      = (m ((c : Thread nD τ).loc main_arg2) : S64x64.Idx → EReal) (ix2 k d) := by
  obtain ⟨-, -, -, -, -, -, e0, e1, -⟩ := index_facts t
  unfold iblk
  rw [View.read_apply]
  show V m c main_arg2 _ = _
  rw [V_main_arg2]
  refine congrArg _ (funext fun a => Fin.ext ?_)
  match a with
  | ⟨0, _⟩ => show win0_2.index t (0 : Fin 2) * 64 + 1 * k.val = k.val; omega
  | ⟨1, _⟩ => show win0_2.index t (1 : Fin 2) * 64 + 1 * d.val = d.val; omega

/-- The bias row the region finds: the host recast the bias vector to one row before the region. -/
theorem bias_row_eq (c : Dev nD) :
    (V m c main_call0_v0 : S1x64.Idx → EReal)
      = shapeCast S1x64 (m ((c : Thread nD τ).loc main_arg3) : S64.Idx → EReal) shapeCasts_S64_S1x64 := by
  dsimp only [Gen.V, Gen.hostOps0]; after_results; rfl

/-- The bias window's block at any point is the bias vector laid out as a row. -/
theorem bias_block_at (c : Dev nD) (t : Fin cfg0.N) (d : Fin 64) :
    (iblk m c 3 t : Vec Ideal S1x64 .f32) (ix2 (0 : Fin 1) d)
      = (m ((c : Thread nD τ).loc main_arg3) : S64.Idx → EReal) (ix1 d) := by
  obtain ⟨-, -, -, -, -, -, -, -, e0, e1, -⟩ := index_facts t
  unfold iblk
  rw [View.read_apply]
  show V m c main_call0_v0 _ = _
  rw [bias_row_eq]
  refine Eq.trans (congrArg _ (funext fun a => Fin.ext ?_)) (shapeCast_a_1a_apply _ shapeCasts_S64_S1x64 (0 : Fin 1) d)
  match a with
  | ⟨0, _⟩ => show win0_3.index t (0 : Fin 2) * 1 + 1 * 0 = 0; omega
  | ⟨1, _⟩ => show win0_3.index t (1 : Fin 2) * 64 + 1 * d.val = d.val; omega

/-- Entry (j, d) of the result window's block at point t is row t · 1024 + j, column d of the result array. -/
theorem result_block_emb (t : Fin cfg0.N) (j : Fin 1024) (d : Fin 64) (r : Fin 2048) (hr : r.val = t.val * 1024 + j.val) :
    ((cfg0.win 4).blk t).view.emb (ix2 j d) = (ix2 r d : S2048x64.Idx) := by
  obtain ⟨-, -, -, -, -, -, -, -, -, -, e0, e1⟩ := index_facts t
  funext a
  apply Fin.ext
  match a with
  | ⟨0, _⟩ => show win0_4.index t (0 : Fin 2) * 1024 + 1 * j.val = r.val; omega
  | ⟨1, _⟩ => show win0_4.index t (1 : Fin 2) * 64 + 1 * d.val = d.val; omega

theorem zeros2 : (![0, 0] : Fin 2 → Nat) = fun _ => 0 := funext fun a => by fin_cases a <;> rfl
theorem zeros3 : (![0, 0, 0] : Fin 3 → Nat) = fun _ => 0 := funext fun a => by fin_cases a <;> rfl

/-- Two functions on a block of 1024 nodes by 64 features agree when they agree at every node and feature. -/
theorem ext_node_feature {α : Type} (f g : S1024x64.Idx → α) (h : ∀ (j : Fin 1024) (d : Fin 64), f (ix2 j d) = g (ix2 j d)) : f = g :=
  funext fun y => by rw [eq_ix2 y]; exact h _ _

/-- The layer's result array of the four argument arrays as launched. -/
abbrev layer (c : Dev nD) : S2048x64.Idx → EReal :=
  Cert.GraphConv.result (m ((c : Thread nD τ).loc main_arg0)) (m ((c : Thread nD τ).loc main_arg1))
    (m ((c : Thread nD τ).loc main_arg2)) (m ((c : Thread nD τ).loc main_arg3))

/-- WHAT POINT t WRITES BACK is block t of the layer's result array: the body's result of sample t's blocks. -/
theorem flushed_eq (c : Dev nD) (t : Fin cfg0.N) :
    (dats m 0 c).flushed 4 t = ((cfg0.win 4).blk t).view.read (Elt Ideal) (layer m c) := by
  rw [Value.flushed4]
  unfold out0_4
  rw [View.canon_unit_zero zeros2]
  simp only [View.ld_unit_zero (S := S1x1024x1024) zeros3, View.ld_unit_zero (S := S1x1024x64) zeros3,
    View.ld_unit_zero (S := S64x64) zeros2, View.ld_unit_zero (S := S1x64) zeros2]
  refine ext_node_feature _ _ fun j d => ?_
  show k0_pay1 (F := Ideal) (iblk m c 0 t) (iblk m c 1 t) (iblk m c 2 t) (iblk m c 3 t) (ix2 j d)
      = layer m c (((cfg0.win 4).blk t).view.emb (ix2 j d))
  rw [result_block_emb t j d (Cert.GraphConv.rowOf (sampleAt t) j) rfl]
  unfold layer
  rw [Cert.GraphConv.result_at]
  exact payload_at _ _ _ _ (sampleAt t) (iblk m c 0 t) (iblk m c 1 t) (iblk m c 2 t) (iblk m c 3 t)
    (adjacency_block_at m c t) (feature_block_at m c t) (weight_block_at m c t) (bias_block_at m c t) j d

/-- An index of the result array is in point t's block iff each coordinate is in the block's range on its axis. -/
theorem mem_result_block (t : Fin cfg0.N) (i : S2048x64.Idx) :
    i ∈ ((cfg0.win 4).blk t).view.set ↔ ∀ a : Fin 2, win0_4.index t a * S1024x64.size a ≤ (i a).val
      ∧ (i a).val < win0_4.index t a * S1024x64.size a + S1024x64.size a := by
  show i ∈ ((View.whole main_v0).slice (win0_4.rect t)).set ↔ _
  rw [View.set_slice_whole, Rect.mem_set_unit]
  exact Iff.rfl

/-- Every row of the result array is in the block of its sample's point: row r is in block r / 1024. -/
theorem covered (i : S2048x64.Idx) : ∃ t : Fin cfg0.N, (cfg0.win 4).flush t = true ∧ i ∈ ((cfg0.win 4).blk t).view.set := by
  have hN : cfg0.N = 2 := N_0
  have hi0 : (i 0).val < 2048 := (i 0).isLt
  have hi1 : (i 1).val < 64 := (i 1).isLt
  obtain ⟨t, ht⟩ : ∃ t : Fin cfg0.N, t.val = (i 0).val / 1024 := ⟨⟨(i 0).val / 1024, by omega⟩, rfl⟩
  obtain ⟨-, -, -, -, -, -, -, -, -, -, e0, e1⟩ := index_facts t
  refine ⟨t, flush0_4 t, ?_⟩
  rw [mem_result_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 64 ≤ (i 1).val ∧ (i 1).val < win0_4.index t (1 : Fin 2) * 64 + 64
    omega

/-- THE ARRAY after the run is the layer's result array. -/
theorem final (c : Dev nD) : (dats m 0 c).arrAt 4 cfg0.N = layer m c :=
  (dats m 0 c).arrAt_eq_of_cover 4 (layer m c) (fun t _ => flushed_eq m c t) covered

/-! ## The run, read -/

/-- The kernel's run: the result array ends at the layer of the four argument arrays, which are unchanged. -/
theorem run : θ_run defs (onTc (τ := τ) (main (F := Ideal))) ⟨m, fun _ => 0, ρ⟩ fun r => ∀ c : Dev nD,
      r.2.mem ((c : Thread nD τ).loc main_v0) = Cert.GraphConv.result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Bridge

end
-- ==== Proof.LibGatherScatter.lean ====
/-
  Rows of a rank-2 array selected by a column of integer words, read at an index.

  `x[idx]` of an array `x : [N, C]` at an index column `idx : [E, 1]` is a gather whose result row `e` is
  the row of `x` that the word `idx[e, 0]` names, the word read as a signed integer and clamped into `[0, N − 1]`.
  The sum of the rows of `upd : [E, C]` into the rows of `x : [N, C]` that the same kind of column names is a
  scatter whose combining function is addition: row `p` of the result is row `p` of `x` plus the sum of the rows `e` of
  `upd` whose word, read signed and NOT clamped, is `p`; a row whose word falls outside `[0, N)` is dropped.
  The library states both through lists of axes and list lookups; here their dimension numbers are fixed, the
  lookups are carried out once, and each operation is stated as a plain equation between elements.
-/
import Idealize.ShloMosaic.PureOps.Ideal
import Idealize.ShloMosaic.Lib.ValueIdx
import Idealize.ShloMosaic.Lib.Pipeline.Value

noncomputable section

open scoped BigOperators

namespace Idealize.ShloMosaic.ValueIdx

open Idealize.ShloMosaic

/-! ## The row a word names -/

/-- The row a start-index word selects: read signed, negative to 0, clamped to the last row. -/
def clampRow (N : Nat) (hN : 0 < N) {w : Nat} (v : BitVec w) : Fin N := ⟨min v.toInt.toNat (N - 1), by omega⟩

/-- The row an update lands on: the word read signed, when it is a row; none when it falls outside. -/
def landRow (N : Nat) {w : Nat} (v : BitVec w) : Option (Fin N) :=
  if h : 0 ≤ v.toInt ∧ v.toInt < (N : Int) then some ⟨v.toInt.toNat, by omega⟩ else none

/-- An index that lands is not moved by the clamp. -/
theorem landRow_clampRow {N w : Nat} (hN : 0 < N) (v : BitVec w) (p : Fin N) (h : landRow N v = some p) :
    clampRow N hN v = p := by
  unfold landRow at h
  split at h
  · rename_i hv
    obtain rfl := Option.some.inj h
    refine Fin.ext ?_
    show min v.toInt.toNat (N - 1) = v.toInt.toNat
    omega
  · exact absurd h (by simp)

/-! ## Rows gathered by an index column -/

section GatherRows
variable {α : Type}

/-- The dimension numbers of `x[idx]` for an operand `[N, C]`, an index column `[E, 1]` and the result `[E, C]`: axis 0
    of the operand is indexed and collapsed, axis 1 is taken whole as the result's axis 1. Their conditions `wf` are
    decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result index `(e, q)` reads its one start-index component at `[e, 0]` of the index column. -/
theorem rowGather_siIdx {N E C : Nat}
    (wf : GatherDims.WF ⟨2, ![N, C]⟩ ⟨2, ![E, 1]⟩ ⟨2, ![E, C]⟩ [1] [0] [] [0] [] 1 ![1, C])
    (e : Fin E) (q : Fin C) (c : Fin (rowGatherDims N E C wf).startIndexMap.length) :
    (rowGatherDims N E C wf).siIdx (ix2 e q) c = ix2 e (0 : Fin 1) := by
  funext b; refine Fin.ext ?_
  match b with
  | ⟨0, _⟩ => rfl
  | ⟨1, _⟩ =>
    have := c.isLt
    show c.val = 0
    simp only [List.length_singleton] at this
    omega

/-- On the row axis the slice starts at the word of `[e, 0]`, read signed and clamped into `[0, N − 1]`. -/
theorem rowGather_start0 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (q : Fin C) :
    (rowGatherDims N E C wf).start (ix2 e q) idx 0 = min (idx (ix2 e (0 : Fin 1))).toInt.toNat (N - 1) := by
  unfold GatherDims.start
  rw [dif_pos (show (0 : Fin 2) ∈ (rowGatherDims N E C wf).startIndexMap from List.mem_singleton.mpr rfl)]
  rw [rowGather_siIdx]
  rfl

/-- On the column axis, which the start index does not name, the slice starts at 0. -/
theorem rowGather_start1 {N E C w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (q : Fin C) :
    (rowGatherDims N E C wf).start (ix2 e q) idx 1 = 0 := by
  unfold GatherDims.start
  rw [dif_neg (show (1 : Fin 2) ∉ (rowGatherDims N E C wf).startIndexMap from
    (by decide : (1 : Fin 2) ∉ [(0 : Fin 2)]))]

/-- The row axis is collapsed: no offset on it. -/
theorem rowGather_offCoord0 {N E C : Nat}
    (wf : GatherDims.WF ⟨2, ![N, C]⟩ ⟨2, ![E, 1]⟩ ⟨2, ![E, C]⟩ [1] [0] [] [0] [] 1 ![1, C])
    (e : Fin E) (q : Fin C) :
    (rowGatherDims N E C wf).offCoord (ix2 e q) 0 = 0 :=
  GatherDims.offCoord_eq_zero _ _ _ (fun h => ((GatherDims.mem_sKept _ _).mp h).1 (List.mem_singleton.mpr rfl))

/-- The column axis is the one kept axis: its offset is the result's column. -/
theorem rowGather_offCoord1 {N E C : Nat}
    (wf : GatherDims.WF ⟨2, ![N, C]⟩ ⟨2, ![E, 1]⟩ ⟨2, ![E, C]⟩ [1] [0] [] [0] [] 1 ![1, C])
    (e : Fin E) (q : Fin C) :
    (rowGatherDims N E C wf).offCoord (ix2 e q) 1 = q.val := by
  unfold GatherDims.offCoord
  rw [dif_pos (show (1 : Fin 2) ∈ (rowGatherDims N E C wf).sKept from
    (GatherDims.mem_sKept _ _).mpr ⟨(by decide : (1 : Fin 2) ∉ [(0 : Fin 2)]), List.not_mem_nil⟩)]
  rfl

/-- THE ROW GATHER READ AT `(e, q)`: column `q` of the operand's row that the word `idx[e, 0]` names, read signed
    and clamped into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q)
      = x (ix2 (clampRow N hN (idx (ix2 e (0 : Fin 1)))) q) := by
  unfold Host.gather
  congr 1
  funext a
  refine Fin.ext ?_
  show (rowGatherDims N E C wf).start (ix2 e q) idx a + (rowGatherDims N E C wf).batchCoord (ix2 e q) a
    + (rowGatherDims N E C wf).offCoord (ix2 e q) a = _
  rw [GatherDims.batchCoord_eq_zero _ _ _ List.not_mem_nil]
  match a with
  | ⟨0, _⟩ =>
    show (rowGatherDims N E C wf).start (ix2 e q) idx 0 + 0 + (rowGatherDims N E C wf).offCoord (ix2 e q) 0 = _
    rw [rowGather_start0, rowGather_offCoord0]
    rfl
  | ⟨1, _⟩ =>
    show (rowGatherDims N E C wf).start (ix2 e q) idx 1 + 0 + (rowGatherDims N E C wf).offCoord (ix2 e q) 1 = _
    rw [rowGather_start1, rowGather_offCoord1]
    simp

end GatherRows

/-! ## Elements of a vector gathered by an index column -/

section GatherVec
variable {α : Type}

/-- The dimension numbers of `x[idx]` for a vector `[N]`, an index column `[E, 1]` and the result `[E]`: the vector's
    one axis is indexed and collapsed. Their conditions `wf` are decided on a program's literal shapes. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result index `e` reads its one start-index component at `[e, 0]` of the index column. -/
theorem vecGather_siIdx {N E : Nat}
    (wf : GatherDims.WF ⟨1, ![N]⟩ ⟨2, ![E, 1]⟩ ⟨1, ![E]⟩ [] [0] [] [0] [] 1 ![1])
    (e : Fin E) (c : Fin (vecGatherDims N E wf).startIndexMap.length) :
    (vecGatherDims N E wf).siIdx (ix1 e) c = ix2 e (0 : Fin 1) := by
  funext b; refine Fin.ext ?_
  match b with
  | ⟨0, _⟩ => rfl
  | ⟨1, _⟩ =>
    have := c.isLt
    show c.val = 0
    simp only [List.length_singleton] at this
    omega

/-- THE VECTOR GATHER READ AT `e`: the vector's element that the word `idx[e, 0]` names, read signed and clamped into
    `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e (0 : Fin 1))))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  rw [vecGather_siIdx]
  rfl

end GatherVec

/-! ## Rows added into the rows an index column names -/

section ScatterRows

/-- The dimension numbers of the row sum `x.at[idx].add(upd)` for an operand `[N, C]`, an index column `[E, 1]` and
    updates `[E, C]`: the word of `[e, 0]` names the operand's row, axis 1 of the updates is the window and goes to the
    operand's axis 1. Their conditions `wf` are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update index `(e, q)` reads its one start-index component at `[e, 0]` of the index column. -/
theorem rowScatter_siIdx {N E C : Nat}
    (wf : ScatterDims.WF ⟨2, ![N, C]⟩ ⟨2, ![E, 1]⟩ ⟨2, ![E, C]⟩ [1] [0] [0] 1)
    (e : Fin E) (q : Fin C) (c : Fin (rowScatterDims N E C wf).scatterDimsToOperandDims.length) :
    (rowScatterDims N E C wf).siIdx (ix2 e q) c = ix2 e (0 : Fin 1) := by
  funext b; refine Fin.ext ?_
  match b with
  | ⟨0, _⟩ => rfl
  | ⟨1, _⟩ =>
    have := c.isLt
    show c.val = 0
    simp only [List.length_singleton] at this
    omega

/-- On the row axis the window starts at the word of `[e, 0]`, read signed and not clamped. -/
theorem rowScatter_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 0 = (idx (ix2 e (0 : Fin 1))).toInt := by
  unfold ScatterDims.start
  rw [dif_pos (show (0 : Fin 2) ∈ (rowScatterDims N E C wf).scatterDimsToOperandDims from List.mem_singleton.mpr rfl)]
  rw [rowScatter_siIdx]

/-- On the column axis, which the scatter index does not name, the window starts at 0. -/
theorem rowScatter_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).start (ix2 e q) idx 1 = 0 := by
  unfold ScatterDims.start
  rw [dif_neg (show (1 : Fin 2) ∉ (rowScatterDims N E C wf).scatterDimsToOperandDims from
    (by decide : (1 : Fin 2) ∉ [(0 : Fin 2)]))]

/-- The operand's kept axes are the ones that are not the row axis. -/
theorem rowScatter_mem_sKept {N E C : Nat}
    (wf : ScatterDims.WF ⟨2, ![N, C]⟩ ⟨2, ![E, 1]⟩ ⟨2, ![E, C]⟩ [1] [0] [0] 1) (a : Fin 2) :
    a ∈ (rowScatterDims N E C wf).sKept ↔ a ∉ [(0 : Fin 2)] := by
  simp [ScatterDims.sKept, Shape.kept, List.mem_filter, List.mem_finRange]

/-- The row axis is an inserted window axis: the window coordinate on it is 0. -/
theorem rowScatter_window0 {N E C : Nat}
    (wf : ScatterDims.WF ⟨2, ![N, C]⟩ ⟨2, ![E, 1]⟩ ⟨2, ![E, C]⟩ [1] [0] [0] 1)
    (e : Fin E) (q : Fin C) :
    (rowScatterDims N E C wf).window (ix2 e q) 0 = 0 := by
  unfold ScatterDims.window
  rw [dif_neg (show (0 : Fin 2) ∉ (rowScatterDims N E C wf).sKept from fun h =>
    (rowScatter_mem_sKept wf 0).mp h (List.mem_singleton.mpr rfl))]

/-- The column axis is the one kept axis: the window coordinate on it is the update's column. -/
theorem rowScatter_window1 {N E C : Nat}
    (wf : ScatterDims.WF ⟨2, ![N, C]⟩ ⟨2, ![E, 1]⟩ ⟨2, ![E, C]⟩ [1] [0] [0] 1)
    (e : Fin E) (q : Fin C) :
    (rowScatterDims N E C wf).window (ix2 e q) 1 = q.val := by
  unfold ScatterDims.window
  rw [dif_pos (show (1 : Fin 2) ∈ (rowScatterDims N E C wf).sKept from
    (rowScatter_mem_sKept wf 1).mpr (by decide : (1 : Fin 2) ∉ [(0 : Fin 2)]))]
  rfl

/-- WHERE UPDATE `(e, q)` LANDS: on column `q` of the row the word `idx[e, 0]` names, when that word read signed is a
    row of the operand; nowhere when it is not. -/
theorem scatter_rows_resultIdx {N E C w : Nat}
    (wf : ScatterDims.WF ⟨2, ![N, C]⟩ ⟨2, ![E, 1]⟩ ⟨2, ![E, C]⟩ [1] [0] [0] 1)
    (idx : IVec ⟨2, ![E, 1]⟩ w) (e : Fin E) (q : Fin C) :
    (rowScatterDims N E C wf).resultIdx? (ix2 e q) idx
      = (landRow N (idx (ix2 e (0 : Fin 1)))).map fun p => ix2 p q := by
  have hs0 := rowScatter_start0 wf idx e q
  have hs1 := rowScatter_start1 wf idx e q
  have hw0 := rowScatter_window0 wf e q
  have hw1 := rowScatter_window1 wf e q
  unfold ScatterDims.resultIdx? landRow
  by_cases h : 0 ≤ (idx (ix2 e (0 : Fin 1))).toInt ∧ (idx (ix2 e (0 : Fin 1))).toInt < (N : Int)
  · have hall : ∀ a : Fin 2, 0 ≤ (rowScatterDims N E C wf).start (ix2 e q) idx a + (rowScatterDims N E C wf).window (ix2 e q) a ∧
        (rowScatterDims N E C wf).start (ix2 e q) idx a + (rowScatterDims N E C wf).window (ix2 e q) a
          < ((⟨2, ![N, C]⟩ : Shape).size a : Int) := by
      intro a
      match a with
      | ⟨0, _⟩ =>
        show 0 ≤ (rowScatterDims N E C wf).start (ix2 e q) idx 0 + (rowScatterDims N E C wf).window (ix2 e q) 0 ∧
          (rowScatterDims N E C wf).start (ix2 e q) idx 0 + (rowScatterDims N E C wf).window (ix2 e q) 0 < (N : Int)
        rw [hs0, hw0]
        omega
      | ⟨1, _⟩ =>
        show 0 ≤ (rowScatterDims N E C wf).start (ix2 e q) idx 1 + (rowScatterDims N E C wf).window (ix2 e q) 1 ∧
          (rowScatterDims N E C wf).start (ix2 e q) idx 1 + (rowScatterDims N E C wf).window (ix2 e q) 1 < (C : Int)
        rw [hs1, hw1]
        have := q.isLt
        omega
    rw [dif_pos hall, dif_pos h]
    simp only [Option.map_some]
    congr 1
    funext a
    refine Fin.ext ?_
    match a with
    | ⟨0, _⟩ =>
      show ((rowScatterDims N E C wf).start (ix2 e q) idx 0 + (rowScatterDims N E C wf).window (ix2 e q) 0).toNat = _
      rw [hs0, hw0]
      simp
    | ⟨1, _⟩ =>
      show ((rowScatterDims N E C wf).start (ix2 e q) idx 1 + (rowScatterDims N E C wf).window (ix2 e q) 1).toNat = _
      rw [hs1, hw1]
      simp
  · rw [dif_neg h, dif_neg]
    · rfl
    · intro hall
      have h0 := hall 0
      rw [hs0, hw0] at h0
      exact h (by
        obtain ⟨h1, h2⟩ := h0
        refine ⟨by omega, ?_⟩
        have : (((⟨2, ![N, C]⟩ : Shape).size 0 : Nat) : Int) = (N : Int) := rfl
        omega)

end ScatterRows

/-! ## The row sum at an index -/

section ScatterAddRows

/-- THE ROW SUM READ AT `(p, q)`: the operand's element plus the sum, over the rows `e` of the updates whose word
    `idx[e, 0]` names row `p`, of the update's element in column `q`. The library's sum runs over update indices
    `(e, q')` that land on `(p, q)`; such an index has `q' = q`, so it is its row `e`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (rowScatterDims N E C wf) x idx upd (ix2 p q)
      = x (ix2 p q) + ∑ e ∈ Finset.univ.filter (fun e : Fin E => landRow N (idx (ix2 e (0 : Fin 1))) = some p),
          upd (ix2 e q) := by
  unfold Ideal.hostScatterAdd
  congr 1
  symm
  refine Finset.sum_bij (fun e _ => ix2 e q) ?_ ?_ ?_ ?_
  · intro e he
    rw [Finset.mem_filter] at he ⊢
    refine ⟨Finset.mem_univ _, ?_⟩
    rw [scatter_rows_resultIdx, he.2]
    rfl
  · intro e _ e' _ hee
    exact congrFun hee 0
  · intro j hj
    rw [Finset.mem_filter] at hj
    obtain ⟨e, q', rfl⟩ : ∃ (e : Fin E) (q' : Fin C), j = ix2 e q' := ⟨j 0, j 1, eq_ix2 j⟩
    have h := hj.2
    rw [scatter_rows_resultIdx] at h
    cases hl : landRow N (idx (ix2 e (0 : Fin 1))) with
    | none => rw [hl] at h; exact absurd h (by simp)
    | some p' =>
      rw [hl] at h
      have h2 : ix2 p' q' = ix2 p q := Option.some.inj h
      have hp : p' = p := congrFun h2 0
      have hq : q' = q := congrFun h2 1
      subst hp; subst hq
      exact ⟨e, Finset.mem_filter.mpr ⟨Finset.mem_univ _, hl⟩, rfl⟩
  · intro e _
    rfl

end ScatterAddRows

/-! ## A sum of reals into reals is real -/

/-- A finite sum of extended reals that are all reals is a real. -/
theorem sum_coe_real {ι : Type*} (S : Finset ι) (f : ι → EReal) (hf : ∀ j, ∃ r : ℝ, f j = (r : EReal)) :
    ∃ r : ℝ, ∑ j ∈ S, f j = (r : EReal) := by
  classical
  induction S using Finset.induction_on with
  | empty => exact ⟨0, by simp⟩
  | insert a S ha ih =>
    obtain ⟨r1, h1⟩ := hf a
    obtain ⟨r2, h2⟩ := ih
    exact ⟨r1 + r2, by rw [Finset.sum_insert ha, h1, h2, EReal.coe_add]⟩

/-- A scatter with addition, of real updates into a real operand, has real elements — whatever the dimension
    numbers and the indices: each element is a real plus a finite sum of reals. -/
theorem scatterAdd_finite {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) :
    ∀ i, ∃ r : ℝ, Ideal.hostScatterAdd d x idx upd i = (r : EReal) := by
  intro i
  unfold Ideal.hostScatterAdd
  obtain ⟨r1, h1⟩ := hx i
  obtain ⟨r2, h2⟩ := sum_coe_real (Finset.univ.filter (fun j => d.resultIdx? j idx = some i)) upd hu
  exact ⟨r1 + r2, by rw [h1, h2, EReal.coe_add]⟩

end Idealize.ShloMosaic.ValueIdx

end
-- ==== Proof.LibScatterVec.lean ====
/-
  Elements of a vector added into the elements of another vector that a column of integer words names, read at an index.

  The sum `x.at[idx].add(upd)` of the elements of `upd : [E]` into a vector `x : [N]` at an index column
  `idx : [E, 1]` is a scatter whose combining function is addition: element `p` of the result is element `p` of `x`
  plus the sum of the elements `e` of `upd` whose word `idx[e, 0]`, read as a signed integer and NOT clamped, is `p`; an
  element whose word falls outside `[0, N)` is dropped. Beside it: the row a word names when the word spells a small
  natural number.
-/
import proofs.«117760_g41240275976349_cont_sun_c4_136_3_alg».proof.Proof.LibGatherScatter

noncomputable section

open scoped BigOperators

namespace Idealize.ShloMosaic.ValueIdx

open Idealize.ShloMosaic

/-! ## Words that spell a small natural number -/

/-- A 32-bit word written from a natural number below 2³¹ reads back, signed, as that number. -/
theorem toInt_ofNat32 (n : Nat) (h : n < 2147483648) : (BitVec.ofNat 32 n).toInt = (n : Int) := by
  have e : (BitVec.ofNat 32 n).toNat = n := by
    rw [BitVec.toNat_ofNat]
    exact Nat.mod_eq_of_lt (by omega)
  rw [BitVec.toInt_eq_toNat_of_lt (by rw [e]; omega), e]

/-- Such a word, below `N`, lands on row `n`. -/
theorem landRow_ofNat32 {N : Nat} (n : Nat) (hn : n < N) (h : n < 2147483648) :
    landRow N (BitVec.ofNat 32 n) = some ⟨n, hn⟩ := by
  unfold landRow
  have e := toInt_ofNat32 n h
  rw [dif_pos (by rw [e]; omega)]
  congr 1
  refine Fin.ext ?_
  show (BitVec.ofNat 32 n).toInt.toNat = n
  rw [e]; simp

/-- Such a word, below `N`, is not moved by the clamp. -/
theorem clampRow_ofNat32 {N : Nat} (hN : 0 < N) (n : Nat) (hn : n < N) (h : n < 2147483648) :
    clampRow N hN (BitVec.ofNat 32 n) = ⟨n, hn⟩ :=
  landRow_clampRow hN _ _ (landRow_ofNat32 n hn h)

/-! ## Elements added into the elements an index column names -/

section ScatterVec

/-- The dimension numbers of `x.at[idx].add(upd)` for a vector `[N]`, an index column `[E, 1]` and updates `[E]`: the
    word of `[e, 0]` names the vector's element; the updates have no window axis. Their conditions `wf` are decided on
    a program's literal shapes. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update index `e` reads its one start-index component at `[e, 0]` of the index column. -/
theorem vecScatter_siIdx {N E : Nat}
    (wf : ScatterDims.WF ⟨1, ![N]⟩ ⟨2, ![E, 1]⟩ ⟨1, ![E]⟩ [] [0] [0] 1)
    (e : Fin E) (c : Fin (vecScatterDims N E wf).scatterDimsToOperandDims.length) :
    (vecScatterDims N E wf).siIdx (ix1 e) c = ix2 e (0 : Fin 1) := by
  funext b; refine Fin.ext ?_
  match b with
  | ⟨0, _⟩ => rfl
  | ⟨1, _⟩ =>
    have := c.isLt
    show c.val = 0
    simp only [List.length_singleton] at this
    omega

/-- The window starts at the word of `[e, 0]`, read signed and not clamped. -/
theorem vecScatter_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  rw [vecScatter_siIdx]

/-- The vector's one axis is an inserted window axis: the window coordinate on it is 0. -/
theorem vecScatter_window0 {N E : Nat}
    (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (show (0 : Fin 1) ∉ (vecScatterDims N E wf).sKept by
    simp [ScatterDims.sKept, Shape.kept, List.mem_filter])]

/-- WHERE UPDATE `e` LANDS: on the element the word `idx[e, 0]` names, when that word read signed is an index of the
    vector; nowhere when it is not. -/
theorem scatter_vec_resultIdx {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).resultIdx? (ix1 e) idx
      = (landRow N (idx (ix2 e (0 : Fin 1)))).map fun p => ix1 p := by
  have hs0 := vecScatter_start0 wf idx e
  have hw0 := vecScatter_window0 wf e
  unfold ScatterDims.resultIdx? landRow
  by_cases h : 0 ≤ (idx (ix2 e (0 : Fin 1))).toInt ∧ (idx (ix2 e (0 : Fin 1))).toInt < (N : Int)
  · have hall : ∀ a : Fin 1, 0 ≤ (vecScatterDims N E wf).start (ix1 e) idx a + (vecScatterDims N E wf).window (ix1 e) a ∧
        (vecScatterDims N E wf).start (ix1 e) idx a + (vecScatterDims N E wf).window (ix1 e) a
          < ((⟨1, ![N]⟩ : Shape).size a : Int) := by
      intro a
      obtain rfl : a = 0 := Subsingleton.elim _ _
      show 0 ≤ (vecScatterDims N E wf).start (ix1 e) idx 0 + (vecScatterDims N E wf).window (ix1 e) 0 ∧
        (vecScatterDims N E wf).start (ix1 e) idx 0 + (vecScatterDims N E wf).window (ix1 e) 0 < (N : Int)
      rw [hs0, hw0]
      omega
    rw [dif_pos hall, dif_pos h]
    simp only [Option.map_some]
    congr 1
    funext a
    obtain rfl : a = 0 := Subsingleton.elim _ _
    refine Fin.ext ?_
    show ((vecScatterDims N E wf).start (ix1 e) idx 0 + (vecScatterDims N E wf).window (ix1 e) 0).toNat = _
    rw [hs0, hw0]
    simp
  · rw [dif_neg h, dif_neg]
    · rfl
    · intro hall
      have h0 := hall 0
      rw [hs0, hw0] at h0
      exact h (by
        obtain ⟨h1, h2⟩ := h0
        refine ⟨by omega, ?_⟩
        have : (((⟨1, ![N]⟩ : Shape).size 0 : Nat) : Int) = (N : Int) := rfl
        omega)

/-- THE SUM READ AT `p`: the vector's element plus the sum, over the updates `e` whose word `idx[e, 0]` names `p`, of
    the update. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (p : Fin N) :
    Ideal.hostScatterAdd (vecScatterDims N E wf) x idx upd (ix1 p)
      = x (ix1 p) + ∑ e ∈ Finset.univ.filter (fun e : Fin E => landRow N (idx (ix2 e (0 : Fin 1))) = some p),
          upd (ix1 e) := by
  unfold Ideal.hostScatterAdd
  congr 1
  symm
  refine Finset.sum_bij (fun e _ => ix1 e) ?_ ?_ ?_ ?_
  · intro e he
    rw [Finset.mem_filter] at he ⊢
    refine ⟨Finset.mem_univ _, ?_⟩
    rw [scatter_vec_resultIdx, he.2]
    rfl
  · intro e _ e' _ hee
    exact congrFun hee 0
  · intro j hj
    rw [Finset.mem_filter] at hj
    obtain ⟨e, rfl⟩ : ∃ e : Fin E, j = ix1 e := ⟨j 0, eq_ix1 j⟩
    have h := hj.2
    rw [scatter_vec_resultIdx] at h
    cases hl : landRow N (idx (ix2 e (0 : Fin 1))) with
    | none => rw [hl] at h; exact absurd h (by simp)
    | some p' =>
      rw [hl] at h
      have h2 : ix1 p' = ix1 p := Option.some.inj h
      have hp : p' = p := congrFun h2 0
      subst hp
      exact ⟨e, Finset.mem_filter.mpr ⟨Finset.mem_univ _, hl⟩, rfl⟩
  · intro e _
    rfl

end ScatterVec

end Idealize.ShloMosaic.ValueIdx

end
-- ==== Proof.RefStages.lean ====
/-
  The reference's float stages, read at an entry.

  The reference walks an edge list: entry `e` has a sender row, a receiver row and a weight. The degree of row `r` is the
  sum of the weights of the entries received by `r`; `dinv r` is `1/√` of it where it is positive; the message of entry
  `e` is the sender's features times `dinv sender · dinv receiver · weight`; the result row `r` is the sum of the
  messages received by `r`, plus the bias. Here each of these stages is read at one entry: a sum into the rows an index
  column names is, at row `r`, the sum over the entries whose word names `r`; a selection of rows by an index column is,
  at entry `e`, the row the word of `e` names.
-/
import proofs.«117760_g41240275976349_cont_sun_c4_136_3_alg».proof.Proof.ReadP
import proofs.«117760_g41240275976349_cont_sun_c4_136_3_alg».proof.Proof.LibScatterVec
import proofs.«117760_g41240275976349_cont_sun_c4_136_3_alg».proof.Proof.Spec
import Idealize.ShloMosaic.PureOps.Ideal.Laws

noncomputable section

open scoped BigOperators

namespace Cert.ReferenceIdeal.Stages

open Cert.ReferenceIdeal Cert.ReferenceIdeal.Gen Cert.ReferenceIdeal.ReadP Idealize.ShloMosaic Idealize.ShloMosaic.TcCoe
  Idealize.ShloMosaic.ValueIdx Cert.GraphConv

/-! ## Index columns of the edge list -/

/-- An index column of the edge list names rows: at the candidate pair `(s, i, j)` its word spells the row `pick s i j`,
    at the self loop of row `r` it spells `r`. -/
structure Names (col : IVec S2099200x1 32) (pick : Fin 2 → Fin 1024 → Fin 1024 → Fin 2048) : Prop where
  edge : ∀ (s : Fin 2) (i j : Fin 1024), col (ix2 (edgeIx s i j) (0 : Fin 1)) = BitVec.ofNat 32 (pick s i j).val
  loop : ∀ r : Fin 2048, col (ix2 (loopIx r) (0 : Fin 1)) = BitVec.ofNat 32 r.val

variable {col : IVec S2099200x1 32} {pick : Fin 2 → Fin 1024 → Fin 1024 → Fin 2048}

theorem Names.land_edge (h : Names col pick) (s : Fin 2) (i j : Fin 1024) :
    landRow 2048 (col (ix2 (edgeIx s i j) (0 : Fin 1))) = some (pick s i j) := by
  rw [h.edge]
  exact landRow_ofNat32 _ (pick s i j).isLt (by have := (pick s i j).isLt; omega)

theorem Names.land_loop (h : Names col pick) (r : Fin 2048) :
    landRow 2048 (col (ix2 (loopIx r) (0 : Fin 1))) = some r := by
  rw [h.loop]
  exact landRow_ofNat32 _ r.isLt (by have := r.isLt; omega)

theorem Names.clamp_edge (h : Names col pick) (s : Fin 2) (i j : Fin 1024) :
    clampRow 2048 (by decide) (col (ix2 (edgeIx s i j) (0 : Fin 1))) = pick s i j :=
  landRow_clampRow _ _ _ (h.land_edge s i j)

theorem Names.clamp_loop (h : Names col pick) (r : Fin 2048) :
    clampRow 2048 (by decide) (col (ix2 (loopIx r) (0 : Fin 1))) = r :=
  landRow_clampRow _ _ _ (h.land_loop r)

/-! ## The stages -/

variable (X : (⟨S2x1024x64, .f32⟩ : BufTy).Contents (Elt Ideal)) (Cn : (⟨S2x1024x1024, .i32⟩ : BufTy).Contents (Elt Ideal))
  (W : (⟨S64x64, .f32⟩ : BufTy).Contents (Elt Ideal)) (Bv : (⟨S64, .f32⟩ : BufTy).Contents (Elt Ideal))

/-- `dinv` OF ROW `r`: one over the root of the degree, clamped from below, where the degree is positive; zero elsewhere. -/
theorem dinv_at (r : Fin 2048) :
    val_main_v58 (F := Ideal) Cn (ix1 r)
      = if 0 < val_main_v52 (F := Ideal) Cn (ix1 r)
        then Ideal.rsqrt (max (val_main_v52 (F := Ideal) Cn (ix1 r)) (Ideal.ofBits .f32 0x2B8CBCCC#32)) else 0 := by
  rw [val_main_v58_apply, val_main_v54_apply, val_main_v57_apply, val_main_v56_apply, val_main_v53_apply,
    val_main_cst_8_apply, val_main_v55_apply, val_main_cst_9_apply, val_main_call0_v1_apply, val_main_call0_v0_apply,
    val_main_cst_10_apply]
  simp only [Ideal.ofBits_def, Ideal.maximumf_def, Ideal.hostUnary_rsqrt_def, Ideal.ofBits_zero_f32]
  show Scalar.select (Ideal.cmp .ogt _ 0) _ _ = _
  unfold Scalar.select Ideal.cmp
  by_cases h : 0 < val_main_v52 (F := Ideal) Cn (ix1 r)
  · simp [h]
  · simp [h]

/-- The sender's `dinv` at entry `e`. -/
theorem dinv_src_at (e : Fin 2099200) :
    val_main_v65 (F := Ideal) Cn (ix1 e)
      = val_main_v58 (F := Ideal) Cn (ix1 (clampRow 2048 (by decide) (val_main_v64 (F := Ideal) (ix2 e (0 : Fin 1))))) :=
  gather_vec_apply (N := 2048) (E := 2099200) (by decide) gather_S2048_S2099200x1_S2099200_n_0_n_n_0_1_1_wf
    (val_main_v58 (F := Ideal) Cn) (val_main_v64 (F := Ideal)) e

/-- The receiver's `dinv` at entry `e`. -/
theorem dinv_dst_at (e : Fin 2099200) :
    val_main_v72 (F := Ideal) Cn (ix1 e)
      = val_main_v58 (F := Ideal) Cn (ix1 (clampRow 2048 (by decide) (val_main_v71 (F := Ideal) (ix2 e (0 : Fin 1))))) :=
  gather_vec_apply (N := 2048) (E := 2099200) (by decide) gather_S2048_S2099200x1_S2099200_n_0_n_n_0_1_1_wf
    (val_main_v58 (F := Ideal) Cn) (val_main_v71 (F := Ideal)) e

/-- The features times the weights at row `r`, feature `d`. -/
theorem feat_at (r : Fin 2048) (d : Fin 64) :
    val_main_v34 (F := Ideal) X W (ix2 r d) = feat X W (sampleOf r) (nodeOf r) d := by
  rw [val_main_v34_apply]
  unfold feat
  refine Finset.sum_congr rfl fun k _ => ?_
  rw [val_main_v33_apply]
  have e1 : idx_main_v33 (lidx_main_v34 (ix2 r d) k) = ix3 (sampleOf r) (nodeOf r) k := by
    funext a
    refine Fin.ext ?_
    have hr := r.isLt
    have hk := k.isLt
    match a with
    | ⟨0, _⟩ => show (r.val * 64 + k.val) / 65536 = r.val / 1024; omega
    | ⟨1, _⟩ => show (r.val * 64 + k.val) / 64 % 1024 = r.val % 1024; omega
    | ⟨2, _⟩ => show (r.val * 64 + k.val) % 64 = k.val; omega
  have e2 : ridx_main_v34 (ix2 r d) k = ix2 k d := by
    funext a
    match a with
    | ⟨0, _⟩ => rfl
    | ⟨1, _⟩ => rfl
  rw [e1, e2]

/-- The sender's features at entry `e`, feature `d`. -/
theorem feat_src_at (e : Fin 2099200) (d : Fin 64) :
    val_main_v81 (F := Ideal) X W (ix2 e d)
      = val_main_v34 (F := Ideal) X W (ix2 (clampRow 2048 (by decide) (val_main_v80 (F := Ideal) (ix2 e (0 : Fin 1)))) d) :=
  gather_rows_apply (N := 2048) (E := 2099200) (C := 64) (by decide) gather_S2048x64_S2099200x1_S2099200x64_1_0_n_n_0_1_164_wf
    (val_main_v34 (F := Ideal) X W) (val_main_v80 (F := Ideal)) e d

/-- THE MESSAGE OF ENTRY `e`, feature `d`: the sender's features times `(dinv sender · dinv receiver) · weight`. -/
theorem message_at (e : Fin 2099200) (d : Fin 64) :
    val_main_v84 (F := Ideal) X Cn W (ix2 e d)
      = val_main_v81 (F := Ideal) X W (ix2 e d)
        * ((val_main_v65 (F := Ideal) Cn (ix1 e) * val_main_v72 (F := Ideal) Cn (ix1 e)) * val_main_v44 (F := Ideal) Cn (ix1 e)) := by
  rw [val_main_v84_apply, val_main_v83_apply, val_main_v82_apply, val_main_v74_apply, val_main_v73_apply]
  have e1 : idx_main_v82 (idx_main_v83 (ix2 e d)) = ix1 e := by
    funext a
    match a with
    | ⟨0, _⟩ => rfl
  rw [e1]
  rfl

end Cert.ReferenceIdeal.Stages

end
-- ==== Proof.RefScatter.lean ====
/-
  The reference's two sums into rows, read at a row.

  The degree of row `r` is zero plus the weights of the entries of the edge list whose receiver word names `r`; the result
  at row `r`, feature `d`, is zero plus the messages of those entries, plus the bias.
-/
import proofs.«117760_g41240275976349_cont_sun_c4_136_3_alg».proof.Proof.ReadP
import proofs.«117760_g41240275976349_cont_sun_c4_136_3_alg».proof.Proof.LibScatterVec
import Idealize.ShloMosaic.PureOps.Ideal.Laws

noncomputable section

open scoped BigOperators

namespace Cert.ReferenceIdeal.Stages

open Cert.ReferenceIdeal Cert.ReferenceIdeal.Gen Cert.ReferenceIdeal.ReadP Idealize.ShloMosaic Idealize.ShloMosaic.TcCoe
  Idealize.ShloMosaic.ValueIdx

variable (X : (⟨S2x1024x64, .f32⟩ : BufTy).Contents (Elt Ideal)) (Cn : (⟨S2x1024x1024, .i32⟩ : BufTy).Contents (Elt Ideal))
  (W : (⟨S64x64, .f32⟩ : BufTy).Contents (Elt Ideal)) (Bv : (⟨S64, .f32⟩ : BufTy).Contents (Elt Ideal))

/-- The degrees start from zero. -/
theorem zero45 (i : S2048.Idx) : val_main_v45 (F := Ideal) i = 0 := by
  rw [val_main_v45_apply, val_main_cst_5_apply]
  exact Ideal.ofBits_zero_f32

/-- The result rows start from zero. -/
theorem zero85 (i : S2048x64.Idx) : val_main_v85 (F := Ideal) i = 0 := by
  rw [val_main_v85_apply, val_main_cst_17_apply]
  exact Ideal.ofBits_zero_f32

theorem v52_fn :
    val_main_v52 (F := Ideal) Cn
      = Ideal.hostScatterAdd (vecScatterDims 2048 2099200 scatter_S2048_S2099200x1_S2099200_n_0_0_1_wf)
          (val_main_v45 (F := Ideal)) (val_main_v51 (F := Ideal)) (val_main_v44 (F := Ideal) Cn) := rfl

/-- THE DEGREE OF ROW `r`: zero plus the weights of the entries whose receiver word names `r`. -/
theorem degree_at (r : Fin 2048) :
    val_main_v52 (F := Ideal) Cn (ix1 r)
      = 0 + ∑ e ∈ Finset.univ.filter (fun e : Fin 2099200 =>
            landRow 2048 (val_main_v51 (F := Ideal) (ix2 e (0 : Fin 1))) = some r),
          val_main_v44 (F := Ideal) Cn (ix1 e) :=
  (congrFun (v52_fn Cn) (ix1 r)).trans
    ((scatterAdd_vec_apply (N := 2048) (E := 2099200) scatter_S2048_S2099200x1_S2099200_n_0_0_1_wf
      (val_main_v45 (F := Ideal)) (val_main_v51 (F := Ideal)) (val_main_v44 (F := Ideal) Cn) r).trans
      (congrArg (· + _) (zero45 (ix1 r))))

theorem v92_fn :
    val_main_v92 (F := Ideal) X Cn W
      = Ideal.hostScatterAdd (rowScatterDims 2048 2099200 64 scatter_S2048x64_S2099200x1_S2099200x64_1_0_0_1_wf)
          (val_main_v85 (F := Ideal)) (val_main_v91 (F := Ideal)) (val_main_v84 (F := Ideal) X Cn W) := rfl

/-- The messages received by row `r`, feature `d`. -/
theorem received_at (r : Fin 2048) (d : Fin 64) :
    val_main_v92 (F := Ideal) X Cn W (ix2 r d)
      = 0 + ∑ e ∈ Finset.univ.filter (fun e : Fin 2099200 =>
            landRow 2048 (val_main_v91 (F := Ideal) (ix2 e (0 : Fin 1))) = some r),
          val_main_v84 (F := Ideal) X Cn W (ix2 e d) :=
  (congrFun (v92_fn X Cn W) (ix2 r d)).trans
    ((scatterAdd_rows_apply (N := 2048) (E := 2099200) (C := 64) scatter_S2048x64_S2099200x1_S2099200x64_1_0_0_1_wf
      (val_main_v85 (F := Ideal)) (val_main_v91 (F := Ideal)) (val_main_v84 (F := Ideal) X Cn W) r d).trans
      (congrArg (· + _) (zero85 (ix2 r d))))

/-- The bias at row `r`, feature `d`. -/
theorem bias_at (r : Fin 2048) (d : Fin 64) : val_main_v94 (F := Ideal) Bv (ix2 r d) = Bv (ix1 d) := by
  rw [val_main_v94_apply, val_main_v93_apply]
  congr 1
  funext a
  match a with
  | ⟨0, _⟩ => rfl

/-- THE RESULT AT ROW `r`, feature `d`: zero plus the messages of the entries whose receiver word names `r`, plus the bias. -/
theorem result_at_row (r : Fin 2048) (d : Fin 64) :
    val_main_v95 (F := Ideal) X Cn W Bv (ix2 r d)
      = (0 + ∑ e ∈ Finset.univ.filter (fun e : Fin 2099200 =>
            landRow 2048 (val_main_v91 (F := Ideal) (ix2 e (0 : Fin 1))) = some r),
          val_main_v84 (F := Ideal) X Cn W (ix2 e d)) + Bv (ix1 d) :=
  (val_main_v95_apply X Cn W Bv (ix2 r d)).trans
    (congrArg₂ (fun a b : EReal => a + b) (received_at X Cn W r d) (bias_at Bv r d))

end Cert.ReferenceIdeal.Stages

end
-- ==== Proof.LibJoinAt.lean ====
import Idealize.ShloMosaic.Lib.ValueIdx
import Idealize.ShloMosaic.Lib.Pipeline.Value

/-!
# Vectors joined end to end, read at an entry

The rank-1 companion of reading a stack of matrices at an entry: vectors [Wₖ] concatenated into one vector [R].
Entry `j` of the result is entry `p` of piece `k` when the pieces before `k` have `pre` entries together and
`j = pre + p`. The piece is named by an equation `xs[k]? = some ⟨shape, x₁⟩`, decided for a literal list by walking
it; `pre` is a sum over a literal prefix. Nothing here depends on what the entries are; library imports only.
-/

namespace Cert.LibJoinAt

open Idealize.ShloMosaic Idealize.ShloMosaic.ValueIdx

variable {α : Type}

/-- The lengths of the pieces, as the library's reading of a concatenation sums them. -/
abbrev lengths {R : ℕ} (ss : List Shape) : List Nat :=
  ss.map fun s => if h : s.rank = (⟨1, ![R]⟩ : Shape).rank then s.size ((0 : Fin 1).cast h.symm) else 0

/-- Vectors joined end to end, read at `j`: entry `p` of piece `k`, where `j = pre + p` and `pre` is the number of
    entries of the pieces before `k`. -/
theorem joined_at {R W : ℕ} (xs : List ((s : Shape) × (s.Idx → α)))
    (h : Shape.Concatenates (xs.map (·.1)) ⟨1, ![R]⟩ (0 : Fin 1)) (j : Fin R)
    (k : ℕ) (x₁ : (⟨1, ![W]⟩ : Shape).Idx → α) (hxk : xs[k]? = some ⟨⟨1, ![W]⟩, x₁⟩)
    (pre : ℕ) (hpre : (lengths (R := R) ((xs.take k).map (·.1))).sum = pre)
    (p : Fin W) (hj : pre + p.val = j.val) :
    concatenate ⟨1, ![R]⟩ (0 : Fin 1) xs h (ix1 j) = x₁ (ix1 p) := by
  obtain ⟨hk, hxk'⟩ := List.getElem?_eq_some_iff.mp hxk
  exact concatenate_apply_piece (t := ⟨1, ![R]⟩) (0 : Fin 1) xs h (ix1 j) k hk ⟨1, ![W]⟩ x₁ hxk' rfl pre hpre (ix1 p)
    (fun b hb => by
      match b with
      | ⟨0, _⟩ => exact absurd rfl hb) hj

end Cert.LibJoinAt
-- ==== Proof.LibConcatAt.lean ====
import Idealize.ShloMosaic.Lib.ValueIdx
import Idealize.ShloMosaic.Lib.Pipeline.Value

/-!
# A concatenation of matrices read at an entry

Two corollaries of the library's reading of a concatenation at an index (`concatenate_apply_piece`), in the two
forms a row-by-row or column-by-column assembly needs, with every index written by its coordinates:

* matrices [Wₖ, N] stacked on top of each other (axis 0) into [R, N]: entry `(j, r)` of the stack is entry
  `(p, r)` of piece `k` when the pieces before `k` have `pre` rows together and `j = pre + p`;
* matrices [N, Wₖ] set side by side (axis 1) into [N, K]: entry `(n, j)` is entry `(n, p)` of piece `k` when the
  pieces before `k` have `pre` columns together and `j = pre + p`.

The piece is named by an equation `xs[k]? = some ⟨shape, x₁⟩`, which for a literal list and a literal `k` is
decided by walking the list and tells Lean what `x₁` is; the count `pre` is a sum over a literal prefix of the list. Nothing here depends
on what the entries are.
-/

namespace Cert.LibConcatAt

open Idealize.ShloMosaic Idealize.ShloMosaic.ValueIdx

variable {α : Type}

/-- The extents of the pieces along axis `a` of the result, as the library's lemma sums them. -/
abbrev extents {t : Shape} (a : Fin t.rank) (ss : List Shape) : List Nat :=
  ss.map fun s => if h : s.rank = t.rank then s.size (a.cast h.symm) else 0

/-- Matrices stacked on top of each other, read at `(j, r)`: row `p` of piece `k`, where `j = pre + p` and `pre`
    is the number of rows of the pieces before `k`. -/
theorem stacked_at {R N W : ℕ} (xs : List ((s : Shape) × (s.Idx → α)))
    (h : Shape.Concatenates (xs.map (·.1)) ⟨2, ![R, N]⟩ (0 : Fin 2)) (j : Fin R) (r : Fin N)
    (k : ℕ) (x₁ : (⟨2, ![W, N]⟩ : Shape).Idx → α) (hxk : xs[k]? = some ⟨⟨2, ![W, N]⟩, x₁⟩)
    (pre : ℕ) (hpre : (extents (t := ⟨2, ![R, N]⟩) (0 : Fin 2) ((xs.take k).map (·.1))).sum = pre)
    (p : Fin W) (hj : pre + p.val = j.val) :
    concatenate ⟨2, ![R, N]⟩ (0 : Fin 2) xs h (ix2 j r) = x₁ (ix2 p r) := by
  obtain ⟨hk, hxk'⟩ := List.getElem?_eq_some_iff.mp hxk
  exact concatenate_apply_piece (t := ⟨2, ![R, N]⟩) (0 : Fin 2) xs h (ix2 j r) k hk ⟨2, ![W, N]⟩ x₁ hxk' rfl pre hpre (ix2 p r)
    (fun b hb => by
      match b with
      | ⟨0, _⟩ => exact absurd rfl hb
      | ⟨1, _⟩ => rfl) hj

/-- Matrices set side by side, read at `(n, j)`: column `p` of piece `k`, where `j = pre + p` and `pre` is the
    number of columns of the pieces before `k`. -/
theorem sideBySide_at {N K W : ℕ} (xs : List ((s : Shape) × (s.Idx → α)))
    (h : Shape.Concatenates (xs.map (·.1)) ⟨2, ![N, K]⟩ (1 : Fin 2)) (n : Fin N) (j : Fin K)
    (k : ℕ) (x₁ : (⟨2, ![N, W]⟩ : Shape).Idx → α) (hxk : xs[k]? = some ⟨⟨2, ![N, W]⟩, x₁⟩)
    (pre : ℕ) (hpre : (extents (t := ⟨2, ![N, K]⟩) (1 : Fin 2) ((xs.take k).map (·.1))).sum = pre)
    (p : Fin W) (hj : pre + p.val = j.val) :
    concatenate ⟨2, ![N, K]⟩ (1 : Fin 2) xs h (ix2 n j) = x₁ (ix2 n p) := by
  obtain ⟨hk, hxk'⟩ := List.getElem?_eq_some_iff.mp hxk
  exact concatenate_apply_piece (t := ⟨2, ![N, K]⟩) (1 : Fin 2) xs h (ix2 n j) k hk ⟨2, ![N, W]⟩ x₁ hxk' rfl pre hpre (ix2 n p)
    (fun b hb => by
      match b with
      | ⟨0, _⟩ => rfl
      | ⟨1, _⟩ => exact absurd rfl hb) hj

/-- Rows [1, N] stacked into [R, N]: row `j` of the stack is the `j`-th piece. The piece is found by walking the
    list to position `j`; that the `j` pieces before it are one row each is a sum over the prefix. -/
theorem stackedRows_at {R N : ℕ} (xs : List ((s : Shape) × (s.Idx → α)))
    (h : Shape.Concatenates (xs.map (·.1)) ⟨2, ![R, N]⟩ (0 : Fin 2)) (j : Fin R) (r : Fin N)
    (x₁ : (⟨2, ![1, N]⟩ : Shape).Idx → α) (hxk : xs[j.val]? = some ⟨⟨2, ![1, N]⟩, x₁⟩)
    (hpre : (extents (t := ⟨2, ![R, N]⟩) (0 : Fin 2) ((xs.take j.val).map (·.1))).sum = j.val) :
    concatenate ⟨2, ![R, N]⟩ (0 : Fin 2) xs h (ix2 j r) = x₁ (ix2 0 r) :=
  stacked_at xs h j r j.val x₁ hxk j.val hpre 0 rfl

/-- Columns [N, 1] set side by side into [N, K]: column `j` of the result is the `j`-th piece. -/
theorem columns_at {N K : ℕ} (xs : List ((s : Shape) × (s.Idx → α)))
    (h : Shape.Concatenates (xs.map (·.1)) ⟨2, ![N, K]⟩ (1 : Fin 2)) (n : Fin N) (j : Fin K)
    (x₁ : (⟨2, ![N, 1]⟩ : Shape).Idx → α) (hxk : xs[j.val]? = some ⟨⟨2, ![N, 1]⟩, x₁⟩)
    (hpre : (extents (t := ⟨2, ![N, K]⟩) (1 : Fin 2) ((xs.take j.val).map (·.1))).sum = j.val) :
    concatenate ⟨2, ![N, K]⟩ (1 : Fin 2) xs h (ix2 n j) = x₁ (ix2 n 0) :=
  sideBySide_at xs h n j j.val x₁ hxk j.val hpre 0 rfl

end Cert.LibConcatAt
-- ==== Proof.EdgeWords.lean ====
/-
  The integer side of the reference: what its index arrays and its weight array hold at each entry of the edge list.

  The edge list has 2 · 1024² + 2048 entries. Entry `s · 1024² + i · 1024 + j` is the candidate pair (sender `i`,
  receiver `j`) of sample `s`: its source word is the row `s · 1024 + i`, its destination word the row
  `s · 1024 + j`, its weight the truth value of "the adjacency word of `(s, i, j)` is not zero" read as a number.
  Entry `2 · 1024² + r` is the self loop of row `r`: source and destination `r`, weight one. Every word is a natural
  number below 2048, so the wrap that adds 2048 to a negative index leaves it alone.

  The arrays are built from two counters (`e ↦ e / 1024` and `e ↦ e % 1024` over a flattened 1024 × 1024 grid), shifted
  by 1024 for the second sample, stacked in two rows, set side by side, cut into rows again and joined with the counter
  of the self loops. Each step is read at one symbolic entry; nothing is evaluated over the index types.
-/
import proofs.«117760_g41240275976349_cont_sun_c4_136_3_alg».proof.Proof.Spec
import proofs.«117760_g41240275976349_cont_sun_c4_136_3_alg».proof.Proof.ReadP
import proofs.«117760_g41240275976349_cont_sun_c4_136_3_alg».proof.Proof.LibJoinAt
import proofs.«117760_g41240275976349_cont_sun_c4_136_3_alg».proof.Proof.LibConcatAt
import proofs.«117760_g41240275976349_cont_sun_c4_136_3_alg».proof.Proof.LibSmallF32

noncomputable section

namespace Cert.ReferenceIdeal.EdgeArrays

open Cert.GraphConv Cert.ReferenceIdeal Cert.ReferenceIdeal.Gen Cert.ReferenceIdeal.ReadP
open Idealize.ShloMosaic Idealize.ShloMosaic.ValueIdx Idealize.ShloMosaic.StableHlo
open Cert.LibJoinAt Cert.LibConcatAt

/-! ## Words -/

/-- A word spelling a natural number below 2³¹ is not negative. -/
theorem not_slt_zero (n : Nat) (hn : n < 2147483648) : (BitVec.ofNat 32 n).slt 0#32 = false := by
  have h1 : (BitVec.ofNat 32 n).toNat = n := by rw [BitVec.toNat_ofNat]; omega
  have h0 : (0#32 : BitVec 32).toNat = 0 := rfl
  rw [BitVec.slt, decide_eq_false_iff_not]
  unfold BitVec.toInt
  rw [h1, h0]
  rw [if_pos (by omega), if_pos (by omega)]
  omega

/-- The wrap of a negative index, `select (w < 0) (w + m) w`, at a word spelling a natural number below 2³¹. -/
theorem wrap_ofNat (n : Nat) (hn : n < 2147483648) (m : BitVec 32) :
    Scalar.select (IntOp.cmpi .slt (BitVec.ofNat 32 n) 0#32) (IntOp.addi (BitVec.ofNat 32 n) m) (BitVec.ofNat 32 n)
      = BitVec.ofNat 32 n := by
  unfold Scalar.select IntOp.cmpi
  simp only [not_slt_zero n hn]
  exact if_neg (by decide)

theorem add_ofNat (a b : Nat) : IntOp.addi (BitVec.ofNat 32 a) (BitVec.ofNat 32 b) = BitVec.ofNat 32 (a + b) := by
  unfold IntOp.addi
  exact (BitVec.ofNat_add a b).symm

/-- A rank-1 index is `ix1` of any coordinate with the same value. -/
theorem idx1_eq {n : Nat} (k : (⟨1, ![n]⟩ : Shape).Idx) (e : Fin n) (h : (k 0).val = e.val) : k = ix1 e := by
  funext d
  match d with
  | ⟨0, _⟩ => exact Fin.ext h

/-- A rank-2 index is `ix2` of any coordinates with the same values. -/
theorem idx2_eq {n0 n1 : Nat} (k : (⟨2, ![n0, n1]⟩ : Shape).Idx) (a : Fin n0) (b : Fin n1)
    (h0 : (k 0).val = a.val) (h1 : (k 1).val = b.val) : k = ix2 a b := by
  funext d
  match d with
  | ⟨0, _⟩ => exact Fin.ext h0
  | ⟨1, _⟩ => exact Fin.ext h1

/-- A rank-3 index is `ix3` of any coordinates with the same values. -/
theorem idx3_eq {n0 n1 n2 : Nat} (k : (⟨3, ![n0, n1, n2]⟩ : Shape).Idx) (a : Fin n0) (b : Fin n1) (c : Fin n2)
    (h0 : (k 0).val = a.val) (h1 : (k 1).val = b.val) (h2 : (k 2).val = c.val) : k = ix3 a b c := by
  funext d
  match d with
  | ⟨0, _⟩ => exact Fin.ext h0
  | ⟨1, _⟩ => exact Fin.ext h1
  | ⟨2, _⟩ => exact Fin.ext h2

variable {F : FTy → Type} [FloatOps F]

/-! ## The two counters over the flattened grid, and their shifts -/

/-- Entry `e` of the flattened row counter is `e / 1024`. -/
theorem v3_at (k : S1048576.Idx) : val_main_v3 (F := F) k = BitVec.ofNat 32 ((k 0).val / 1024) := by
  rw [val_main_v3_apply, val_main_v2_apply, val_main_v1_apply, val_main_v0_apply]

/-- Entry `e` of the flattened column counter is `e % 1024`. -/
theorem v6_at (k : S1048576.Idx) : val_main_v6 (F := F) k = BitVec.ofNat 32 ((k 0).val % 1024) := by
  rw [val_main_v6_apply, val_main_v5_apply, val_main_v4_apply, val_main_v0_apply]

theorem v8_at (k : S1048576.Idx) : val_main_v8 (F := F) k = BitVec.ofNat 32 ((k 0).val / 1024 + 0) := by
  rw [val_main_v8_apply, v3_at, val_main_v7_apply, val_main_c_apply]
  exact add_ofNat _ 0

theorem v10_at (k : S1048576.Idx) : val_main_v10 (F := F) k = BitVec.ofNat 32 ((k 0).val % 1024 + 0) := by
  rw [val_main_v10_apply, v6_at, val_main_v9_apply, val_main_c_0_apply]
  exact add_ofNat _ 0

theorem v20_at (k : S1048576.Idx) : val_main_v20 (F := F) k = BitVec.ofNat 32 ((k 0).val / 1024 + 1024) := by
  rw [val_main_v20_apply, v3_at, val_main_v19_apply, val_main_c_2_apply]
  exact add_ofNat _ 1024

theorem v22_at (k : S1048576.Idx) : val_main_v22 (F := F) k = BitVec.ofNat 32 ((k 0).val % 1024 + 1024) := by
  rw [val_main_v22_apply, v6_at, val_main_v21_apply, val_main_c_3_apply]
  exact add_ofNat _ 1024

/-! ## Two rows per sample: sources on row 0, destinations on row 1 -/

theorem v13_src (e : Fin 1048576) : val_main_v13 (F := F) (ix2 0 e) = BitVec.ofNat 32 (e.val / 1024 + 0) := by
  have h : val_main_v13 (F := F) (ix2 0 e) = val_main_v11 (F := F) (ix2 0 e) := by
    unfold val_main_v13
    exact stackedRows_at _ _ (0 : Fin 2) e _ rfl rfl
  rw [h, val_main_v11_apply, v8_at]

theorem v13_dst (e : Fin 1048576) : val_main_v13 (F := F) (ix2 1 e) = BitVec.ofNat 32 (e.val % 1024 + 0) := by
  have h : val_main_v13 (F := F) (ix2 1 e) = val_main_v12 (F := F) (ix2 0 e) := by
    unfold val_main_v13
    exact stackedRows_at _ _ (1 : Fin 2) e _ rfl rfl
  rw [h, val_main_v12_apply, v10_at]

theorem v25_src (e : Fin 1048576) : val_main_v25 (F := F) (ix2 0 e) = BitVec.ofNat 32 (e.val / 1024 + 1024) := by
  have h : val_main_v25 (F := F) (ix2 0 e) = val_main_v23 (F := F) (ix2 0 e) := by
    unfold val_main_v25
    exact stackedRows_at _ _ (0 : Fin 2) e _ rfl rfl
  rw [h, val_main_v23_apply, v20_at]

theorem v25_dst (e : Fin 1048576) : val_main_v25 (F := F) (ix2 1 e) = BitVec.ofNat 32 (e.val % 1024 + 1024) := by
  have h : val_main_v25 (F := F) (ix2 1 e) = val_main_v24 (F := F) (ix2 0 e) := by
    unfold val_main_v25
    exact stackedRows_at _ _ (1 : Fin 2) e _ rfl rfl
  rw [h, val_main_v24_apply, v22_at]

/-! ## The two samples side by side -/

theorem v31_lo (r : Fin 2) (c : Fin 2097152) (p : Fin 1048576) (h : 0 + p.val = c.val) :
    val_main_v31 (F := F) (ix2 r c) = val_main_v13 (F := F) (ix2 r p) := by
  unfold val_main_v31
  exact sideBySide_at _ _ r c 0 _ rfl 0 rfl p h

theorem v31_hi (r : Fin 2) (c : Fin 2097152) (p : Fin 1048576) (h : 1048576 + p.val = c.val) :
    val_main_v31 (F := F) (ix2 r c) = val_main_v25 (F := F) (ix2 r p) := by
  unfold val_main_v31
  exact sideBySide_at _ _ r c 1 _ rfl 1048576 rfl p h

/-- The source word of candidate pair `c`. -/
theorem v31_src (c : Fin 2097152) :
    val_main_v31 (F := F) (ix2 0 c) = BitVec.ofNat 32 (c.val % 1048576 / 1024 + c.val / 1048576 * 1024) := by
  by_cases hc : c.val < 1048576
  · rw [v31_lo 0 c ⟨c.val, hc⟩ (Nat.zero_add _), v13_src]
    exact congrArg (BitVec.ofNat 32) (by show c.val / 1024 + 0 = _; omega)
  · have hc2 := c.isLt
    rw [v31_hi 0 c ⟨c.val - 1048576, by omega⟩ (by show 1048576 + (c.val - 1048576) = c.val; omega), v25_src]
    exact congrArg (BitVec.ofNat 32) (by show (c.val - 1048576) / 1024 + 1024 = _; omega)

/-- The destination word of candidate pair `c`. -/
theorem v31_dst (c : Fin 2097152) :
    val_main_v31 (F := F) (ix2 1 c) = BitVec.ofNat 32 (c.val % 1024 + c.val / 1048576 * 1024) := by
  by_cases hc : c.val < 1048576
  · rw [v31_lo 1 c ⟨c.val, hc⟩ (Nat.zero_add _), v13_dst]
    exact congrArg (BitVec.ofNat 32) (by show c.val % 1024 + 0 = _; omega)
  · have hc2 := c.isLt
    rw [v31_hi 1 c ⟨c.val - 1048576, by omega⟩ (by show 1048576 + (c.val - 1048576) = c.val; omega), v25_dst]
    exact congrArg (BitVec.ofNat 32) (by show (c.val - 1048576) % 1024 + 1024 = _; omega)

/-! ## Cut into rows again -/

theorem v36_at (c : Fin 2097152) :
    val_main_v36 (F := F) (ix1 c) = BitVec.ofNat 32 (c.val % 1048576 / 1024 + c.val / 1048576 * 1024) := by
  rw [val_main_v36_apply, val_main_v35_apply,
    idx2_eq (idx_main_v35 (idx_main_v36 (ix1 c))) (0 : Fin 2) c rfl (Nat.mod_eq_of_lt c.isLt), v31_src]

theorem v38_at (c : Fin 2097152) :
    val_main_v38 (F := F) (ix1 c) = BitVec.ofNat 32 (c.val % 1024 + c.val / 1048576 * 1024) := by
  rw [val_main_v38_apply, val_main_v37_apply,
    idx2_eq (idx_main_v37 (idx_main_v38 (ix1 c))) (1 : Fin 2) c rfl (Nat.mod_eq_of_lt c.isLt), v31_dst]

/-! ## Joined with the self loops: the source and destination arrays -/

theorem v40_edge (s : Fin 2) (i j : Fin 1024) :
    val_main_v40 (F := F) (ix1 (edgeIx s i j)) = BitVec.ofNat 32 (rowOf s i).val := by
  have hs := s.isLt; have hi := i.isLt; have hj := j.isLt
  have h : val_main_v40 (F := F) (ix1 (edgeIx s i j))
      = val_main_v36 (F := F) (ix1 ⟨s.val * 1048576 + i.val * 1024 + j.val, by omega⟩) := by
    unfold val_main_v40
    exact joined_at _ _ (edgeIx s i j) 0 _ rfl 0 rfl _ (Nat.zero_add _)
  rw [h, v36_at]
  exact congrArg (BitVec.ofNat 32) (by
    show (s.val * 1048576 + i.val * 1024 + j.val) % 1048576 / 1024 + (s.val * 1048576 + i.val * 1024 + j.val) / 1048576 * 1024
      = s.val * 1024 + i.val
    omega)

theorem v41_edge (s : Fin 2) (i j : Fin 1024) :
    val_main_v41 (F := F) (ix1 (edgeIx s i j)) = BitVec.ofNat 32 (rowOf s j).val := by
  have hs := s.isLt; have hi := i.isLt; have hj := j.isLt
  have h : val_main_v41 (F := F) (ix1 (edgeIx s i j))
      = val_main_v38 (F := F) (ix1 ⟨s.val * 1048576 + i.val * 1024 + j.val, by omega⟩) := by
    unfold val_main_v41
    exact joined_at _ _ (edgeIx s i j) 0 _ rfl 0 rfl _ (Nat.zero_add _)
  rw [h, v38_at]
  exact congrArg (BitVec.ofNat 32) (by
    show (s.val * 1048576 + i.val * 1024 + j.val) % 1024 + (s.val * 1048576 + i.val * 1024 + j.val) / 1048576 * 1024
      = s.val * 1024 + j.val
    omega)

theorem v40_loop (r : Fin 2048) : val_main_v40 (F := F) (ix1 (loopIx r)) = BitVec.ofNat 32 r.val := by
  have h : val_main_v40 (F := F) (ix1 (loopIx r)) = val_main_v39 (F := F) (ix1 r) := by
    unfold val_main_v40
    exact joined_at _ _ (loopIx r) 1 _ rfl 2097152 rfl r rfl
  rw [h, val_main_v39_apply]

theorem v41_loop (r : Fin 2048) : val_main_v41 (F := F) (ix1 (loopIx r)) = BitVec.ofNat 32 r.val := by
  have h : val_main_v41 (F := F) (ix1 (loopIx r)) = val_main_v39 (F := F) (ix1 r) := by
    unfold val_main_v41
    exact joined_at _ _ (loopIx r) 1 _ rfl 2097152 rfl r rfl
  rw [h, val_main_v39_apply]

end Cert.ReferenceIdeal.EdgeArrays

end
-- ==== Proof.EdgeArrays.lean ====
/-
  The reference's edge arrays as the scatter and the gathers read them: the five index columns after the wrap of a
  negative index, and the weights.

  At candidate pair `(s, i, j)` the source columns hold the row `s · 1024 + i`, the destination columns the row
  `s · 1024 + j`, and the weight is the truth value of "the adjacency word of `(s, i, j)` is not zero" as a number
  (0 at the word 0, 1 at the word 1). At the self loop of row `r` every column holds `r` and the weight is 1.
-/
import proofs.«117760_g41240275976349_cont_sun_c4_136_3_alg».proof.Proof.EdgeWords

noncomputable section

namespace Cert.ReferenceIdeal.EdgeArrays

open Cert.GraphConv Cert.ReferenceIdeal Cert.ReferenceIdeal.Gen Cert.ReferenceIdeal.ReadP
open Idealize.ShloMosaic Idealize.ShloMosaic.ValueIdx Idealize.ShloMosaic.StableHlo
open Cert.LibJoinAt Cert.LibConcatAt

/-! ## The five index columns after the wrap -/

/-- The wrap `select (w < 0) (w + m) w` at a word spelling a row. -/
theorem wrapped (w : BitVec 32) (n : Nat) (hn : n < 2048) (hw : w = BitVec.ofNat 32 n) (m : BitVec 32) :
    Scalar.select (IntOp.cmpi .slt w 0#32) (IntOp.addi w m) w = BitVec.ofNat 32 n := by
  subst hw
  exact wrap_ofNat n (by omega) m

theorem dstcol51_edge (s : Fin 2) (i j : Fin 1024) :
    val_main_v51 (F := Ideal) (ix2 (edgeIx s i j) (0 : Fin 1)) = BitVec.ofNat 32 (rowOf s j).val := by
  rw [val_main_v51_apply, idx1_eq (idx_main_v51 (ix2 (edgeIx s i j) (0 : Fin 1))) (edgeIx s i j) rfl,
    val_main_v50_apply, val_main_v47_apply, val_main_v49_apply, val_main_v46_apply, val_main_c_6_apply]
  exact wrapped _ _ (rowOf s j).isLt (v41_edge s i j) _

theorem dstcol51_loop (r : Fin 2048) :
    val_main_v51 (F := Ideal) (ix2 (loopIx r) (0 : Fin 1)) = BitVec.ofNat 32 r.val := by
  rw [val_main_v51_apply, idx1_eq (idx_main_v51 (ix2 (loopIx r) (0 : Fin 1))) (loopIx r) rfl,
    val_main_v50_apply, val_main_v47_apply, val_main_v49_apply, val_main_v46_apply, val_main_c_6_apply]
  exact wrapped _ _ r.isLt (v41_loop r) _

theorem srccol64_edge (s : Fin 2) (i j : Fin 1024) :
    val_main_v64 (F := Ideal) (ix2 (edgeIx s i j) (0 : Fin 1)) = BitVec.ofNat 32 (rowOf s i).val := by
  rw [val_main_v64_apply, idx1_eq (idx_main_v64 (ix2 (edgeIx s i j) (0 : Fin 1))) (edgeIx s i j) rfl,
    val_main_v63_apply, val_main_v60_apply, val_main_v62_apply, val_main_v59_apply, val_main_c_11_apply]
  exact wrapped _ _ (rowOf s i).isLt (v40_edge s i j) _

theorem srccol64_loop (r : Fin 2048) :
    val_main_v64 (F := Ideal) (ix2 (loopIx r) (0 : Fin 1)) = BitVec.ofNat 32 r.val := by
  rw [val_main_v64_apply, idx1_eq (idx_main_v64 (ix2 (loopIx r) (0 : Fin 1))) (loopIx r) rfl,
    val_main_v63_apply, val_main_v60_apply, val_main_v62_apply, val_main_v59_apply, val_main_c_11_apply]
  exact wrapped _ _ r.isLt (v40_loop r) _

theorem dstcol71_edge (s : Fin 2) (i j : Fin 1024) :
    val_main_v71 (F := Ideal) (ix2 (edgeIx s i j) (0 : Fin 1)) = BitVec.ofNat 32 (rowOf s j).val := by
  rw [val_main_v71_apply, idx1_eq (idx_main_v71 (ix2 (edgeIx s i j) (0 : Fin 1))) (edgeIx s i j) rfl,
    val_main_v70_apply, val_main_v67_apply, val_main_v69_apply, val_main_v66_apply, val_main_c_13_apply]
  exact wrapped _ _ (rowOf s j).isLt (v41_edge s i j) _

theorem dstcol71_loop (r : Fin 2048) :
    val_main_v71 (F := Ideal) (ix2 (loopIx r) (0 : Fin 1)) = BitVec.ofNat 32 r.val := by
  rw [val_main_v71_apply, idx1_eq (idx_main_v71 (ix2 (loopIx r) (0 : Fin 1))) (loopIx r) rfl,
    val_main_v70_apply, val_main_v67_apply, val_main_v69_apply, val_main_v66_apply, val_main_c_13_apply]
  exact wrapped _ _ r.isLt (v41_loop r) _

theorem srccol80_edge (s : Fin 2) (i j : Fin 1024) :
    val_main_v80 (F := Ideal) (ix2 (edgeIx s i j) (0 : Fin 1)) = BitVec.ofNat 32 (rowOf s i).val := by
  rw [val_main_v80_apply, idx1_eq (idx_main_v80 (ix2 (edgeIx s i j) (0 : Fin 1))) (edgeIx s i j) rfl,
    val_main_v79_apply, val_main_v76_apply, val_main_v78_apply, val_main_v75_apply, val_main_c_15_apply]
  exact wrapped _ _ (rowOf s i).isLt (v40_edge s i j) _

theorem srccol80_loop (r : Fin 2048) :
    val_main_v80 (F := Ideal) (ix2 (loopIx r) (0 : Fin 1)) = BitVec.ofNat 32 r.val := by
  rw [val_main_v80_apply, idx1_eq (idx_main_v80 (ix2 (loopIx r) (0 : Fin 1))) (loopIx r) rfl,
    val_main_v79_apply, val_main_v76_apply, val_main_v78_apply, val_main_v75_apply, val_main_c_15_apply]
  exact wrapped _ _ r.isLt (v40_loop r) _

theorem dstcol91_edge (s : Fin 2) (i j : Fin 1024) :
    val_main_v91 (F := Ideal) (ix2 (edgeIx s i j) (0 : Fin 1)) = BitVec.ofNat 32 (rowOf s j).val := by
  rw [val_main_v91_apply, idx1_eq (idx_main_v91 (ix2 (edgeIx s i j) (0 : Fin 1))) (edgeIx s i j) rfl,
    val_main_v90_apply, val_main_v87_apply, val_main_v89_apply, val_main_v86_apply, val_main_c_18_apply]
  exact wrapped _ _ (rowOf s j).isLt (v41_edge s i j) _

theorem dstcol91_loop (r : Fin 2048) :
    val_main_v91 (F := Ideal) (ix2 (loopIx r) (0 : Fin 1)) = BitVec.ofNat 32 r.val := by
  rw [val_main_v91_apply, idx1_eq (idx_main_v91 (ix2 (loopIx r) (0 : Fin 1))) (loopIx r) rfl,
    val_main_v90_apply, val_main_v87_apply, val_main_v89_apply, val_main_v86_apply, val_main_c_18_apply]
  exact wrapped _ _ r.isLt (v41_loop r) _

/-! ## The weights -/

variable {F : FTy → Type} [FloatOps F]

/-- "The adjacency word of `(0, a, b)` is not zero", on the first sample's grid. -/
theorem v17_at (x1 : (⟨S2x1024x1024, .i32⟩ : BufTy).Contents (Elt F)) (a b : Fin 1024) :
    val_main_v17 (F := F) x1 (ix2 a b) = IntOp.cmpi .ne (x1 (ix3 (0 : Fin 2) a b)) 0#32 := by
  have ha := a.isLt; have hb := b.isLt
  rw [val_main_v17_apply, val_main_v15_apply, val_main_v14_apply, val_main_v16_apply, val_main_c_1_apply,
    idx3_eq (idx_main_v14 (idx_main_v15 (ix2 a b))) (0 : Fin 2) a b rfl
      (by show (a.val * 1024 + b.val) / 1024 % 1024 = a.val; omega)
      (by show (a.val * 1024 + b.val) % 1024 = b.val; omega)]

/-- The same on the second sample's grid. -/
theorem v29_at (x1 : (⟨S2x1024x1024, .i32⟩ : BufTy).Contents (Elt F)) (a b : Fin 1024) :
    val_main_v29 (F := F) x1 (ix2 a b) = IntOp.cmpi .ne (x1 (ix3 (1 : Fin 2) a b)) 0#32 := by
  have ha := a.isLt; have hb := b.isLt
  rw [val_main_v29_apply, val_main_v27_apply, val_main_v26_apply, val_main_v28_apply, val_main_c_4_apply,
    idx3_eq (idx_main_v26 (idx_main_v27 (ix2 a b))) (1 : Fin 2) a b rfl
      (by show (a.val * 1024 + b.val) / 1024 % 1024 = a.val; omega)
      (by show (a.val * 1024 + b.val) % 1024 = b.val; omega)]

theorem v18_at (x1 : (⟨S2x1024x1024, .i32⟩ : BufTy).Contents (Elt F)) (e : Fin 1048576) (a b : Fin 1024)
    (h : e.val = a.val * 1024 + b.val) :
    val_main_v18 (F := F) x1 (ix1 e) = IntOp.cmpi .ne (x1 (ix3 (0 : Fin 2) a b)) 0#32 := by
  have hb := b.isLt
  rw [val_main_v18_apply, idx2_eq (idx_main_v18 (ix1 e)) a b (by show e.val / 1024 = a.val; omega)
    (by show e.val % 1024 = b.val; omega), v17_at]

theorem v30_at (x1 : (⟨S2x1024x1024, .i32⟩ : BufTy).Contents (Elt F)) (e : Fin 1048576) (a b : Fin 1024)
    (h : e.val = a.val * 1024 + b.val) :
    val_main_v30 (F := F) x1 (ix1 e) = IntOp.cmpi .ne (x1 (ix3 (1 : Fin 2) a b)) 0#32 := by
  have hb := b.isLt
  rw [val_main_v30_apply, idx2_eq (idx_main_v30 (ix1 e)) a b (by show e.val / 1024 = a.val; omega)
    (by show e.val % 1024 = b.val; omega), v29_at]

theorem v32_lo (x1 : (⟨S2x1024x1024, .i32⟩ : BufTy).Contents (Elt F)) (i j : Fin 1024) (c : Fin 2097152)
    (hc : c.val = i.val * 1024 + j.val) :
    val_main_v32 (F := F) x1 (ix1 c) = IntOp.cmpi .ne (x1 (ix3 (0 : Fin 2) i j)) 0#32 := by
  have hi := i.isLt; have hj := j.isLt
  have h : val_main_v32 (F := F) x1 (ix1 c)
      = val_main_v18 (F := F) x1 (ix1 ⟨i.val * 1024 + j.val, by omega⟩) := by
    unfold val_main_v32
    exact joined_at _ _ c 0 _ rfl 0 rfl _ (by show 0 + (i.val * 1024 + j.val) = c.val; omega)
  rw [h, v18_at x1 _ i j rfl]

theorem v32_hi (x1 : (⟨S2x1024x1024, .i32⟩ : BufTy).Contents (Elt F)) (i j : Fin 1024) (c : Fin 2097152)
    (hc : c.val = 1048576 + i.val * 1024 + j.val) :
    val_main_v32 (F := F) x1 (ix1 c) = IntOp.cmpi .ne (x1 (ix3 (1 : Fin 2) i j)) 0#32 := by
  have hi := i.isLt; have hj := j.isLt
  have h : val_main_v32 (F := F) x1 (ix1 c)
      = val_main_v30 (F := F) x1 (ix1 ⟨i.val * 1024 + j.val, by omega⟩) := by
    unfold val_main_v32
    exact joined_at _ _ c 1 _ rfl 1048576 rfl _ (by show 1048576 + (i.val * 1024 + j.val) = c.val; omega)
  rw [h, v30_at x1 _ i j rfl]

/-- The one-bit word of candidate pair `(s, i, j)`. -/
theorem v32_at (x1 : (⟨S2x1024x1024, .i32⟩ : BufTy).Contents (Elt F)) (s : Fin 2) (i j : Fin 1024) (c : Fin 2097152)
    (hc : c.val = s.val * 1048576 + i.val * 1024 + j.val) :
    val_main_v32 (F := F) x1 (ix1 c) = IntOp.cmpi .ne (x1 (ix3 s i j)) 0#32 := by
  have hs := s.isLt
  by_cases h0 : s.val = 0
  · have es : s = (0 : Fin 2) := Fin.ext h0
    rw [es]
    exact v32_lo x1 i j c (by omega)
  · have es : s = (1 : Fin 2) := Fin.ext (by show s.val = 1; omega)
    rw [es]
    exact v32_hi x1 i j c (by omega)

/-- The weight of candidate pair `(s, i, j)`: the one-bit word "the adjacency word is not zero", as a number. -/
theorem weight_edge (Cn : SC.Idx → BitVec 32) (s : Fin 2) (i j : Fin 1024) :
    val_main_v44 (F := Ideal) Cn (ix1 (edgeIx s i j))
      = (((IntOp.cmpi .ne (Cn (ix3 s i j)) 0#32).toNat : ℝ) : EReal) := by
  have hs := s.isLt; have hi := i.isLt; have hj := j.isLt
  have h : val_main_v44 (F := Ideal) Cn (ix1 (edgeIx s i j))
      = val_main_v42 (F := Ideal) Cn (ix1 ⟨s.val * 1048576 + i.val * 1024 + j.val, by omega⟩) := by
    unfold val_main_v44
    exact joined_at _ _ (edgeIx s i j) 0 _ rfl 0 rfl _ (Nat.zero_add _)
  rw [h, val_main_v42_apply, v32_at Cn s i j _ rfl]
  rfl

theorem weight_edge_zero (Cn : SC.Idx → BitVec 32) (s : Fin 2) (i j : Fin 1024) (h : Cn (ix3 s i j) = 0#32) :
    val_main_v44 (F := Ideal) Cn (ix1 (edgeIx s i j)) = 0 := by
  rw [weight_edge, h, show IntOp.cmpi .ne (0#32) (0#32) = 0#1 from by decide]
  show (((0 : ℕ) : ℝ) : EReal) = 0
  rw [Nat.cast_zero, EReal.coe_zero]

theorem weight_edge_one (Cn : SC.Idx → BitVec 32) (s : Fin 2) (i j : Fin 1024) (h : Cn (ix3 s i j) = 1#32) :
    val_main_v44 (F := Ideal) Cn (ix1 (edgeIx s i j)) = 1 := by
  rw [weight_edge, h, show IntOp.cmpi .ne (1#32) (0#32) = 1#1 from by decide]
  show (((1 : ℕ) : ℝ) : EReal) = 1
  rw [Nat.cast_one, EReal.coe_one]

/-- The weight of a self loop is the constant one. -/
theorem weight_loop (Cn : SC.Idx → BitVec 32) (r : Fin 2048) :
    val_main_v44 (F := Ideal) Cn (ix1 (loopIx r)) = 1 := by
  have h : val_main_v44 (F := Ideal) Cn (ix1 (loopIx r)) = val_main_v43 (F := Ideal) (ix1 r) := by
    unfold val_main_v44
    exact joined_at _ _ (loopIx r) 1 _ rfl 2097152 rfl r rfl
  rw [h, val_main_v43_apply, val_main_cst_apply, Ideal.ofBits_def, Cert.LibSmallF32.f32_1]
  exact EReal.coe_one

end Cert.ReferenceIdeal.EdgeArrays

end
-- ==== Proof.EdgeSum.lean ====
/-
  A sum over the entries of the edge list that point at one node.

  The edge list has one entry for every candidate pair (sender, receiver) of every sample and then one self loop
  for every row. If a property of entries singles out exactly the pairs of sample `s` whose receiver is `j`, and
  exactly the self loop of row `s · 1024 + j`, then a sum over the entries with that property is the sum over the
  senders `i` of the entry of the pair `(i, j)`, plus the entry of the self loop.
-/
import Mathlib.Algebra.BigOperators.Group.Finset.Basic
import proofs.«117760_g41240275976349_cont_sun_c4_136_3_alg».proof.Proof.Spec

open scoped BigOperators

namespace Cert.GraphConv

/-- For a fixed sample and receiver, different senders give different entries of the edge list. -/
theorem edgeIx_injective_sender (s : Fin 2) (j : Fin 1024) :
    Function.Injective (fun i : Fin 1024 => edgeIx s i j) := by
  intro a b h
  have hv := congrArg Fin.val h
  simp only [edgeIx_val] at hv
  exact Fin.ext (by omega)

/-- A candidate pair is never a self-loop entry: the pairs come first in the list. -/
theorem edgeIx_ne_loopIx (s : Fin 2) (i j : Fin 1024) (r : Fin 2048) : edgeIx s i j ≠ loopIx r := by
  intro h
  have hv := congrArg Fin.val h
  simp only [edgeIx_val, loopIx_val] at hv
  omega

/-- The entries with property `P` are the self loop of row `s · 1024 + j` and the pairs `(i, j)` of sample `s`. -/
theorem filter_edge_list (P : Fin 2099200 → Prop) [DecidablePred P] (s : Fin 2) (j : Fin 1024)
    (hedge : ∀ (s' : Fin 2) (i j' : Fin 1024), P (edgeIx s' i j') ↔ (s' = s ∧ j' = j))
    (hloop : ∀ r : Fin 2048, P (loopIx r) ↔ r = rowOf s j) :
    Finset.univ.filter P
      = insert (loopIx (rowOf s j))
          (Finset.univ.map ⟨fun i : Fin 1024 => edgeIx s i j, edgeIx_injective_sender s j⟩) := by
  ext e
  simp only [Finset.mem_filter, Finset.mem_univ, true_and, Finset.mem_insert, Finset.mem_map,
    Function.Embedding.coeFn_mk]
  constructor
  · intro hP
    rcases edge_or_loop e with ⟨s', i, j', rfl⟩ | ⟨r, rfl⟩
    · obtain ⟨rfl, rfl⟩ := (hedge s' i j').1 hP
      exact Or.inr ⟨i, rfl⟩
    · have hr := (hloop r).1 hP
      subst hr
      exact Or.inl rfl
  · rintro (rfl | ⟨i, rfl⟩)
    · exact (hloop _).2 rfl
    · exact (hedge s i j).2 ⟨rfl, rfl⟩

theorem sum_edge_list {M : Type*} [AddCommMonoid M] (f : Fin 2099200 → M) (P : Fin 2099200 → Prop)
    [DecidablePred P] (s : Fin 2) (j : Fin 1024)
    (hedge : ∀ (s' : Fin 2) (i j' : Fin 1024), P (edgeIx s' i j') ↔ (s' = s ∧ j' = j))
    (hloop : ∀ r : Fin 2048, P (loopIx r) ↔ r = rowOf s j) :
    ∑ e ∈ Finset.univ.filter P, f e = (∑ i : Fin 1024, f (edgeIx s i j)) + f (loopIx (rowOf s j)) := by
  rw [filter_edge_list P s j hedge hloop, Finset.sum_insert, Finset.sum_map, add_comm]
  · rfl
  · simp only [Finset.mem_map, Finset.mem_univ, true_and, Function.Embedding.coeFn_mk, not_exists]
    intro i h
    exact edgeIx_ne_loopIx s i j _ h

end Cert.GraphConv
-- ==== Proof.LibReal.lean ====
/-
  Arrays of extended reals all of whose entries are real numbers: the predicate under which the ring laws
  (distributivity, moving a factor across a finite sum) hold entry by entry, and its closure under the
  arithmetic that keeps reals real.
-/
import Mathlib.Data.EReal.Basic
import Mathlib.Data.EReal.Operations
import Mathlib.Algebra.BigOperators.Group.Finset.Basic

open scoped BigOperators

namespace LibReal

/-- Every entry of `x` is (the coercion of) a real number. -/
def AllReal {ι : Type} (x : ι → EReal) : Prop := ∀ i, ∃ r : ℝ, x i = (r : EReal)

theorem AllReal.add {ι : Type} {x y : ι → EReal} (hx : AllReal x) (hy : AllReal y) : AllReal (fun i => x i + y i) := fun i => by
  obtain ⟨a, ha⟩ := hx i; obtain ⟨b, hb⟩ := hy i
  exact ⟨a + b, by show x i + y i = _; rw [ha, hb, EReal.coe_add]⟩

theorem AllReal.mul {ι : Type} {x y : ι → EReal} (hx : AllReal x) (hy : AllReal y) : AllReal (fun i => x i * y i) := fun i => by
  obtain ⟨a, ha⟩ := hx i; obtain ⟨b, hb⟩ := hy i
  exact ⟨a * b, by show x i * y i = _; rw [ha, hb, EReal.coe_mul]⟩

/-- A finite sum of coerced reals is the coerced sum. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real entries is real. -/
theorem exists_real_sum {κ : Type} (s : Finset κ) (f : κ → EReal) (h : ∀ k ∈ s, ∃ r : ℝ, f k = (r : EReal)) :
    ∃ r : ℝ, ∑ k ∈ s, f k = (r : EReal) := by
  classical
  choose! g hg using h
  exact ⟨∑ k ∈ s, g k, by rw [coe_sum]; exact Finset.sum_congr rfl hg⟩

end LibReal
-- ==== Proof.RefForm.lean ====
/-
  The layer with the normalisation applied edge by edge, and why it is the layer of the specification.

  The edge-by-edge form weighs the message of sender `i` to receiver `j` by `dinv i · dinv j · m i j`, where `m` is
  the mask of the adjacency (one where there is an edge, zero where there is none), adds the self loop with weight
  `dinv j · dinv j · 1`, and computes `dinv` guardedly: zero where the degree is not positive, else one over the
  square root of the degree, the degree first raised to a tiny positive floor. With adjacency words that are zero or
  one the mask is the adjacency itself, every degree is a real number at least one (so the guard and the floor do
  nothing), and with real features and weights every factor is real: the two forms are then one real number, by
  distributivity, plus the same bias.
-/
import Mathlib.Tactic.Ring
import Mathlib.Tactic.Linarith
import Mathlib.Tactic.NormNum
import Mathlib.Tactic.Choose
import Mathlib.Algebra.Order.BigOperators.Group.Finset
import Mathlib.Algebra.BigOperators.Ring.Finset
import Idealize.ShloMosaic.PureOps.Ideal
import Idealize.ShloMosaic.Lib.ValueIdx
import proofs.«117760_g41240275976349_cont_sun_c4_136_3_alg».proof.Proof.Spec
import proofs.«117760_g41240275976349_cont_sun_c4_136_3_alg».proof.Proof.LibReal

noncomputable section

open scoped BigOperators

namespace Cert.GraphConv

open Idealize.ShloMosaic Idealize.ShloMosaic.ValueIdx

/-! ## The edge-by-edge form -/

/-- The mask of an adjacency word: one if the word is not zero, zero if it is. -/
def msk (Cn : SC.Idx → BitVec 32) (s : Fin 2) (i j : Fin 1024) : EReal :=
  (((Cn (ix3 s i j) != 0#32).toNat : ℝ) : EReal)

/-- The degree of node `j` as the edge-by-edge form accumulates it: from zero, the senders and then the self loop. -/
def degR (mk : Fin 2 → Fin 1024 → Fin 1024 → EReal) (s : Fin 2) (j : Fin 1024) : EReal :=
  0 + ((∑ i : Fin 1024, mk s i j) + 1)

/-- The guarded normalisation: zero where the degree is not positive, else one over the square root of the degree
    raised to the floor `0x2B8CBCCC` (about `10⁻¹²`). -/
def dinvR (mk : Fin 2 → Fin 1024 → Fin 1024 → EReal) (s : Fin 2) (j : Fin 1024) : EReal :=
  if degR mk s j > 0 then Ideal.rsqrt (max (degR mk s j) (Ideal.ofBits .f32 0x2B8CBCCC#32)) else 0

/-- The layer, edge by edge: the messages of the senders, the self loop, the bias. -/
def refOut (X : SX.Idx → EReal) (W : SW.Idx → EReal) (Bv : SB.Idx → EReal)
    (mk : Fin 2 → Fin 1024 → Fin 1024 → EReal) (s : Fin 2) (j : Fin 1024) (d : Fin 64) : EReal :=
  (0 + ((∑ i : Fin 1024, feat X W s i d * ((dinvR mk s i * dinvR mk s j) * mk s i j))
          + feat X W s j d * ((dinvR mk s j * dinvR mk s j) * 1)))
    + Bv (ix1 d)

variable (X : SX.Idx → EReal) (Cn : SC.Idx → BitVec 32) (W : SW.Idx → EReal) (Bv : SB.Idx → EReal)
variable (mk : Fin 2 → Fin 1024 → Fin 1024 → EReal)

/-! ## The adjacency, the degree and the normalisation are real -/

/-- The adjacency word as a real number. -/
def adjReal (s : Fin 2) (i j : Fin 1024) : ℝ := ((Cn (ix3 s i j)).toInt : ℝ)

theorem adj_eq_coe (s : Fin 2) (i j : Fin 1024) : adj Cn s i j = (adjReal Cn s i j : EReal) := rfl

theorem adjReal_zero_or_one (hC : ∀ i, Cn i = 0#32 ∨ Cn i = 1#32) (s : Fin 2) (i j : Fin 1024) :
    adjReal Cn s i j = 0 ∨ adjReal Cn s i j = 1 := by
  have h1 : (1#32 : BitVec 32).toInt = 1 := by decide
  have h0 : (0#32 : BitVec 32).toInt = 0 := by decide
  rcases hC (ix3 s i j) with h | h
  · left; unfold adjReal; rw [h, h0]; norm_num
  · right; unfold adjReal; rw [h, h1]; norm_num

theorem adj_zero_or_one (hC : ∀ i, Cn i = 0#32 ∨ Cn i = 1#32) (s : Fin 2) (i j : Fin 1024) :
    adj Cn s i j = 0 ∨ adj Cn s i j = 1 := by
  rcases adjReal_zero_or_one Cn hC s i j with h | h
  · left; rw [adj_eq_coe, h, EReal.coe_zero]
  · right; rw [adj_eq_coe, h, EReal.coe_one]

/-- With words that are zero or one the mask is the adjacency. -/
theorem msk_eq_adj (hC : ∀ i, Cn i = 0#32 ∨ Cn i = 1#32) (s : Fin 2) (i j : Fin 1024) :
    msk Cn s i j = adj Cn s i j := by
  have h1 : (1#32 : BitVec 32).toInt = 1 := by decide
  have h0 : (0#32 : BitVec 32).toInt = 0 := by decide
  have b1 : ((1#32 : BitVec 32) != 0#32) = true := by decide
  have b0 : ((0#32 : BitVec 32) != 0#32) = false := by decide
  unfold msk adj
  rcases hC (ix3 s i j) with h | h
  · rw [h, h0, b0]; norm_num
  · rw [h, h1, b1]; norm_num

/-- The degree as a real number. -/
def degReal (s : Fin 2) (j : Fin 1024) : ℝ := 1 + ∑ i : Fin 1024, adjReal Cn s i j

theorem deg_eq_coe (s : Fin 2) (j : Fin 1024) : deg Cn s j = (degReal Cn s j : EReal) := by
  unfold deg degReal
  rw [EReal.coe_add, LibReal.coe_sum, EReal.coe_one]
  rfl

theorem one_le_degReal (hC : ∀ i, Cn i = 0#32 ∨ Cn i = 1#32) (s : Fin 2) (j : Fin 1024) :
    1 ≤ degReal Cn s j := by
  have h : 0 ≤ ∑ i : Fin 1024, adjReal Cn s i j :=
    Finset.sum_nonneg fun i _ => by
      rcases adjReal_zero_or_one Cn hC s i j with h | h <;> rw [h] <;> norm_num
  unfold degReal
  linarith

theorem deg_real (hC : ∀ i, Cn i = 0#32 ∨ Cn i = 1#32) (s : Fin 2) (j : Fin 1024) :
    ∃ r : ℝ, 1 ≤ r ∧ deg Cn s j = (r : EReal) :=
  ⟨degReal Cn s j, one_le_degReal Cn hC s j, deg_eq_coe Cn s j⟩

/-- One over the square root of the degree, as a real number. -/
def dinvReal (s : Fin 2) (j : Fin 1024) : ℝ := (Real.sqrt (degReal Cn s j))⁻¹

theorem dinv_eq_coe (hC : ∀ i, Cn i = 0#32 ∨ Cn i = 1#32) (s : Fin 2) (j : Fin 1024) :
    dinv Cn s j = (dinvReal Cn s j : EReal) := by
  have h1 := one_le_degReal Cn hC s j
  have hn : ¬ degReal Cn s j < 0 := not_lt.mpr (by linarith)
  have hz : ¬ degReal Cn s j = 0 := ne_of_gt (by linarith)
  unfold dinv
  rw [deg_eq_coe, Ideal.rsqrt_coe, if_neg hn, if_neg hz]
  rfl

theorem dinv_real (hC : ∀ i, Cn i = 0#32 ∨ Cn i = 1#32) (s : Fin 2) (j : Fin 1024) :
    ∃ r : ℝ, dinv Cn s j = (r : EReal) :=
  ⟨dinvReal Cn s j, dinv_eq_coe Cn hC s j⟩

/-! ## The guard and the floor do nothing -/

/-- The floor `0x2B8CBCCC` is `9223372 · 2⁻⁶³`. -/
theorem eps_eq : Ideal.ofBits .f32 0x2B8CBCCC#32 = (((9223372 : ℝ) * (2 : ℝ) ^ (-63 : ℤ) : ℝ) : EReal) := by
  simp [Ideal.ofBits, Ideal.ieee, -EReal.coe_mul]

theorem eps_le_one : Ideal.ofBits .f32 0x2B8CBCCC#32 ≤ (1 : EReal) := by
  rw [eps_eq, ← EReal.coe_one, EReal.coe_le_coe_iff]
  norm_num

theorem degR_eq (hmk : ∀ s i j, mk s i j = adj Cn s i j) (s : Fin 2) (j : Fin 1024) :
    degR mk s j = deg Cn s j := by
  unfold degR deg
  simp only [hmk]
  rw [zero_add, add_comm]

theorem dinvR_eq (hC : ∀ i, Cn i = 0#32 ∨ Cn i = 1#32) (hmk : ∀ s i j, mk s i j = adj Cn s i j)
    (s : Fin 2) (j : Fin 1024) : dinvR mk s j = dinv Cn s j := by
  have h1 := one_le_degReal Cn hC s j
  have hpos : deg Cn s j > 0 := by
    rw [deg_eq_coe]
    exact_mod_cast (by linarith : (0 : ℝ) < degReal Cn s j)
  have hone : (1 : EReal) ≤ deg Cn s j := by
    rw [deg_eq_coe]
    exact_mod_cast h1
  unfold dinvR
  rw [degR_eq Cn mk hmk, if_pos hpos, max_eq_left (le_trans eps_le_one hone)]
  rfl

/-! ## The products are real, and the two forms agree -/

theorem feat_real (hX : ∀ i, ∃ r : ℝ, X i = (r : EReal)) (hW : ∀ i, ∃ r : ℝ, W i = (r : EReal))
    (s : Fin 2) (i : Fin 1024) (d : Fin 64) : ∃ r : ℝ, feat X W s i d = (r : EReal) := by
  unfold feat
  apply LibReal.exists_real_sum
  intro k _
  obtain ⟨a, ha⟩ := hX (ix3 s i k)
  obtain ⟨b, hb⟩ := hW (ix2 k d)
  exact ⟨a * b, by rw [ha, hb, EReal.coe_mul]⟩

/-- Distributivity, in the reals: the normalisation of the receiver moves inside the sum over the senders. -/
theorem real_law (F D A : Fin 1024 → ℝ) (j : Fin 1024) :
    0 + ((∑ i : Fin 1024, F i * ((D i * D j) * A i)) + F j * ((D j * D j) * 1))
      = D j * ((∑ i : Fin 1024, A i * (F i * D i)) + F j * D j) := by
  rw [zero_add, mul_add, Finset.mul_sum]
  congr 1
  · exact Finset.sum_congr rfl fun i _ => by ring
  · ring

/-- The same between extended reals that are real. -/
theorem ereal_law (F D A : Fin 1024 → ℝ) (j : Fin 1024) :
    (0 : EReal) + ((∑ i : Fin 1024, (F i : EReal) * (((D i : EReal) * (D j : EReal)) * (A i : EReal)))
        + (F j : EReal) * (((D j : EReal) * (D j : EReal)) * 1))
      = (D j : EReal) * ((∑ i : Fin 1024, (A i : EReal) * ((F i : EReal) * (D i : EReal)))
        + (F j : EReal) * (D j : EReal)) := by
  have h := congrArg (fun r : ℝ => (r : EReal)) (real_law F D A j)
  simp only [EReal.coe_add, EReal.coe_mul, LibReal.coe_sum, EReal.coe_zero, EReal.coe_one] at h
  exact h

theorem refOut_eq_out (hX : ∀ i, ∃ r : ℝ, X i = (r : EReal)) (hW : ∀ i, ∃ r : ℝ, W i = (r : EReal))
    (hC : ∀ i, Cn i = 0#32 ∨ Cn i = 1#32) (hmk : ∀ s i j, mk s i j = adj Cn s i j)
    (s : Fin 2) (j : Fin 1024) (d : Fin 64) : refOut X W Bv mk s j d = out X Cn W Bv s j d := by
  choose F hF using fun i => feat_real X W hX hW s i d
  unfold refOut out scaled
  simp only [dinvR_eq Cn mk hC hmk, hmk, hF, dinv_eq_coe Cn hC, adj_eq_coe]
  exact congrArg (fun t => t + Bv (ix1 d))
    (ereal_law F (fun i => dinvReal Cn s i) (fun i => adjReal Cn s i j) j)

end Cert.GraphConv

end
-- ==== Proof.MaskForm.lean ====
/-
  Two printed forms read as the forms of the edge-by-edge layer.

  The mask of an adjacency word is computed as the comparison "the word is not zero", a one-bit word, read unsigned
  as a number: for a word that is 0 or 1 that number is the word itself. The guarded normalisation is computed as a
  choice on the comparison "the degree is greater than zero": the choice takes its first branch exactly where the
  degree is positive.
-/
import proofs.«117760_g41240275976349_cont_sun_c4_136_3_alg».proof.Proof.RefForm

noncomputable section

namespace Cert.GraphConv

open Idealize.ShloMosaic Idealize.ShloMosaic.ValueIdx

/-- For a word that is 0 or 1, the comparison "not equal to zero" read unsigned is the word read signed. -/
theorem cmpi_ne_zero_toNat (c : BitVec 32) (h : c = 0#32 ∨ c = 1#32) :
    (((IntOp.cmpi .ne c 0#32).toNat : ℝ) : EReal) = ((c.toInt : ℝ) : EReal) := by
  have n0 : (IntOp.cmpi .ne (0#32 : BitVec 32) 0#32).toNat = 0 := by decide
  have n1 : (IntOp.cmpi .ne (1#32 : BitVec 32) 0#32).toNat = 1 := by decide
  have h0 : (0#32 : BitVec 32).toInt = 0 := by decide
  have h1 : (1#32 : BitVec 32).toInt = 1 := by decide
  rcases h with h | h
  · rw [h, n0, h0]; norm_num
  · rw [h, n1, h1]; norm_num

/-- The mask as a comparison word read unsigned. -/
def mskW (Cn : SC.Idx → BitVec 32) (s : Fin 2) (i j : Fin 1024) : EReal :=
  (((IntOp.cmpi .ne (Cn (ix3 s i j)) 0#32).toNat : ℝ) : EReal)

theorem mskW_eq_adj (Cn : SC.Idx → BitVec 32) (hC : ∀ i, Cn i = 0#32 ∨ Cn i = 1#32) (s : Fin 2) (i j : Fin 1024) :
    mskW Cn s i j = adj Cn s i j :=
  cmpi_ne_zero_toNat _ (hC _)

/-- A choice on the comparison "greater than zero" is the choice on positivity. -/
theorem select_gt_zero (x a b : EReal) :
    Scalar.select (Ideal.cmp .ogt x 0) a b = if x > 0 then a else b := by
  by_cases h : (0 : EReal) < x
  · simp [Scalar.select, Ideal.cmp, h]
  · simp [Scalar.select, Ideal.cmp, h]

end Cert.GraphConv

end
-- ==== Proof.LibFiniteEntries.lean ====
/-
  A finiteness test read back, for an array of any shape.

  A precondition "every entry of v is finite" is computed as  all(|v| < +∞):  the array of comparisons
  |v i| < +∞,  with +∞ a rank-0 f32 constant broadcast to v's shape, reduced by `and` over every axis into a
  single result, and the claim is that this result is 1.  Read backwards:
    • a reduction by `and` into one result that is 1 met a 1 at every index of its operand;
    • the bound's pattern (exponent bits all ones, fraction zero) denotes +∞;
    • an extended real whose absolute value  max x (−x)  is strictly below +∞ is a real number.
  Hence every entry of v is a real number.  Stated over an arbitrary shape and an arbitrary initial value of
  the reduction; imports the library only.
-/
import Idealize.ShloMosaic.PureOps
import Idealize.ShloMosaic.PureOps.Ideal
import Idealize.ShloMosaic.PureOps.Ideal.Laws
import Idealize.ShloMosaic.Lib.ReduceAll

noncomputable section

namespace Cert.LibFiniteEntries

open Idealize.ShloMosaic

/-- The f32 pattern with all exponent bits set and a zero fraction denotes +∞. -/
theorem top_f32 : Ideal.ofBits .f32 0x7F800000#32 = ⊤ := by
  simp [Ideal.ofBits, Ideal.ieee]

/-- An extended real whose absolute value  max x (−x)  is strictly below +∞ is a real number:
    at −∞ and at +∞ the absolute value is +∞, which is not below +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The rank-0 shape has exactly one index. -/
instance subsingleton_idx0 : Subsingleton (⟨0, ![]⟩ : Shape).Idx := ⟨fun _ _ => funext fun d => d.elim0⟩

/-- ONE TEST, ANY SHAPE: if  all(|v| < +∞)  — the comparisons against the broadcast +∞ reduced by `and` into a
    result with a single index — came out 1, then every entry of  v  is a real number. -/
theorem real_of_all {s t u : Shape} {axes : List (Fin s.rank)} [Subsingleton t.Idx]
    (v : FVec Ideal s .f32)
    (hb : (⟨0, ![]⟩ : Shape).BroadcastsInDim s (![] : Fin 0 → Fin s.rank))
    (init : u.Idx → BitVec 1) (hr : s.ReducesTo axes t) (hu : 0 < u.numel) (j : t.Idx)
    (h : Host.reduce IntOp.andi
          (cmpf .olt (Host.absf v) (broadcastInDim s ![] hb (constant (F := Ideal) ⟨0, ![]⟩ .f32 0x7F800000#32)))
          init hr hu j = 1#1)
    (i : s.Idx) : ∃ r : ℝ, v i = (r : EReal) := by
  have e := Host.reduce_andi_all _ _ _ _ j h i
  -- the comparison at index i, every array operation read at that index
  have e' : Ideal.cmp .olt (max (v i) (-(v i))) (Ideal.ofBits .f32 0x7F800000#32) = 1#1 := e
  rw [top_f32] at e'
  exact real_of_abs_lt_top (v i) e'

end Cert.LibFiniteEntries

end
-- ==== Proof.PreFacts.lean ====
/-
  The precondition read back.

  The precondition is computed as the conjunction of four tests, each reduced by `and` over every axis into a single
  result:  all(|x| < +∞),  all(|w| < +∞),  all(|b| < +∞)  and  all((c = 0) or (c = 1)).  If the conjunction is 1 then each
  test is 1; a reduction by `and` that is 1 met a 1 at every index; an extended real whose absolute value is below +∞
  is a real number; and a comparison for equality that is 1 says its two words are equal. Hence every entry of the
  features, the weights and the bias is a real number, and every adjacency word is 0 or 1.
-/
import Idealize.ShloMosaic.Lib.ReduceAll
import proofs.«117760_g41240275976349_cont_sun_c4_136_3_alg».proof.Pre_finite_inputs
import proofs.«117760_g41240275976349_cont_sun_c4_136_3_alg».proof.Proof.Spec
import proofs.«117760_g41240275976349_cont_sun_c4_136_3_alg».proof.Proof.LibFiniteEntries

noncomputable section

namespace Cert.GraphConv.PreFacts

open Idealize.ShloMosaic Idealize.ShloMosaic.ValueIdx

/-- An adjacency word that passes the test  (c = 0) or (c = 1)  is 0 or 1. -/
theorem word_zero_or_one (c : BitVec 32)
    (h : IntOp.ori (IntOp.cmpi .eq c 0#32) (IntOp.cmpi .eq c 1#32) = 1#1) : c = 0#32 ∨ c = 1#32 := by
  rw [IntOp.ori_eq_one, IntOp.cmpi_eq, IntOp.cmpi_eq] at h
  exact h

theorem of_pre [hPre_finite_inputs : Cert.Pre_finite_inputs.Facts]
    (X : SX.Idx → EReal) (Cn : SC.Idx → BitVec 32) (W : SW.Idx → EReal) (Bv : SB.Idx → EReal)
    (h : Cert.Pre_finite_inputs.fn (F := Ideal) X Cn W Bv = fun _ => 1#1) :
    (∀ i, ∃ r : ℝ, X i = (r : EReal)) ∧ (∀ i, Cn i = 0#32 ∨ Cn i = 1#32)
      ∧ (∀ i, ∃ r : ℝ, W i = (r : EReal)) ∧ (∀ i, ∃ r : ℝ, Bv i = (r : EReal)) := by
  have e := congrFun h ix0
  dsimp only [Cert.Pre_finite_inputs.fn, Cert.Pre_finite_inputs.fn_part1] at e
  -- the conjunction of the four tests, at the one index of the result
  have e' : IntOp.andi (IntOp.andi (IntOp.andi _ _) _) _ = 1#1 := e
  rw [IntOp.andi_eq_one, IntOp.andi_eq_one, IntOp.andi_eq_one] at e'
  obtain ⟨⟨⟨hx, hw⟩, hb⟩, hc⟩ := e'
  refine ⟨fun i => ?_, fun i => ?_, fun i => ?_, fun i => ?_⟩
  · exact Cert.LibFiniteEntries.real_of_all X _ _ _ _ ix0 hx i
  · exact word_zero_or_one (Cn i) (Host.reduce_andi_all _ _ _ _ ix0 hc i)
  · exact Cert.LibFiniteEntries.real_of_all W _ _ _ _ ix0 hw i
  · exact Cert.LibFiniteEntries.real_of_all Bv _ _ _ _ ix0 hb i

end Cert.GraphConv.PreFacts

end
-- ==== Proof.RefValue.lean ====
/-
  The reference's result is the layer.

  Row `s · 1024 + j` receives the 1024 candidate pairs `(s, i, j)`, `i` a sender of sample `s`, and its own self loop, and
  nothing else: a sum over the entries received by the row is the sum over the senders plus the loop's term. With the
  weight of the pair `(s, i, j)` written `mk s i j` and the loop's weight one, the degree, `dinv` and the result row of
  the reference are the edge-by-edge forms `degR`, `dinvR`, `refOut`; under the precondition — every feature and weight a real
  number, every adjacency word 0 or 1 — the weight is the adjacency entry and `refOut` is the layer `out`.
-/
import proofs.«117760_g41240275976349_cont_sun_c4_136_3_alg».proof.Proof.RefStages
import proofs.«117760_g41240275976349_cont_sun_c4_136_3_alg».proof.Proof.RefScatter
import proofs.«117760_g41240275976349_cont_sun_c4_136_3_alg».proof.Proof.EdgeArrays
import proofs.«117760_g41240275976349_cont_sun_c4_136_3_alg».proof.Proof.EdgeSum
import proofs.«117760_g41240275976349_cont_sun_c4_136_3_alg».proof.Proof.RefForm
import proofs.«117760_g41240275976349_cont_sun_c4_136_3_alg».proof.Proof.MaskForm
import proofs.«117760_g41240275976349_cont_sun_c4_136_3_alg».proof.Proof.PreFacts

noncomputable section

open scoped BigOperators

namespace Cert.ReferenceIdeal.RefValue

open Cert.ReferenceIdeal Cert.ReferenceIdeal.Gen Cert.ReferenceIdeal.ReadP Cert.ReferenceIdeal.Stages
  Cert.ReferenceIdeal.EdgeArrays Idealize.ShloMosaic Idealize.ShloMosaic.TcCoe Idealize.ShloMosaic.ValueIdx Cert.GraphConv

/-! ## The five index columns -/

/-- The receiver of the pair `(s, i, j)` is row `s · 1024 + j`, its sender row `s · 1024 + i`. -/
abbrev receiver : Fin 2 → Fin 1024 → Fin 1024 → Fin 2048 := fun s _ j => rowOf s j
abbrev sender : Fin 2 → Fin 1024 → Fin 1024 → Fin 2048 := fun s i _ => rowOf s i

theorem names51 : Names (val_main_v51 (F := Ideal)) receiver := ⟨fun s i j => dstcol51_edge s i j, fun r => dstcol51_loop r⟩
theorem names71 : Names (val_main_v71 (F := Ideal)) receiver := ⟨fun s i j => dstcol71_edge s i j, fun r => dstcol71_loop r⟩
theorem names91 : Names (val_main_v91 (F := Ideal)) receiver := ⟨fun s i j => dstcol91_edge s i j, fun r => dstcol91_loop r⟩
theorem names64 : Names (val_main_v64 (F := Ideal)) sender := ⟨fun s i j => srccol64_edge s i j, fun r => srccol64_loop r⟩
theorem names80 : Names (val_main_v80 (F := Ideal)) sender := ⟨fun s i j => srccol80_edge s i j, fun r => srccol80_loop r⟩

/-! ## What a row receives -/

theorem rowOf_inj {s s' : Fin 2} {j j' : Fin 1024} (h : rowOf s' j' = rowOf s j) : s' = s ∧ j' = j :=
  ⟨by rw [← sampleOf_rowOf s' j', h, sampleOf_rowOf], by rw [← nodeOf_rowOf s' j', h, nodeOf_rowOf]⟩

/-- A SUM OVER THE ENTRIES RECEIVED BY ROW `s · 1024 + j` is the sum over the senders `i` of the pair `(s, i, j)`'s term plus
    the term of the row's self loop. -/
theorem sum_received {M : Type*} [AddCommMonoid M] {col : IVec S2099200x1 32} (h : Names col receiver)
    (f : Fin 2099200 → M) (s : Fin 2) (j : Fin 1024) :
    ∑ e ∈ Finset.univ.filter (fun e : Fin 2099200 => landRow 2048 (col (ix2 e (0 : Fin 1))) = some (rowOf s j)), f e
      = (∑ i : Fin 1024, f (edgeIx s i j)) + f (loopIx (rowOf s j)) := by
  refine sum_edge_list f (fun e : Fin 2099200 => landRow 2048 (col (ix2 e (0 : Fin 1))) = some (rowOf s j)) s j
    (fun s' i j' => ?_) (fun r => ?_)
  · show landRow 2048 (col (ix2 (edgeIx s' i j') (0 : Fin 1))) = some (rowOf s j) ↔ _
    rw [h.land_edge]
    exact ⟨fun e => rowOf_inj (Option.some.inj e), fun ⟨e1, e2⟩ => by rw [e1, e2]⟩
  · show landRow 2048 (col (ix2 (loopIx r) (0 : Fin 1))) = some (rowOf s j) ↔ _
    rw [h.land_loop]
    exact ⟨fun e => Option.some.inj e, fun e => by rw [e]⟩

/-! ## The reference's stages as the edge-by-edge forms -/

variable (X : (⟨S2x1024x64, .f32⟩ : BufTy).Contents (Elt Ideal)) (Cn : (⟨S2x1024x1024, .i32⟩ : BufTy).Contents (Elt Ideal))
  (W : (⟨S64x64, .f32⟩ : BufTy).Contents (Elt Ideal)) (Bv : (⟨S64, .f32⟩ : BufTy).Contents (Elt Ideal))

/-- The weight of the candidate pair `(s, i, j)` as the reference holds it. -/
def weight (s : Fin 2) (i j : Fin 1024) : EReal := val_main_v44 (F := Ideal) Cn (ix1 (edgeIx s i j))

/-- The degree of row `s · 1024 + j`. -/
theorem degree_eq (s : Fin 2) (j : Fin 1024) :
    val_main_v52 (F := Ideal) Cn (ix1 (rowOf s j)) = degR (weight Cn) s j :=
  (degree_at Cn (rowOf s j)).trans
    (congrArg (fun t : EReal => 0 + t)
      ((sum_received names51 (fun e => val_main_v44 (F := Ideal) Cn (ix1 e)) s j).trans
        (congrArg (fun t : EReal => (∑ i : Fin 1024, weight Cn s i j) + t) (weight_loop Cn (rowOf s j)))))

/-- `dinv` of row `s · 1024 + j`. -/
theorem dinv_eq (s : Fin 2) (j : Fin 1024) :
    val_main_v58 (F := Ideal) Cn (ix1 (rowOf s j)) = dinvR (weight Cn) s j := by
  rw [dinv_at, degree_eq]
  rfl

/-- The message of the candidate pair `(s, i, j)`. -/
theorem message_edge (s : Fin 2) (i j : Fin 1024) (d : Fin 64) :
    val_main_v84 (F := Ideal) X Cn W (ix2 (edgeIx s i j) d)
      = feat X W s i d * ((dinvR (weight Cn) s i * dinvR (weight Cn) s j) * weight Cn s i j) := by
  rw [message_at, feat_src_at, names80.clamp_edge, feat_at, sampleOf_rowOf, nodeOf_rowOf,
    dinv_src_at, names64.clamp_edge, dinv_eq, dinv_dst_at, names71.clamp_edge, dinv_eq]
  rfl

/-- The message of the self loop of row `s · 1024 + j`. -/
theorem message_loop (s : Fin 2) (j : Fin 1024) (d : Fin 64) :
    val_main_v84 (F := Ideal) X Cn W (ix2 (loopIx (rowOf s j)) d)
      = feat X W s j d * ((dinvR (weight Cn) s j * dinvR (weight Cn) s j) * 1) := by
  rw [message_at, feat_src_at, names80.clamp_loop, feat_at, sampleOf_rowOf, nodeOf_rowOf,
    dinv_src_at, names64.clamp_loop, dinv_eq, dinv_dst_at, names71.clamp_loop, dinv_eq, weight_loop]

/-- THE REFERENCE'S RESULT at row `s · 1024 + j`, feature `d`, is the edge-by-edge form. -/
theorem result_eq_refOut (s : Fin 2) (j : Fin 1024) (d : Fin 64) :
    val_main_v95 (F := Ideal) X Cn W Bv (ix2 (rowOf s j) d) = refOut X W Bv (weight Cn) s j d :=
  (result_at_row X Cn W Bv (rowOf s j) d).trans
    (congrArg (fun t : EReal => (0 + t) + Bv (ix1 d))
      ((sum_received names91 (fun e => val_main_v84 (F := Ideal) X Cn W (ix2 e d)) s j).trans
        (congrArg₂ (fun a b : EReal => a + b)
          (Finset.sum_congr rfl fun i _ => message_edge X Cn W s i j d) (message_loop X Cn W s j d))))

/-- Under the precondition the weight of a pair is its adjacency entry. -/
theorem weight_eq_adj (hC : ∀ i, Cn i = 0#32 ∨ Cn i = 1#32) (s : Fin 2) (i j : Fin 1024) :
    weight Cn s i j = adj Cn s i j :=
  (weight_edge Cn s i j).trans (mskW_eq_adj Cn hC s i j)

/-- THE REFERENCE'S RESULT IS THE LAYER, under the precondition's facts. -/
theorem result_eq (hX : ∀ i, ∃ r : ℝ, X i = (r : EReal)) (hC : ∀ i, Cn i = 0#32 ∨ Cn i = 1#32)
    (hW : ∀ i, ∃ r : ℝ, W i = (r : EReal)) :
    val_main_v95 (F := Ideal) X Cn W Bv = result X Cn W Bv := by
  funext idx
  obtain ⟨r, d, rfl⟩ : ∃ (r : Fin 2048) (d : Fin 64), idx = ix2 r d := ⟨idx 0, idx 1, eq_ix2 idx⟩
  rw [← rowOf_sampleOf_nodeOf r, result_eq_refOut, result_at]
  exact refOut_eq_out X Cn W Bv (weight Cn) hX hW hC (weight_eq_adj Cn hC) _ _ d

end Cert.ReferenceIdeal.RefValue

end
-- ==== Proof.LibStraightLine.lean ====
/-
  A straight line of operations in single-assignment form, read one operation at a time.

  A line of operations rewrites a valuation of the buffers, operation by operation. When every buffer is written by at most
  one operation of the line, and an operation's operands are written before it, the valuation after the WHOLE line already
  satisfies each operation's equation: the buffer the k-th operation writes holds that operation's function of what its
  operand buffers hold — all read after the whole line, because nothing later touches either. So the value of the last
  buffer follows from the operations' equations one by one, sharing every intermediate buffer, and the composed term of the
  whole line is never formed.

  The buffers the operations write are listed once, in order (`WritesAre`); "no operation from position k on writes r" is
  then the absence of r from the list's tail, a question about references alone.
  General: nothing here depends on a particular program.
-/
import Idealize.ShloMosaic.Lib.StableHlo.Run

namespace Cert.LibStraightLine

open Idealize.ShloMosaic Idealize.ShloMosaic.StableHlo

variable {τ : Topo} {sig : RefSig} {Val : EltTy → Type}

/-- Two lines one after the other. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A buffer that no operation from position k on writes holds, after the line, what it held after the first k operations. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- A buffer that no operation past position k writes holds, after the line, what operation k left in it. -/
theorem after_eq_result (ops : List (HloOp τ sig Val)) (V : Valuation τ sig Val) (k : Nat) (hk : k < ops.length)
    (b : DevRef τ sig) (h : ∀ op ∈ ops.drop (k + 1), b ∉ op.writes) :
    after ops V b = (ops[k]).result (after (ops.take k) V) b := by
  rw [after_eq_take ops V (k + 1) b h, List.take_succ_eq_append_getElem hk, after_append, after_cons, after_nil]

/-- The buffers the operations write are, in order, the references W: each operation writes exactly one. -/
def WritesAre (ops : List (HloOp τ sig Val)) (W : List (Ref sig .tc)) : Prop :=
  ops.map (fun op => op.writes) = W.map fun r => ({(Proc.devRef .tc r : DevRef τ sig)} : Finset (DevRef τ sig))

/-- A reference absent from the list's tail is written by no operation from that position on. -/
theorem not_written {ops : List (HloOp τ sig Val)} {W : List (Ref sig .tc)} (hW : WritesAre ops W) (k : Nat)
    {y : Ref sig .tc} (hy : y ∉ W.drop k) : ∀ op ∈ ops.drop k, (Proc.devRef .tc y : DevRef τ sig) ∉ op.writes := by
  intro op hop hmem
  have h1 : op.writes ∈ (ops.drop k).map (fun op => op.writes) := List.mem_map.mpr ⟨op, hop, rfl⟩
  unfold WritesAre at hW
  rw [List.map_drop, hW, ← List.map_drop] at h1
  obtain ⟨r, hr, he⟩ := List.mem_map.mp h1
  rw [← he, Finset.mem_singleton] at hmem
  exact hy (Proc.devRef_injective _ hmem ▸ hr)

variable {ops : List (HloOp τ sig Val)} {V : Valuation τ sig Val}

/-- Operation k defines its result buffer. -/
theorem nullary_at (k : Nat) (hk : k < ops.length) {y : Ref sig .tc} {v : y.ty.Contents Val} {hy}
    (hop : ops[k] = nullary y v hy)
    (hy' : ∀ op ∈ ops.drop (k + 1), (Proc.devRef .tc y : DevRef τ sig) ∉ op.writes) :
    after ops V (Proc.devRef .tc y) = v := by
  rw [after_eq_result ops V k hk _ hy', hop, nullary_result]

/-- Operation k applies its function to its operand buffer as the whole line leaves it. -/
theorem unary_at (k : Nat) (hk : k < ops.length) {x y : Ref sig .tc} {f : x.ty.Contents Val → y.ty.Contents Val} {hx hy}
    (hop : ops[k] = unary x y f hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = f (after ops V (Proc.devRef .tc x)) := by
  rw [after_eq_result ops V k hk _ hy', hop, unary_result, ← after_eq_take ops V k _ hx']

theorem binary_at (k : Nat) (hk : k < ops.length) {a b y : Ref sig .tc}
    {f : a.ty.Contents Val → b.ty.Contents Val → y.ty.Contents Val} {ha hb hy}
    (hop : ops[k] = binary a b y f ha hb hy)
    (hy' : ∀ op ∈ ops.drop (k + 1), (Proc.devRef .tc y : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y) = f (after ops V (Proc.devRef .tc a)) (after ops V (Proc.devRef .tc b)) := by
  rw [after_eq_result ops V k hk _ hy', hop, binary_result, ← after_eq_take ops V k _ ha', ← after_eq_take ops V k _ hb']

theorem ternary_at (k : Nat) (hk : k < ops.length) {c a b y : Ref sig .tc}
    {f : c.ty.Contents Val → a.ty.Contents Val → b.ty.Contents Val → y.ty.Contents Val} {hc ha hb hy}
    (hop : ops[k] = ternary c a b y f hc ha hb hy)
    (hy' : ∀ op ∈ ops.drop (k + 1), (Proc.devRef .tc y : DevRef τ sig) ∉ op.writes)
    (hc' : ∀ op ∈ ops.drop k, (Proc.devRef .tc c : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y)
      = f (after ops V (Proc.devRef .tc c)) (after ops V (Proc.devRef .tc a)) (after ops V (Proc.devRef .tc b)) := by
  rw [after_eq_result ops V k hk _ hy', hop, ternary_result, ← after_eq_take ops V k _ hc', ← after_eq_take ops V k _ ha',
    ← after_eq_take ops V k _ hb']

theorem reshape_at (k : Nat) (hk : k < ops.length) {x y : Ref sig .tc} {he : x.ty.elt = y.ty.elt}
    {hn : x.ty.shape.ShapeCasts y.ty.shape} {hx hy}
    (hop : ops[k] = reshape x y he hn hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = fun i => he ▸ shapeCast y.ty.shape (after ops V (Proc.devRef .tc x)) hn i := by
  rw [after_eq_result ops V k hk _ hy', hop, reshape_result, ← after_eq_take ops V k _ hx']

/-- A buffer no operation writes holds its launch contents. -/
theorem untouched_at {W : List (Ref sig .tc)} (hW : WritesAre ops W) {r : Ref sig .tc} (hr : r ∉ W) :
    after ops V (Proc.devRef .tc r) = V (Proc.devRef .tc r) :=
  after_of_forall_not_mem ops V (by simpa using not_written hW 0 (by simpa using hr))

end Cert.LibStraightLine
-- ==== Proof.RunStages.lean ====
/- The reference program's straight line of 120 operations, read one operation at a time against the values of its stages.

  The line is in single-assignment form: the references it writes are listed once, in order, and each operation reads
  arguments of the program or references written before it. So, after the WHOLE line, the reference an operation writes
  holds that operation's function of what its operand references hold; taking the operations in order, each reference
  holds its stage's value as a function of the four arguments. One fact per operation, each by the same argument (the
  operation's equation, then the facts of its operands); the composed term of the whole line is never formed.
-/
import proofs.«117760_g41240275976349_cont_sun_c4_136_3_alg».proof.Proof.RunOps
import proofs.«117760_g41240275976349_cont_sun_c4_136_3_alg».proof.Proof.ReadP
import proofs.«117760_g41240275976349_cont_sun_c4_136_3_alg».proof.Proof.LibStraightLine

noncomputable section

namespace Cert.ReferenceIdeal.RunS

open Cert.ReferenceIdeal Cert.ReferenceIdeal.Gen Idealize.ShloMosaic Idealize.ShloMosaic.TcCoe Idealize.SL.Sem Idealize.ShloMosaic.StableHlo
open Cert.LibStraightLine Cert.ReferenceIdeal.ReadP

variable {F : FTy → Type} [FloatOps F]

/-- The references the 120 operations write, in order. -/
abbrev written : List (Ref sig .tc) :=
  [main_v0, main_v1, main_v2, main_v3, main_v4, main_v5, main_v6, main_c, main_v7, main_v8, main_c_0, main_v9, main_v10, main_v11, main_v12, main_v13, main_v14, main_v15, main_c_1, main_v16, main_v17, main_v18, main_c_2, main_v19, main_v20, main_c_3, main_v21, main_v22, main_v23, main_v24, main_v25, main_v26, main_v27, main_c_4, main_v28, main_v29, main_v30, main_v31, main_v32, main_v33, main_v34, main_v35, main_v36, main_v37, main_v38, main_v39, main_v40, main_v41, main_v42, main_cst, main_v43, main_v44, main_cst_5, main_v45, main_c_6, main_v46, main_v47, main_c_7, main_v48, main_v49, main_v50, main_v51, main_v52, main_cst_8, main_v53, main_v54, main_cst_9, main_v55, main_v56, main_v57, main_cst_10, main_call0_v0, main_call0_v1, main_v58, main_c_11, main_v59, main_v60, main_c_12, main_v61, main_v62, main_v63, main_v64, main_v65, main_c_13, main_v66, main_v67, main_c_14, main_v68, main_v69, main_v70, main_v71, main_v72, main_v73, main_v74, main_c_15, main_v75, main_v76, main_c_16, main_v77, main_v78, main_v79, main_v80, main_v81, main_v82, main_v83, main_v84, main_cst_17, main_v85, main_c_18, main_v86, main_v87, main_c_19, main_v88, main_v89, main_v90, main_v91, main_v92, main_v93, main_v94, main_v95]

/-- Each operation writes exactly the reference listed at its position. -/
theorem writes_are : WritesAre (ops (F := F)) written := rfl

/-- The line has 120 operations. -/
theorem ops_length : (ops (F := F)).length = 120 := rfl

theorem lt_length (k : Nat) (h : k < 120) : k < (ops (F := F)).length := by rw [ops_length]; exact h

variable (m : (ℓ : Loc nD τ sig) → Buf (Elt F) ℓ) (c : Dev nD)

/-! ## The arguments: no operation writes them -/

theorem at_main_arg0 : after ops (launchContents m c) (Proc.devRef .tc main_arg0) = m ((c.tc : Thread nD τ).loc main_arg0) :=
  untouched_at writes_are (by decide)
theorem at_main_arg1 : after ops (launchContents m c) (Proc.devRef .tc main_arg1) = m ((c.tc : Thread nD τ).loc main_arg1) :=
  untouched_at writes_are (by decide)
theorem at_main_arg2 : after ops (launchContents m c) (Proc.devRef .tc main_arg2) = m ((c.tc : Thread nD τ).loc main_arg2) :=
  untouched_at writes_are (by decide)
theorem at_main_arg3 : after ops (launchContents m c) (Proc.devRef .tc main_arg3) = m ((c.tc : Thread nD τ).loc main_arg3) :=
  untouched_at writes_are (by decide)

/-! ## The operations, in order -/

theorem at_main_v0 : after ops (launchContents m c) (Proc.devRef .tc main_v0) = val_main_v0 (F := F) := by
  rw [nullary_at (y := main_v0) 0 (lt_length 0 (by decide)) rfl (not_written writes_are 1 (by decide))]
  all_goals first | rfl | exact ⟨by decide, rfl⟩
theorem at_main_v1 : after ops (launchContents m c) (Proc.devRef .tc main_v1) = val_main_v1 (F := F) := by
  rw [unary_at (x := main_v0) (y := main_v1) 1 (lt_length 1 (by decide)) rfl (not_written writes_are 2 (by decide)) (not_written writes_are 1 (by decide)), at_main_v0 m c]
  all_goals first | rfl | exact ⟨by decide, rfl⟩
theorem at_main_v2 : after ops (launchContents m c) (Proc.devRef .tc main_v2) = val_main_v2 (F := F) := by
  rw [unary_at (x := main_v1) (y := main_v2) 2 (lt_length 2 (by decide)) rfl (not_written writes_are 3 (by decide)) (not_written writes_are 2 (by decide)), at_main_v1 m c]
  all_goals first | rfl | exact ⟨by decide, rfl⟩
theorem at_main_v3 : after ops (launchContents m c) (Proc.devRef .tc main_v3) = val_main_v3 (F := F) := by
  rw [reshape_at (x := main_v2) (y := main_v3) 3 (lt_length 3 (by decide)) rfl (not_written writes_are 4 (by decide)) (not_written writes_are 3 (by decide)), at_main_v2 m c]
  all_goals first | rfl | exact ⟨by decide, rfl⟩
theorem at_main_v4 : after ops (launchContents m c) (Proc.devRef .tc main_v4) = val_main_v4 (F := F) := by
  rw [unary_at (x := main_v0) (y := main_v4) 4 (lt_length 4 (by decide)) rfl (not_written writes_are 5 (by decide)) (not_written writes_are 4 (by decide)), at_main_v0 m c]
  all_goals first | rfl | exact ⟨by decide, rfl⟩
theorem at_main_v5 : after ops (launchContents m c) (Proc.devRef .tc main_v5) = val_main_v5 (F := F) := by
  rw [unary_at (x := main_v4) (y := main_v5) 5 (lt_length 5 (by decide)) rfl (not_written writes_are 6 (by decide)) (not_written writes_are 5 (by decide)), at_main_v4 m c]
  all_goals first | rfl | exact ⟨by decide, rfl⟩
theorem at_main_v6 : after ops (launchContents m c) (Proc.devRef .tc main_v6) = val_main_v6 (F := F) := by
  rw [reshape_at (x := main_v5) (y := main_v6) 6 (lt_length 6 (by decide)) rfl (not_written writes_are 7 (by decide)) (not_written writes_are 6 (by decide)), at_main_v5 m c]
  all_goals first | rfl | exact ⟨by decide, rfl⟩
theorem at_main_c : after ops (launchContents m c) (Proc.devRef .tc main_c) = val_main_c (F := F) := by
  rw [nullary_at (y := main_c) 7 (lt_length 7 (by decide)) rfl (not_written writes_are 8 (by decide))]
  all_goals first | rfl | exact ⟨by decide, rfl⟩
theorem at_main_v7 : after ops (launchContents m c) (Proc.devRef .tc main_v7) = val_main_v7 (F := F) := by
  rw [unary_at (x := main_c) (y := main_v7) 8 (lt_length 8 (by decide)) rfl (not_written writes_are 9 (by decide)) (not_written writes_are 8 (by decide)), at_main_c m c]
  all_goals first | rfl | exact ⟨by decide, rfl⟩
theorem at_main_v8 : after ops (launchContents m c) (Proc.devRef .tc main_v8) = val_main_v8 (F := F) := by
  rw [binary_at (a := main_v3) (b := main_v7) (y := main_v8) 9 (lt_length 9 (by decide)) rfl (not_written writes_are 10 (by decide)) (not_written writes_are 9 (by decide)) (not_written writes_are 9 (by decide)), at_main_v3 m c, at_main_v7 m c]
  all_goals first | rfl | exact ⟨by decide, rfl⟩
theorem at_main_c_0 : after ops (launchContents m c) (Proc.devRef .tc main_c_0) = val_main_c_0 (F := F) := by
  rw [nullary_at (y := main_c_0) 10 (lt_length 10 (by decide)) rfl (not_written writes_are 11 (by decide))]
  all_goals first | rfl | exact ⟨by decide, rfl⟩
theorem at_main_v9 : after ops (launchContents m c) (Proc.devRef .tc main_v9) = val_main_v9 (F := F) := by
  rw [unary_at (x := main_c_0) (y := main_v9) 11 (lt_length 11 (by decide)) rfl (not_written writes_are 12 (by decide)) (not_written writes_are 11 (by decide)), at_main_c_0 m c]
  all_goals first | rfl | exact ⟨by decide, rfl⟩
theorem at_main_v10 : after ops (launchContents m c) (Proc.devRef .tc main_v10) = val_main_v10 (F := F) := by
  rw [binary_at (a := main_v6) (b := main_v9) (y := main_v10) 12 (lt_length 12 (by decide)) rfl (not_written writes_are 13 (by decide)) (not_written writes_are 12 (by decide)) (not_written writes_are 12 (by decide)), at_main_v6 m c, at_main_v9 m c]
  all_goals first | rfl | exact ⟨by decide, rfl⟩
theorem at_main_v11 : after ops (launchContents m c) (Proc.devRef .tc main_v11) = val_main_v11 (F := F) := by
  rw [unary_at (x := main_v8) (y := main_v11) 13 (lt_length 13 (by decide)) rfl (not_written writes_are 14 (by decide)) (not_written writes_are 13 (by decide)), at_main_v8 m c]
  all_goals first | rfl | exact ⟨by decide, rfl⟩
theorem at_main_v12 : after ops (launchContents m c) (Proc.devRef .tc main_v12) = val_main_v12 (F := F) := by
  rw [unary_at (x := main_v10) (y := main_v12) 14 (lt_length 14 (by decide)) rfl (not_written writes_are 15 (by decide)) (not_written writes_are 14 (by decide)), at_main_v10 m c]
  all_goals first | rfl | exact ⟨by decide, rfl⟩
theorem at_main_v13 : after ops (launchContents m c) (Proc.devRef .tc main_v13) = val_main_v13 (F := F) := by
  rw [binary_at (a := main_v11) (b := main_v12) (y := main_v13) 15 (lt_length 15 (by decide))
      (show (ops (F := F))[15]'(lt_length 15 (by decide)) = binary main_v11 main_v12 main_v13 ((fun a b => concatenate S2x1048576 0 [⟨S1x1048576, a⟩, ⟨S1x1048576, b⟩] concatenates_S1x1048576_S1x1048576_S2x1048576_d0) : (⟨S1x1048576, .i32⟩ : BufTy).Contents (Elt F) → (⟨S1x1048576, .i32⟩ : BufTy).Contents (Elt F) → (⟨S2x1048576, .i32⟩ : BufTy).Contents (Elt F)) from rfl)
      (not_written writes_are 16 (by decide)) (not_written writes_are 15 (by decide)) (not_written writes_are 15 (by decide)), at_main_v11 m c, at_main_v12 m c]
  all_goals first | rfl | exact ⟨by decide, rfl⟩
theorem at_main_v14 : after ops (launchContents m c) (Proc.devRef .tc main_v14) = val_main_v14 (F := F) (m ((c.tc : Thread nD τ).loc main_arg1)) := by
  rw [unary_at (x := main_arg1) (y := main_v14) 16 (lt_length 16 (by decide))
      (show (ops (F := F))[16]'(lt_length 16 (by decide)) = unary main_arg1 main_v14 ((extractStridedSlice S1x1024x1024 ![0, 0, 0] · slices_S2x1024x1024_S1x1024x1024_0_0_0) : (⟨S2x1024x1024, .i32⟩ : BufTy).Contents (Elt F) → (⟨S1x1024x1024, .i32⟩ : BufTy).Contents (Elt F)) from rfl)
      (not_written writes_are 17 (by decide)) (not_written writes_are 16 (by decide)), at_main_arg1 m c]
  all_goals first | rfl | exact ⟨by decide, rfl⟩
theorem at_main_v15 : after ops (launchContents m c) (Proc.devRef .tc main_v15) = val_main_v15 (F := F) (m ((c.tc : Thread nD τ).loc main_arg1)) := by
  rw [reshape_at (x := main_v14) (y := main_v15) 17 (lt_length 17 (by decide)) rfl (not_written writes_are 18 (by decide)) (not_written writes_are 17 (by decide)), at_main_v14 m c]
  all_goals first | rfl | exact ⟨by decide, rfl⟩
theorem at_main_c_1 : after ops (launchContents m c) (Proc.devRef .tc main_c_1) = val_main_c_1 (F := F) := by
  rw [nullary_at (y := main_c_1) 18 (lt_length 18 (by decide)) rfl (not_written writes_are 19 (by decide))]
  all_goals first | rfl | exact ⟨by decide, rfl⟩
theorem at_main_v16 : after ops (launchContents m c) (Proc.devRef .tc main_v16) = val_main_v16 (F := F) := by
  rw [unary_at (x := main_c_1) (y := main_v16) 19 (lt_length 19 (by decide)) rfl (not_written writes_are 20 (by decide)) (not_written writes_are 19 (by decide)), at_main_c_1 m c]
  all_goals first | rfl | exact ⟨by decide, rfl⟩
theorem at_main_v17 : after ops (launchContents m c) (Proc.devRef .tc main_v17) = val_main_v17 (F := F) (m ((c.tc : Thread nD τ).loc main_arg1)) := by
  rw [binary_at (a := main_v15) (b := main_v16) (y := main_v17) 20 (lt_length 20 (by decide)) rfl (not_written writes_are 21 (by decide)) (not_written writes_are 20 (by decide)) (not_written writes_are 20 (by decide)), at_main_v15 m c, at_main_v16 m c]
  all_goals first | rfl | exact ⟨by decide, rfl⟩
theorem at_main_v18 : after ops (launchContents m c) (Proc.devRef .tc main_v18) = val_main_v18 (F := F) (m ((c.tc : Thread nD τ).loc main_arg1)) := by
  rw [reshape_at (x := main_v17) (y := main_v18) 21 (lt_length 21 (by decide)) rfl (not_written writes_are 22 (by decide)) (not_written writes_are 21 (by decide)), at_main_v17 m c]
  all_goals first | rfl | exact ⟨by decide, rfl⟩
theorem at_main_c_2 : after ops (launchContents m c) (Proc.devRef .tc main_c_2) = val_main_c_2 (F := F) := by
  rw [nullary_at (y := main_c_2) 22 (lt_length 22 (by decide)) rfl (not_written writes_are 23 (by decide))]
  all_goals first | rfl | exact ⟨by decide, rfl⟩
theorem at_main_v19 : after ops (launchContents m c) (Proc.devRef .tc main_v19) = val_main_v19 (F := F) := by
  rw [unary_at (x := main_c_2) (y := main_v19) 23 (lt_length 23 (by decide)) rfl (not_written writes_are 24 (by decide)) (not_written writes_are 23 (by decide)), at_main_c_2 m c]
  all_goals first | rfl | exact ⟨by decide, rfl⟩
theorem at_main_v20 : after ops (launchContents m c) (Proc.devRef .tc main_v20) = val_main_v20 (F := F) := by
  rw [binary_at (a := main_v3) (b := main_v19) (y := main_v20) 24 (lt_length 24 (by decide)) rfl (not_written writes_are 25 (by decide)) (not_written writes_are 24 (by decide)) (not_written writes_are 24 (by decide)), at_main_v3 m c, at_main_v19 m c]
  all_goals first | rfl | exact ⟨by decide, rfl⟩
theorem at_main_c_3 : after ops (launchContents m c) (Proc.devRef .tc main_c_3) = val_main_c_3 (F := F) := by
  rw [nullary_at (y := main_c_3) 25 (lt_length 25 (by decide)) rfl (not_written writes_are 26 (by decide))]
  all_goals first | rfl | exact ⟨by decide, rfl⟩
theorem at_main_v21 : after ops (launchContents m c) (Proc.devRef .tc main_v21) = val_main_v21 (F := F) := by
  rw [unary_at (x := main_c_3) (y := main_v21) 26 (lt_length 26 (by decide)) rfl (not_written writes_are 27 (by decide)) (not_written writes_are 26 (by decide)), at_main_c_3 m c]
  all_goals first | rfl | exact ⟨by decide, rfl⟩
theorem at_main_v22 : after ops (launchContents m c) (Proc.devRef .tc main_v22) = val_main_v22 (F := F) := by
  rw [binary_at (a := main_v6) (b := main_v21) (y := main_v22) 27 (lt_length 27 (by decide)) rfl (not_written writes_are 28 (by decide)) (not_written writes_are 27 (by decide)) (not_written writes_are 27 (by decide)), at_main_v6 m c, at_main_v21 m c]
  all_goals first | rfl | exact ⟨by decide, rfl⟩
theorem at_main_v23 : after ops (launchContents m c) (Proc.devRef .tc main_v23) = val_main_v23 (F := F) := by
  rw [unary_at (x := main_v20) (y := main_v23) 28 (lt_length 28 (by decide)) rfl (not_written writes_are 29 (by decide)) (not_written writes_are 28 (by decide)), at_main_v20 m c]
  all_goals first | rfl | exact ⟨by decide, rfl⟩
theorem at_main_v24 : after ops (launchContents m c) (Proc.devRef .tc main_v24) = val_main_v24 (F := F) := by
  rw [unary_at (x := main_v22) (y := main_v24) 29 (lt_length 29 (by decide)) rfl (not_written writes_are 30 (by decide)) (not_written writes_are 29 (by decide)), at_main_v22 m c]
  all_goals first | rfl | exact ⟨by decide, rfl⟩
theorem at_main_v25 : after ops (launchContents m c) (Proc.devRef .tc main_v25) = val_main_v25 (F := F) := by
  rw [binary_at (a := main_v23) (b := main_v24) (y := main_v25) 30 (lt_length 30 (by decide))
      (show (ops (F := F))[30]'(lt_length 30 (by decide)) = binary main_v23 main_v24 main_v25 ((fun a b => concatenate S2x1048576 0 [⟨S1x1048576, a⟩, ⟨S1x1048576, b⟩] concatenates_S1x1048576_S1x1048576_S2x1048576_d0) : (⟨S1x1048576, .i32⟩ : BufTy).Contents (Elt F) → (⟨S1x1048576, .i32⟩ : BufTy).Contents (Elt F) → (⟨S2x1048576, .i32⟩ : BufTy).Contents (Elt F)) from rfl)
      (not_written writes_are 31 (by decide)) (not_written writes_are 30 (by decide)) (not_written writes_are 30 (by decide)), at_main_v23 m c, at_main_v24 m c]
  all_goals first | rfl | exact ⟨by decide, rfl⟩
theorem at_main_v26 : after ops (launchContents m c) (Proc.devRef .tc main_v26) = val_main_v26 (F := F) (m ((c.tc : Thread nD τ).loc main_arg1)) := by
  rw [unary_at (x := main_arg1) (y := main_v26) 31 (lt_length 31 (by decide))
      (show (ops (F := F))[31]'(lt_length 31 (by decide)) = unary main_arg1 main_v26 ((extractStridedSlice S1x1024x1024 ![1, 0, 0] · slices_S2x1024x1024_S1x1024x1024_1_0_0) : (⟨S2x1024x1024, .i32⟩ : BufTy).Contents (Elt F) → (⟨S1x1024x1024, .i32⟩ : BufTy).Contents (Elt F)) from rfl)
      (not_written writes_are 32 (by decide)) (not_written writes_are 31 (by decide)), at_main_arg1 m c]
  all_goals first | rfl | exact ⟨by decide, rfl⟩
theorem at_main_v27 : after ops (launchContents m c) (Proc.devRef .tc main_v27) = val_main_v27 (F := F) (m ((c.tc : Thread nD τ).loc main_arg1)) := by
  rw [reshape_at (x := main_v26) (y := main_v27) 32 (lt_length 32 (by decide)) rfl (not_written writes_are 33 (by decide)) (not_written writes_are 32 (by decide)), at_main_v26 m c]
  all_goals first | rfl | exact ⟨by decide, rfl⟩
theorem at_main_c_4 : after ops (launchContents m c) (Proc.devRef .tc main_c_4) = val_main_c_4 (F := F) := by
  rw [nullary_at (y := main_c_4) 33 (lt_length 33 (by decide)) rfl (not_written writes_are 34 (by decide))]
  all_goals first | rfl | exact ⟨by decide, rfl⟩
theorem at_main_v28 : after ops (launchContents m c) (Proc.devRef .tc main_v28) = val_main_v28 (F := F) := by
  rw [unary_at (x := main_c_4) (y := main_v28) 34 (lt_length 34 (by decide)) rfl (not_written writes_are 35 (by decide)) (not_written writes_are 34 (by decide)), at_main_c_4 m c]
  all_goals first | rfl | exact ⟨by decide, rfl⟩
theorem at_main_v29 : after ops (launchContents m c) (Proc.devRef .tc main_v29) = val_main_v29 (F := F) (m ((c.tc : Thread nD τ).loc main_arg1)) := by
  rw [binary_at (a := main_v27) (b := main_v28) (y := main_v29) 35 (lt_length 35 (by decide)) rfl (not_written writes_are 36 (by decide)) (not_written writes_are 35 (by decide)) (not_written writes_are 35 (by decide)), at_main_v27 m c, at_main_v28 m c]
  all_goals first | rfl | exact ⟨by decide, rfl⟩
theorem at_main_v30 : after ops (launchContents m c) (Proc.devRef .tc main_v30) = val_main_v30 (F := F) (m ((c.tc : Thread nD τ).loc main_arg1)) := by
  rw [reshape_at (x := main_v29) (y := main_v30) 36 (lt_length 36 (by decide)) rfl (not_written writes_are 37 (by decide)) (not_written writes_are 36 (by decide)), at_main_v29 m c]
  all_goals first | rfl | exact ⟨by decide, rfl⟩
theorem at_main_v31 : after ops (launchContents m c) (Proc.devRef .tc main_v31) = val_main_v31 (F := F) := by
  rw [binary_at (a := main_v13) (b := main_v25) (y := main_v31) 37 (lt_length 37 (by decide))
      (show (ops (F := F))[37]'(lt_length 37 (by decide)) = binary main_v13 main_v25 main_v31 ((fun a b => concatenate S2x2097152 1 [⟨S2x1048576, a⟩, ⟨S2x1048576, b⟩] concatenates_S2x1048576_S2x1048576_S2x2097152_d1) : (⟨S2x1048576, .i32⟩ : BufTy).Contents (Elt F) → (⟨S2x1048576, .i32⟩ : BufTy).Contents (Elt F) → (⟨S2x2097152, .i32⟩ : BufTy).Contents (Elt F)) from rfl)
      (not_written writes_are 38 (by decide)) (not_written writes_are 37 (by decide)) (not_written writes_are 37 (by decide)), at_main_v13 m c, at_main_v25 m c]
  all_goals first | rfl | exact ⟨by decide, rfl⟩
theorem at_main_v32 : after ops (launchContents m c) (Proc.devRef .tc main_v32) = val_main_v32 (F := F) (m ((c.tc : Thread nD τ).loc main_arg1)) := by
  rw [binary_at (a := main_v18) (b := main_v30) (y := main_v32) 38 (lt_length 38 (by decide))
      (show (ops (F := F))[38]'(lt_length 38 (by decide)) = binary main_v18 main_v30 main_v32 ((fun a b => concatenate S2097152 0 [⟨S1048576, a⟩, ⟨S1048576, b⟩] concatenates_S1048576_S1048576_S2097152_d0) : (⟨S1048576, .i1⟩ : BufTy).Contents (Elt F) → (⟨S1048576, .i1⟩ : BufTy).Contents (Elt F) → (⟨S2097152, .i1⟩ : BufTy).Contents (Elt F)) from rfl)
      (not_written writes_are 39 (by decide)) (not_written writes_are 38 (by decide)) (not_written writes_are 38 (by decide)), at_main_v18 m c, at_main_v30 m c]
  all_goals first | rfl | exact ⟨by decide, rfl⟩
theorem at_main_v33 : after ops (launchContents m c) (Proc.devRef .tc main_v33) = val_main_v33 (F := F) (m ((c.tc : Thread nD τ).loc main_arg0)) := by
  rw [reshape_at (x := main_arg0) (y := main_v33) 39 (lt_length 39 (by decide)) rfl (not_written writes_are 40 (by decide)) (not_written writes_are 39 (by decide)), at_main_arg0 m c]
  all_goals first | rfl | exact ⟨by decide, rfl⟩
theorem at_main_v34 : after ops (launchContents m c) (Proc.devRef .tc main_v34) = val_main_v34 (F := F) (m ((c.tc : Thread nD τ).loc main_arg0)) (m ((c.tc : Thread nD τ).loc main_arg2)) := by
  rw [binary_at (a := main_v33) (b := main_arg2) (y := main_v34) 40 (lt_length 40 (by decide))
      (show (ops (F := F))[40]'(lt_length 40 (by decide)) = binary main_v33 main_arg2 main_v34 ((fun l r => Host.dotGeneral dot_S2048x64_S64x64_S2048x64_1_0_0_1_n_n none l r) : (⟨S2048x64, .f32⟩ : BufTy).Contents (Elt F) → (⟨S64x64, .f32⟩ : BufTy).Contents (Elt F) → (⟨S2048x64, .f32⟩ : BufTy).Contents (Elt F)) from rfl)
      (not_written writes_are 41 (by decide)) (not_written writes_are 40 (by decide)) (not_written writes_are 40 (by decide)), at_main_v33 m c, at_main_arg2 m c]
  all_goals first | rfl | exact ⟨by decide, rfl⟩
theorem at_main_v35 : after ops (launchContents m c) (Proc.devRef .tc main_v35) = val_main_v35 (F := F) := by
  rw [unary_at (x := main_v31) (y := main_v35) 41 (lt_length 41 (by decide))
      (show (ops (F := F))[41]'(lt_length 41 (by decide)) = unary main_v31 main_v35 ((extractStridedSlice S1x2097152 ![0, 0] · slices_S2x2097152_S1x2097152_0_0) : (⟨S2x2097152, .i32⟩ : BufTy).Contents (Elt F) → (⟨S1x2097152, .i32⟩ : BufTy).Contents (Elt F)) from rfl)
      (not_written writes_are 42 (by decide)) (not_written writes_are 41 (by decide)), at_main_v31 m c]
  all_goals first | rfl | exact ⟨by decide, rfl⟩
theorem at_main_v36 : after ops (launchContents m c) (Proc.devRef .tc main_v36) = val_main_v36 (F := F) := by
  rw [reshape_at (x := main_v35) (y := main_v36) 42 (lt_length 42 (by decide)) rfl (not_written writes_are 43 (by decide)) (not_written writes_are 42 (by decide)), at_main_v35 m c]
  all_goals first | rfl | exact ⟨by decide, rfl⟩
theorem at_main_v37 : after ops (launchContents m c) (Proc.devRef .tc main_v37) = val_main_v37 (F := F) := by
  rw [unary_at (x := main_v31) (y := main_v37) 43 (lt_length 43 (by decide))
      (show (ops (F := F))[43]'(lt_length 43 (by decide)) = unary main_v31 main_v37 ((extractStridedSlice S1x2097152 ![1, 0] · slices_S2x2097152_S1x2097152_1_0) : (⟨S2x2097152, .i32⟩ : BufTy).Contents (Elt F) → (⟨S1x2097152, .i32⟩ : BufTy).Contents (Elt F)) from rfl)
      (not_written writes_are 44 (by decide)) (not_written writes_are 43 (by decide)), at_main_v31 m c]
  all_goals first | rfl | exact ⟨by decide, rfl⟩
theorem at_main_v38 : after ops (launchContents m c) (Proc.devRef .tc main_v38) = val_main_v38 (F := F) := by
  rw [reshape_at (x := main_v37) (y := main_v38) 44 (lt_length 44 (by decide)) rfl (not_written writes_are 45 (by decide)) (not_written writes_are 44 (by decide)), at_main_v37 m c]
  all_goals first | rfl | exact ⟨by decide, rfl⟩
theorem at_main_v39 : after ops (launchContents m c) (Proc.devRef .tc main_v39) = val_main_v39 (F := F) := by
  rw [nullary_at (y := main_v39) 45 (lt_length 45 (by decide)) rfl (not_written writes_are 46 (by decide))]
  all_goals first | rfl | exact ⟨by decide, rfl⟩
theorem at_main_v40 : after ops (launchContents m c) (Proc.devRef .tc main_v40) = val_main_v40 (F := F) := by
  rw [binary_at (a := main_v36) (b := main_v39) (y := main_v40) 46 (lt_length 46 (by decide))
      (show (ops (F := F))[46]'(lt_length 46 (by decide)) = binary main_v36 main_v39 main_v40 ((fun a b => concatenate S2099200 0 [⟨S2097152, a⟩, ⟨S2048, b⟩] concatenates_S2097152_S2048_S2099200_d0) : (⟨S2097152, .i32⟩ : BufTy).Contents (Elt F) → (⟨S2048, .i32⟩ : BufTy).Contents (Elt F) → (⟨S2099200, .i32⟩ : BufTy).Contents (Elt F)) from rfl)
      (not_written writes_are 47 (by decide)) (not_written writes_are 46 (by decide)) (not_written writes_are 46 (by decide)), at_main_v36 m c, at_main_v39 m c]
  all_goals first | rfl | exact ⟨by decide, rfl⟩
theorem at_main_v41 : after ops (launchContents m c) (Proc.devRef .tc main_v41) = val_main_v41 (F := F) := by
  rw [binary_at (a := main_v38) (b := main_v39) (y := main_v41) 47 (lt_length 47 (by decide))
      (show (ops (F := F))[47]'(lt_length 47 (by decide)) = binary main_v38 main_v39 main_v41 ((fun a b => concatenate S2099200 0 [⟨S2097152, a⟩, ⟨S2048, b⟩] concatenates_S2097152_S2048_S2099200_d0) : (⟨S2097152, .i32⟩ : BufTy).Contents (Elt F) → (⟨S2048, .i32⟩ : BufTy).Contents (Elt F) → (⟨S2099200, .i32⟩ : BufTy).Contents (Elt F)) from rfl)
      (not_written writes_are 48 (by decide)) (not_written writes_are 47 (by decide)) (not_written writes_are 47 (by decide)), at_main_v38 m c, at_main_v39 m c]
  all_goals first | rfl | exact ⟨by decide, rfl⟩
theorem at_main_v42 : after ops (launchContents m c) (Proc.devRef .tc main_v42) = val_main_v42 (F := F) (m ((c.tc : Thread nD τ).loc main_arg1)) := by
  rw [unary_at (x := main_v32) (y := main_v42) 48 (lt_length 48 (by decide)) rfl (not_written writes_are 49 (by decide)) (not_written writes_are 48 (by decide)), at_main_v32 m c]
  all_goals first | rfl | exact ⟨by decide, rfl⟩
theorem at_main_cst : after ops (launchContents m c) (Proc.devRef .tc main_cst) = val_main_cst (F := F) := by
  rw [nullary_at (y := main_cst) 49 (lt_length 49 (by decide)) rfl (not_written writes_are 50 (by decide))]
  all_goals first | rfl | exact ⟨by decide, rfl⟩
theorem at_main_v43 : after ops (launchContents m c) (Proc.devRef .tc main_v43) = val_main_v43 (F := F) := by
  rw [unary_at (x := main_cst) (y := main_v43) 50 (lt_length 50 (by decide)) rfl (not_written writes_are 51 (by decide)) (not_written writes_are 50 (by decide)), at_main_cst m c]
  all_goals first | rfl | exact ⟨by decide, rfl⟩
theorem at_main_v44 : after ops (launchContents m c) (Proc.devRef .tc main_v44) = val_main_v44 (F := F) (m ((c.tc : Thread nD τ).loc main_arg1)) := by
  rw [binary_at (a := main_v42) (b := main_v43) (y := main_v44) 51 (lt_length 51 (by decide))
      (show (ops (F := F))[51]'(lt_length 51 (by decide)) = binary main_v42 main_v43 main_v44 ((fun a b => concatenate S2099200 0 [⟨S2097152, a⟩, ⟨S2048, b⟩] concatenates_S2097152_S2048_S2099200_d0) : (⟨S2097152, .f32⟩ : BufTy).Contents (Elt F) → (⟨S2048, .f32⟩ : BufTy).Contents (Elt F) → (⟨S2099200, .f32⟩ : BufTy).Contents (Elt F)) from rfl)
      (not_written writes_are 52 (by decide)) (not_written writes_are 51 (by decide)) (not_written writes_are 51 (by decide)), at_main_v42 m c, at_main_v43 m c]
  all_goals first | rfl | exact ⟨by decide, rfl⟩
theorem at_main_cst_5 : after ops (launchContents m c) (Proc.devRef .tc main_cst_5) = val_main_cst_5 (F := F) := by
  rw [nullary_at (y := main_cst_5) 52 (lt_length 52 (by decide)) rfl (not_written writes_are 53 (by decide))]
  all_goals first | rfl | exact ⟨by decide, rfl⟩
theorem at_main_v45 : after ops (launchContents m c) (Proc.devRef .tc main_v45) = val_main_v45 (F := F) := by
  rw [unary_at (x := main_cst_5) (y := main_v45) 53 (lt_length 53 (by decide)) rfl (not_written writes_are 54 (by decide)) (not_written writes_are 53 (by decide)), at_main_cst_5 m c]
  all_goals first | rfl | exact ⟨by decide, rfl⟩
theorem at_main_c_6 : after ops (launchContents m c) (Proc.devRef .tc main_c_6) = val_main_c_6 (F := F) := by
  rw [nullary_at (y := main_c_6) 54 (lt_length 54 (by decide)) rfl (not_written writes_are 55 (by decide))]
  all_goals first | rfl | exact ⟨by decide, rfl⟩
theorem at_main_v46 : after ops (launchContents m c) (Proc.devRef .tc main_v46) = val_main_v46 (F := F) := by
  rw [unary_at (x := main_c_6) (y := main_v46) 55 (lt_length 55 (by decide)) rfl (not_written writes_are 56 (by decide)) (not_written writes_are 55 (by decide)), at_main_c_6 m c]
  all_goals first | rfl | exact ⟨by decide, rfl⟩
theorem at_main_v47 : after ops (launchContents m c) (Proc.devRef .tc main_v47) = val_main_v47 (F := F) := by
  rw [binary_at (a := main_v41) (b := main_v46) (y := main_v47) 56 (lt_length 56 (by decide)) rfl (not_written writes_are 57 (by decide)) (not_written writes_are 56 (by decide)) (not_written writes_are 56 (by decide)), at_main_v41 m c, at_main_v46 m c]
  all_goals first | rfl | exact ⟨by decide, rfl⟩
theorem at_main_c_7 : after ops (launchContents m c) (Proc.devRef .tc main_c_7) = val_main_c_7 (F := F) := by
  rw [nullary_at (y := main_c_7) 57 (lt_length 57 (by decide)) rfl (not_written writes_are 58 (by decide))]
  all_goals first | rfl | exact ⟨by decide, rfl⟩
theorem at_main_v48 : after ops (launchContents m c) (Proc.devRef .tc main_v48) = val_main_v48 (F := F) := by
  rw [unary_at (x := main_c_7) (y := main_v48) 58 (lt_length 58 (by decide)) rfl (not_written writes_are 59 (by decide)) (not_written writes_are 58 (by decide)), at_main_c_7 m c]
  all_goals first | rfl | exact ⟨by decide, rfl⟩
theorem at_main_v49 : after ops (launchContents m c) (Proc.devRef .tc main_v49) = val_main_v49 (F := F) := by
  rw [binary_at (a := main_v41) (b := main_v48) (y := main_v49) 59 (lt_length 59 (by decide)) rfl (not_written writes_are 60 (by decide)) (not_written writes_are 59 (by decide)) (not_written writes_are 59 (by decide)), at_main_v41 m c, at_main_v48 m c]
  all_goals first | rfl | exact ⟨by decide, rfl⟩
theorem at_main_v50 : after ops (launchContents m c) (Proc.devRef .tc main_v50) = val_main_v50 (F := F) := by
  rw [ternary_at (c := main_v47) (a := main_v49) (b := main_v41) (y := main_v50) 60 (lt_length 60 (by decide)) rfl (not_written writes_are 61 (by decide)) (not_written writes_are 60 (by decide)) (not_written writes_are 60 (by decide)) (not_written writes_are 60 (by decide)), at_main_v47 m c, at_main_v49 m c, at_main_v41 m c]
  all_goals first | rfl | exact ⟨by decide, rfl⟩
theorem at_main_v51 : after ops (launchContents m c) (Proc.devRef .tc main_v51) = val_main_v51 (F := F) := by
  rw [unary_at (x := main_v50) (y := main_v51) 61 (lt_length 61 (by decide)) rfl (not_written writes_are 62 (by decide)) (not_written writes_are 61 (by decide)), at_main_v50 m c]
  all_goals first | rfl | exact ⟨by decide, rfl⟩
theorem at_main_v52 : after ops (launchContents m c) (Proc.devRef .tc main_v52) = val_main_v52 (F := F) (m ((c.tc : Thread nD τ).loc main_arg1)) := by
  rw [ternary_at (c := main_v45) (a := main_v51) (b := main_v44) (y := main_v52) 62 (lt_length 62 (by decide))
      (show (ops (F := F))[62]'(lt_length 62 (by decide)) = ternary main_v45 main_v51 main_v44 main_v52 ((fun x i u => Host.scatterAdd scatter_S2048_S2099200x1_S2099200_n_0_0_1 x i u) : (⟨S2048, .f32⟩ : BufTy).Contents (Elt F) → (⟨S2099200x1, .i32⟩ : BufTy).Contents (Elt F) → (⟨S2099200, .f32⟩ : BufTy).Contents (Elt F) → (⟨S2048, .f32⟩ : BufTy).Contents (Elt F)) from rfl)
      (not_written writes_are 63 (by decide)) (not_written writes_are 62 (by decide)) (not_written writes_are 62 (by decide)) (not_written writes_are 62 (by decide)), at_main_v45 m c, at_main_v51 m c, at_main_v44 m c]
  all_goals first | rfl | exact ⟨by decide, rfl⟩
theorem at_main_cst_8 : after ops (launchContents m c) (Proc.devRef .tc main_cst_8) = val_main_cst_8 (F := F) := by
  rw [nullary_at (y := main_cst_8) 63 (lt_length 63 (by decide)) rfl (not_written writes_are 64 (by decide))]
  all_goals first | rfl | exact ⟨by decide, rfl⟩
theorem at_main_v53 : after ops (launchContents m c) (Proc.devRef .tc main_v53) = val_main_v53 (F := F) := by
  rw [unary_at (x := main_cst_8) (y := main_v53) 64 (lt_length 64 (by decide)) rfl (not_written writes_are 65 (by decide)) (not_written writes_are 64 (by decide)), at_main_cst_8 m c]
  all_goals first | rfl | exact ⟨by decide, rfl⟩
theorem at_main_v54 : after ops (launchContents m c) (Proc.devRef .tc main_v54) = val_main_v54 (F := F) (m ((c.tc : Thread nD τ).loc main_arg1)) := by
  rw [binary_at (a := main_v52) (b := main_v53) (y := main_v54) 65 (lt_length 65 (by decide)) rfl (not_written writes_are 66 (by decide)) (not_written writes_are 65 (by decide)) (not_written writes_are 65 (by decide)), at_main_v52 m c, at_main_v53 m c]
  all_goals first | rfl | exact ⟨by decide, rfl⟩
theorem at_main_cst_9 : after ops (launchContents m c) (Proc.devRef .tc main_cst_9) = val_main_cst_9 (F := F) := by
  rw [nullary_at (y := main_cst_9) 66 (lt_length 66 (by decide)) rfl (not_written writes_are 67 (by decide))]
  all_goals first | rfl | exact ⟨by decide, rfl⟩
theorem at_main_v55 : after ops (launchContents m c) (Proc.devRef .tc main_v55) = val_main_v55 (F := F) := by
  rw [unary_at (x := main_cst_9) (y := main_v55) 67 (lt_length 67 (by decide)) rfl (not_written writes_are 68 (by decide)) (not_written writes_are 67 (by decide)), at_main_cst_9 m c]
  all_goals first | rfl | exact ⟨by decide, rfl⟩
theorem at_main_v56 : after ops (launchContents m c) (Proc.devRef .tc main_v56) = val_main_v56 (F := F) (m ((c.tc : Thread nD τ).loc main_arg1)) := by
  rw [binary_at (a := main_v52) (b := main_v55) (y := main_v56) 68 (lt_length 68 (by decide)) rfl (not_written writes_are 69 (by decide)) (not_written writes_are 68 (by decide)) (not_written writes_are 68 (by decide)), at_main_v52 m c, at_main_v55 m c]
  all_goals first | rfl | exact ⟨by decide, rfl⟩
theorem at_main_v57 : after ops (launchContents m c) (Proc.devRef .tc main_v57) = val_main_v57 (F := F) (m ((c.tc : Thread nD τ).loc main_arg1)) := by
  rw [unary_at (x := main_v56) (y := main_v57) 69 (lt_length 69 (by decide)) rfl (not_written writes_are 70 (by decide)) (not_written writes_are 69 (by decide)), at_main_v56 m c]
  all_goals first | rfl | exact ⟨by decide, rfl⟩
theorem at_main_cst_10 : after ops (launchContents m c) (Proc.devRef .tc main_cst_10) = val_main_cst_10 (F := F) := by
  rw [nullary_at (y := main_cst_10) 70 (lt_length 70 (by decide)) rfl (not_written writes_are 71 (by decide))]
  all_goals first | rfl | exact ⟨by decide, rfl⟩
theorem at_main_call0_v0 : after ops (launchContents m c) (Proc.devRef .tc main_call0_v0) = val_main_call0_v0 (F := F) := by
  rw [unary_at (x := main_cst_10) (y := main_call0_v0) 71 (lt_length 71 (by decide))
      (show (ops (F := F))[71]'(lt_length 71 (by decide)) = TRef.unary (TRef.of (T := ⟨S_, .f32⟩) main_cst_10) (TRef.of (T := ⟨S_, .f32⟩) main_call0_v0) id from rfl)
      (not_written writes_are 72 (by decide)) (not_written writes_are 71 (by decide)), at_main_cst_10 m c]
  all_goals first | rfl | exact ⟨by decide, rfl⟩
theorem at_main_call0_v1 : after ops (launchContents m c) (Proc.devRef .tc main_call0_v1) = val_main_call0_v1 (F := F) := by
  rw [unary_at (x := main_call0_v0) (y := main_call0_v1) 72 (lt_length 72 (by decide))
      (show (ops (F := F))[72]'(lt_length 72 (by decide)) = TRef.unary (TRef.of (T := ⟨S_, .f32⟩) main_call0_v0) (TRef.of (T := ⟨S2048, .f32⟩) main_call0_v1) (broadcastInDim S2048 ![] bcast_S_S2048) from rfl)
      (not_written writes_are 73 (by decide)) (not_written writes_are 72 (by decide)), at_main_call0_v0 m c]
  all_goals first | rfl | exact ⟨by decide, rfl⟩
theorem at_main_v58 : after ops (launchContents m c) (Proc.devRef .tc main_v58) = val_main_v58 (F := F) (m ((c.tc : Thread nD τ).loc main_arg1)) := by
  rw [ternary_at (c := main_v54) (a := main_v57) (b := main_call0_v1) (y := main_v58) 73 (lt_length 73 (by decide))
      (show (ops (F := F))[73]'(lt_length 73 (by decide)) = TRef.ternary (TRef.of (T := ⟨S2048, .i1⟩) main_v54) (TRef.of (T := ⟨S2048, .f32⟩) main_v57) (TRef.of (T := ⟨S2048, .f32⟩) main_call0_v1) (TRef.of (T := ⟨S2048, .f32⟩) main_v58) select from rfl)
      (not_written writes_are 74 (by decide)) (not_written writes_are 73 (by decide)) (not_written writes_are 73 (by decide)) (not_written writes_are 73 (by decide)), at_main_v54 m c, at_main_v57 m c, at_main_call0_v1 m c]
  all_goals first | rfl | exact ⟨by decide, rfl⟩
theorem at_main_c_11 : after ops (launchContents m c) (Proc.devRef .tc main_c_11) = val_main_c_11 (F := F) := by
  rw [nullary_at (y := main_c_11) 74 (lt_length 74 (by decide)) rfl (not_written writes_are 75 (by decide))]
  all_goals first | rfl | exact ⟨by decide, rfl⟩
theorem at_main_v59 : after ops (launchContents m c) (Proc.devRef .tc main_v59) = val_main_v59 (F := F) := by
  rw [unary_at (x := main_c_11) (y := main_v59) 75 (lt_length 75 (by decide)) rfl (not_written writes_are 76 (by decide)) (not_written writes_are 75 (by decide)), at_main_c_11 m c]
  all_goals first | rfl | exact ⟨by decide, rfl⟩
theorem at_main_v60 : after ops (launchContents m c) (Proc.devRef .tc main_v60) = val_main_v60 (F := F) := by
  rw [binary_at (a := main_v40) (b := main_v59) (y := main_v60) 76 (lt_length 76 (by decide)) rfl (not_written writes_are 77 (by decide)) (not_written writes_are 76 (by decide)) (not_written writes_are 76 (by decide)), at_main_v40 m c, at_main_v59 m c]
  all_goals first | rfl | exact ⟨by decide, rfl⟩
theorem at_main_c_12 : after ops (launchContents m c) (Proc.devRef .tc main_c_12) = val_main_c_12 (F := F) := by
  rw [nullary_at (y := main_c_12) 77 (lt_length 77 (by decide)) rfl (not_written writes_are 78 (by decide))]
  all_goals first | rfl | exact ⟨by decide, rfl⟩
theorem at_main_v61 : after ops (launchContents m c) (Proc.devRef .tc main_v61) = val_main_v61 (F := F) := by
  rw [unary_at (x := main_c_12) (y := main_v61) 78 (lt_length 78 (by decide)) rfl (not_written writes_are 79 (by decide)) (not_written writes_are 78 (by decide)), at_main_c_12 m c]
  all_goals first | rfl | exact ⟨by decide, rfl⟩
theorem at_main_v62 : after ops (launchContents m c) (Proc.devRef .tc main_v62) = val_main_v62 (F := F) := by
  rw [binary_at (a := main_v40) (b := main_v61) (y := main_v62) 79 (lt_length 79 (by decide)) rfl (not_written writes_are 80 (by decide)) (not_written writes_are 79 (by decide)) (not_written writes_are 79 (by decide)), at_main_v40 m c, at_main_v61 m c]
  all_goals first | rfl | exact ⟨by decide, rfl⟩
theorem at_main_v63 : after ops (launchContents m c) (Proc.devRef .tc main_v63) = val_main_v63 (F := F) := by
  rw [ternary_at (c := main_v60) (a := main_v62) (b := main_v40) (y := main_v63) 80 (lt_length 80 (by decide)) rfl (not_written writes_are 81 (by decide)) (not_written writes_are 80 (by decide)) (not_written writes_are 80 (by decide)) (not_written writes_are 80 (by decide)), at_main_v60 m c, at_main_v62 m c, at_main_v40 m c]
  all_goals first | rfl | exact ⟨by decide, rfl⟩
theorem at_main_v64 : after ops (launchContents m c) (Proc.devRef .tc main_v64) = val_main_v64 (F := F) := by
  rw [unary_at (x := main_v63) (y := main_v64) 81 (lt_length 81 (by decide)) rfl (not_written writes_are 82 (by decide)) (not_written writes_are 81 (by decide)), at_main_v63 m c]
  all_goals first | rfl | exact ⟨by decide, rfl⟩
theorem at_main_v65 : after ops (launchContents m c) (Proc.devRef .tc main_v65) = val_main_v65 (F := F) (m ((c.tc : Thread nD τ).loc main_arg1)) := by
  rw [binary_at (a := main_v58) (b := main_v64) (y := main_v65) 82 (lt_length 82 (by decide))
      (show (ops (F := F))[82]'(lt_length 82 (by decide)) = binary main_v58 main_v64 main_v65 ((fun x i => Host.gather gather_S2048_S2099200x1_S2099200_n_0_n_n_0_1_1 x i) : (⟨S2048, .f32⟩ : BufTy).Contents (Elt F) → (⟨S2099200x1, .i32⟩ : BufTy).Contents (Elt F) → (⟨S2099200, .f32⟩ : BufTy).Contents (Elt F)) from rfl)
      (not_written writes_are 83 (by decide)) (not_written writes_are 82 (by decide)) (not_written writes_are 82 (by decide)), at_main_v58 m c, at_main_v64 m c]
  all_goals first | rfl | exact ⟨by decide, rfl⟩
theorem at_main_c_13 : after ops (launchContents m c) (Proc.devRef .tc main_c_13) = val_main_c_13 (F := F) := by
  rw [nullary_at (y := main_c_13) 83 (lt_length 83 (by decide)) rfl (not_written writes_are 84 (by decide))]
  all_goals first | rfl | exact ⟨by decide, rfl⟩
theorem at_main_v66 : after ops (launchContents m c) (Proc.devRef .tc main_v66) = val_main_v66 (F := F) := by
  rw [unary_at (x := main_c_13) (y := main_v66) 84 (lt_length 84 (by decide)) rfl (not_written writes_are 85 (by decide)) (not_written writes_are 84 (by decide)), at_main_c_13 m c]
  all_goals first | rfl | exact ⟨by decide, rfl⟩
theorem at_main_v67 : after ops (launchContents m c) (Proc.devRef .tc main_v67) = val_main_v67 (F := F) := by
  rw [binary_at (a := main_v41) (b := main_v66) (y := main_v67) 85 (lt_length 85 (by decide)) rfl (not_written writes_are 86 (by decide)) (not_written writes_are 85 (by decide)) (not_written writes_are 85 (by decide)), at_main_v41 m c, at_main_v66 m c]
  all_goals first | rfl | exact ⟨by decide, rfl⟩
theorem at_main_c_14 : after ops (launchContents m c) (Proc.devRef .tc main_c_14) = val_main_c_14 (F := F) := by
  rw [nullary_at (y := main_c_14) 86 (lt_length 86 (by decide)) rfl (not_written writes_are 87 (by decide))]
  all_goals first | rfl | exact ⟨by decide, rfl⟩
theorem at_main_v68 : after ops (launchContents m c) (Proc.devRef .tc main_v68) = val_main_v68 (F := F) := by
  rw [unary_at (x := main_c_14) (y := main_v68) 87 (lt_length 87 (by decide)) rfl (not_written writes_are 88 (by decide)) (not_written writes_are 87 (by decide)), at_main_c_14 m c]
  all_goals first | rfl | exact ⟨by decide, rfl⟩
theorem at_main_v69 : after ops (launchContents m c) (Proc.devRef .tc main_v69) = val_main_v69 (F := F) := by
  rw [binary_at (a := main_v41) (b := main_v68) (y := main_v69) 88 (lt_length 88 (by decide)) rfl (not_written writes_are 89 (by decide)) (not_written writes_are 88 (by decide)) (not_written writes_are 88 (by decide)), at_main_v41 m c, at_main_v68 m c]
  all_goals first | rfl | exact ⟨by decide, rfl⟩
theorem at_main_v70 : after ops (launchContents m c) (Proc.devRef .tc main_v70) = val_main_v70 (F := F) := by
  rw [ternary_at (c := main_v67) (a := main_v69) (b := main_v41) (y := main_v70) 89 (lt_length 89 (by decide)) rfl (not_written writes_are 90 (by decide)) (not_written writes_are 89 (by decide)) (not_written writes_are 89 (by decide)) (not_written writes_are 89 (by decide)), at_main_v67 m c, at_main_v69 m c, at_main_v41 m c]
  all_goals first | rfl | exact ⟨by decide, rfl⟩
theorem at_main_v71 : after ops (launchContents m c) (Proc.devRef .tc main_v71) = val_main_v71 (F := F) := by
  rw [unary_at (x := main_v70) (y := main_v71) 90 (lt_length 90 (by decide)) rfl (not_written writes_are 91 (by decide)) (not_written writes_are 90 (by decide)), at_main_v70 m c]
  all_goals first | rfl | exact ⟨by decide, rfl⟩
theorem at_main_v72 : after ops (launchContents m c) (Proc.devRef .tc main_v72) = val_main_v72 (F := F) (m ((c.tc : Thread nD τ).loc main_arg1)) := by
  rw [binary_at (a := main_v58) (b := main_v71) (y := main_v72) 91 (lt_length 91 (by decide))
      (show (ops (F := F))[91]'(lt_length 91 (by decide)) = binary main_v58 main_v71 main_v72 ((fun x i => Host.gather gather_S2048_S2099200x1_S2099200_n_0_n_n_0_1_1 x i) : (⟨S2048, .f32⟩ : BufTy).Contents (Elt F) → (⟨S2099200x1, .i32⟩ : BufTy).Contents (Elt F) → (⟨S2099200, .f32⟩ : BufTy).Contents (Elt F)) from rfl)
      (not_written writes_are 92 (by decide)) (not_written writes_are 91 (by decide)) (not_written writes_are 91 (by decide)), at_main_v58 m c, at_main_v71 m c]
  all_goals first | rfl | exact ⟨by decide, rfl⟩
theorem at_main_v73 : after ops (launchContents m c) (Proc.devRef .tc main_v73) = val_main_v73 (F := F) (m ((c.tc : Thread nD τ).loc main_arg1)) := by
  rw [binary_at (a := main_v65) (b := main_v72) (y := main_v73) 92 (lt_length 92 (by decide)) rfl (not_written writes_are 93 (by decide)) (not_written writes_are 92 (by decide)) (not_written writes_are 92 (by decide)), at_main_v65 m c, at_main_v72 m c]
  all_goals first | rfl | exact ⟨by decide, rfl⟩
theorem at_main_v74 : after ops (launchContents m c) (Proc.devRef .tc main_v74) = val_main_v74 (F := F) (m ((c.tc : Thread nD τ).loc main_arg1)) := by
  rw [binary_at (a := main_v73) (b := main_v44) (y := main_v74) 93 (lt_length 93 (by decide)) rfl (not_written writes_are 94 (by decide)) (not_written writes_are 93 (by decide)) (not_written writes_are 93 (by decide)), at_main_v73 m c, at_main_v44 m c]
  all_goals first | rfl | exact ⟨by decide, rfl⟩
theorem at_main_c_15 : after ops (launchContents m c) (Proc.devRef .tc main_c_15) = val_main_c_15 (F := F) := by
  rw [nullary_at (y := main_c_15) 94 (lt_length 94 (by decide)) rfl (not_written writes_are 95 (by decide))]
  all_goals first | rfl | exact ⟨by decide, rfl⟩
theorem at_main_v75 : after ops (launchContents m c) (Proc.devRef .tc main_v75) = val_main_v75 (F := F) := by
  rw [unary_at (x := main_c_15) (y := main_v75) 95 (lt_length 95 (by decide)) rfl (not_written writes_are 96 (by decide)) (not_written writes_are 95 (by decide)), at_main_c_15 m c]
  all_goals first | rfl | exact ⟨by decide, rfl⟩
theorem at_main_v76 : after ops (launchContents m c) (Proc.devRef .tc main_v76) = val_main_v76 (F := F) := by
  rw [binary_at (a := main_v40) (b := main_v75) (y := main_v76) 96 (lt_length 96 (by decide)) rfl (not_written writes_are 97 (by decide)) (not_written writes_are 96 (by decide)) (not_written writes_are 96 (by decide)), at_main_v40 m c, at_main_v75 m c]
  all_goals first | rfl | exact ⟨by decide, rfl⟩
theorem at_main_c_16 : after ops (launchContents m c) (Proc.devRef .tc main_c_16) = val_main_c_16 (F := F) := by
  rw [nullary_at (y := main_c_16) 97 (lt_length 97 (by decide)) rfl (not_written writes_are 98 (by decide))]
  all_goals first | rfl | exact ⟨by decide, rfl⟩
theorem at_main_v77 : after ops (launchContents m c) (Proc.devRef .tc main_v77) = val_main_v77 (F := F) := by
  rw [unary_at (x := main_c_16) (y := main_v77) 98 (lt_length 98 (by decide)) rfl (not_written writes_are 99 (by decide)) (not_written writes_are 98 (by decide)), at_main_c_16 m c]
  all_goals first | rfl | exact ⟨by decide, rfl⟩
theorem at_main_v78 : after ops (launchContents m c) (Proc.devRef .tc main_v78) = val_main_v78 (F := F) := by
  rw [binary_at (a := main_v40) (b := main_v77) (y := main_v78) 99 (lt_length 99 (by decide)) rfl (not_written writes_are 100 (by decide)) (not_written writes_are 99 (by decide)) (not_written writes_are 99 (by decide)), at_main_v40 m c, at_main_v77 m c]
  all_goals first | rfl | exact ⟨by decide, rfl⟩
theorem at_main_v79 : after ops (launchContents m c) (Proc.devRef .tc main_v79) = val_main_v79 (F := F) := by
  rw [ternary_at (c := main_v76) (a := main_v78) (b := main_v40) (y := main_v79) 100 (lt_length 100 (by decide)) rfl (not_written writes_are 101 (by decide)) (not_written writes_are 100 (by decide)) (not_written writes_are 100 (by decide)) (not_written writes_are 100 (by decide)), at_main_v76 m c, at_main_v78 m c, at_main_v40 m c]
  all_goals first | rfl | exact ⟨by decide, rfl⟩
theorem at_main_v80 : after ops (launchContents m c) (Proc.devRef .tc main_v80) = val_main_v80 (F := F) := by
  rw [unary_at (x := main_v79) (y := main_v80) 101 (lt_length 101 (by decide)) rfl (not_written writes_are 102 (by decide)) (not_written writes_are 101 (by decide)), at_main_v79 m c]
  all_goals first | rfl | exact ⟨by decide, rfl⟩
theorem at_main_v81 : after ops (launchContents m c) (Proc.devRef .tc main_v81) = val_main_v81 (F := F) (m ((c.tc : Thread nD τ).loc main_arg0)) (m ((c.tc : Thread nD τ).loc main_arg2)) := by
  rw [binary_at (a := main_v34) (b := main_v80) (y := main_v81) 102 (lt_length 102 (by decide))
      (show (ops (F := F))[102]'(lt_length 102 (by decide)) = binary main_v34 main_v80 main_v81 ((fun x i => Host.gather gather_S2048x64_S2099200x1_S2099200x64_1_0_n_n_0_1_164 x i) : (⟨S2048x64, .f32⟩ : BufTy).Contents (Elt F) → (⟨S2099200x1, .i32⟩ : BufTy).Contents (Elt F) → (⟨S2099200x64, .f32⟩ : BufTy).Contents (Elt F)) from rfl)
      (not_written writes_are 103 (by decide)) (not_written writes_are 102 (by decide)) (not_written writes_are 102 (by decide)), at_main_v34 m c, at_main_v80 m c]
  all_goals first | rfl | exact ⟨by decide, rfl⟩
theorem at_main_v82 : after ops (launchContents m c) (Proc.devRef .tc main_v82) = val_main_v82 (F := F) (m ((c.tc : Thread nD τ).loc main_arg1)) := by
  rw [unary_at (x := main_v74) (y := main_v82) 103 (lt_length 103 (by decide)) rfl (not_written writes_are 104 (by decide)) (not_written writes_are 103 (by decide)), at_main_v74 m c]
  all_goals first | rfl | exact ⟨by decide, rfl⟩
theorem at_main_v83 : after ops (launchContents m c) (Proc.devRef .tc main_v83) = val_main_v83 (F := F) (m ((c.tc : Thread nD τ).loc main_arg1)) := by
  rw [unary_at (x := main_v82) (y := main_v83) 104 (lt_length 104 (by decide)) rfl (not_written writes_are 105 (by decide)) (not_written writes_are 104 (by decide)), at_main_v82 m c]
  all_goals first | rfl | exact ⟨by decide, rfl⟩
theorem at_main_v84 : after ops (launchContents m c) (Proc.devRef .tc main_v84) = val_main_v84 (F := F) (m ((c.tc : Thread nD τ).loc main_arg0)) (m ((c.tc : Thread nD τ).loc main_arg1)) (m ((c.tc : Thread nD τ).loc main_arg2)) := by
  rw [binary_at (a := main_v81) (b := main_v83) (y := main_v84) 105 (lt_length 105 (by decide)) rfl (not_written writes_are 106 (by decide)) (not_written writes_are 105 (by decide)) (not_written writes_are 105 (by decide)), at_main_v81 m c, at_main_v83 m c]
  all_goals first | rfl | exact ⟨by decide, rfl⟩
theorem at_main_cst_17 : after ops (launchContents m c) (Proc.devRef .tc main_cst_17) = val_main_cst_17 (F := F) := by
  rw [nullary_at (y := main_cst_17) 106 (lt_length 106 (by decide)) rfl (not_written writes_are 107 (by decide))]
  all_goals first | rfl | exact ⟨by decide, rfl⟩
theorem at_main_v85 : after ops (launchContents m c) (Proc.devRef .tc main_v85) = val_main_v85 (F := F) := by
  rw [unary_at (x := main_cst_17) (y := main_v85) 107 (lt_length 107 (by decide)) rfl (not_written writes_are 108 (by decide)) (not_written writes_are 107 (by decide)), at_main_cst_17 m c]
  all_goals first | rfl | exact ⟨by decide, rfl⟩
theorem at_main_c_18 : after ops (launchContents m c) (Proc.devRef .tc main_c_18) = val_main_c_18 (F := F) := by
  rw [nullary_at (y := main_c_18) 108 (lt_length 108 (by decide)) rfl (not_written writes_are 109 (by decide))]
  all_goals first | rfl | exact ⟨by decide, rfl⟩
theorem at_main_v86 : after ops (launchContents m c) (Proc.devRef .tc main_v86) = val_main_v86 (F := F) := by
  rw [unary_at (x := main_c_18) (y := main_v86) 109 (lt_length 109 (by decide)) rfl (not_written writes_are 110 (by decide)) (not_written writes_are 109 (by decide)), at_main_c_18 m c]
  all_goals first | rfl | exact ⟨by decide, rfl⟩
theorem at_main_v87 : after ops (launchContents m c) (Proc.devRef .tc main_v87) = val_main_v87 (F := F) := by
  rw [binary_at (a := main_v41) (b := main_v86) (y := main_v87) 110 (lt_length 110 (by decide)) rfl (not_written writes_are 111 (by decide)) (not_written writes_are 110 (by decide)) (not_written writes_are 110 (by decide)), at_main_v41 m c, at_main_v86 m c]
  all_goals first | rfl | exact ⟨by decide, rfl⟩
theorem at_main_c_19 : after ops (launchContents m c) (Proc.devRef .tc main_c_19) = val_main_c_19 (F := F) := by
  rw [nullary_at (y := main_c_19) 111 (lt_length 111 (by decide)) rfl (not_written writes_are 112 (by decide))]
  all_goals first | rfl | exact ⟨by decide, rfl⟩
theorem at_main_v88 : after ops (launchContents m c) (Proc.devRef .tc main_v88) = val_main_v88 (F := F) := by
  rw [unary_at (x := main_c_19) (y := main_v88) 112 (lt_length 112 (by decide)) rfl (not_written writes_are 113 (by decide)) (not_written writes_are 112 (by decide)), at_main_c_19 m c]
  all_goals first | rfl | exact ⟨by decide, rfl⟩
theorem at_main_v89 : after ops (launchContents m c) (Proc.devRef .tc main_v89) = val_main_v89 (F := F) := by
  rw [binary_at (a := main_v41) (b := main_v88) (y := main_v89) 113 (lt_length 113 (by decide)) rfl (not_written writes_are 114 (by decide)) (not_written writes_are 113 (by decide)) (not_written writes_are 113 (by decide)), at_main_v41 m c, at_main_v88 m c]
  all_goals first | rfl | exact ⟨by decide, rfl⟩
theorem at_main_v90 : after ops (launchContents m c) (Proc.devRef .tc main_v90) = val_main_v90 (F := F) := by
  rw [ternary_at (c := main_v87) (a := main_v89) (b := main_v41) (y := main_v90) 114 (lt_length 114 (by decide)) rfl (not_written writes_are 115 (by decide)) (not_written writes_are 114 (by decide)) (not_written writes_are 114 (by decide)) (not_written writes_are 114 (by decide)), at_main_v87 m c, at_main_v89 m c, at_main_v41 m c]
  all_goals first | rfl | exact ⟨by decide, rfl⟩
theorem at_main_v91 : after ops (launchContents m c) (Proc.devRef .tc main_v91) = val_main_v91 (F := F) := by
  rw [unary_at (x := main_v90) (y := main_v91) 115 (lt_length 115 (by decide)) rfl (not_written writes_are 116 (by decide)) (not_written writes_are 115 (by decide)), at_main_v90 m c]
  all_goals first | rfl | exact ⟨by decide, rfl⟩
theorem at_main_v92 : after ops (launchContents m c) (Proc.devRef .tc main_v92) = val_main_v92 (F := F) (m ((c.tc : Thread nD τ).loc main_arg0)) (m ((c.tc : Thread nD τ).loc main_arg1)) (m ((c.tc : Thread nD τ).loc main_arg2)) := by
  rw [ternary_at (c := main_v85) (a := main_v91) (b := main_v84) (y := main_v92) 116 (lt_length 116 (by decide))
      (show (ops (F := F))[116]'(lt_length 116 (by decide)) = ternary main_v85 main_v91 main_v84 main_v92 ((fun x i u => Host.scatterAdd scatter_S2048x64_S2099200x1_S2099200x64_1_0_0_1 x i u) : (⟨S2048x64, .f32⟩ : BufTy).Contents (Elt F) → (⟨S2099200x1, .i32⟩ : BufTy).Contents (Elt F) → (⟨S2099200x64, .f32⟩ : BufTy).Contents (Elt F) → (⟨S2048x64, .f32⟩ : BufTy).Contents (Elt F)) from rfl)
      (not_written writes_are 117 (by decide)) (not_written writes_are 116 (by decide)) (not_written writes_are 116 (by decide)) (not_written writes_are 116 (by decide)), at_main_v85 m c, at_main_v91 m c, at_main_v84 m c]
  all_goals first | rfl | exact ⟨by decide, rfl⟩
theorem at_main_v93 : after ops (launchContents m c) (Proc.devRef .tc main_v93) = val_main_v93 (F := F) (m ((c.tc : Thread nD τ).loc main_arg3)) := by
  rw [unary_at (x := main_arg3) (y := main_v93) 117 (lt_length 117 (by decide)) rfl (not_written writes_are 118 (by decide)) (not_written writes_are 117 (by decide)), at_main_arg3 m c]
  all_goals first | rfl | exact ⟨by decide, rfl⟩
theorem at_main_v94 : after ops (launchContents m c) (Proc.devRef .tc main_v94) = val_main_v94 (F := F) (m ((c.tc : Thread nD τ).loc main_arg3)) := by
  rw [unary_at (x := main_v93) (y := main_v94) 118 (lt_length 118 (by decide)) rfl (not_written writes_are 119 (by decide)) (not_written writes_are 118 (by decide)), at_main_v93 m c]
  all_goals first | rfl | exact ⟨by decide, rfl⟩
theorem at_main_v95 : after ops (launchContents m c) (Proc.devRef .tc main_v95) = val_main_v95 (F := F) (m ((c.tc : Thread nD τ).loc main_arg0)) (m ((c.tc : Thread nD τ).loc main_arg1)) (m ((c.tc : Thread nD τ).loc main_arg2)) (m ((c.tc : Thread nD τ).loc main_arg3)) := by
  rw [binary_at (a := main_v92) (b := main_v94) (y := main_v95) 119 (lt_length 119 (by decide)) rfl (not_written writes_are 120 (by decide)) (not_written writes_are 119 (by decide)) (not_written writes_are 119 (by decide)), at_main_v92 m c, at_main_v94 m c]
  all_goals first | rfl | exact ⟨by decide, rfl⟩

end Cert.ReferenceIdeal.RunS

end
-- ==== Proof.RunS.lean ====
/-
  The reference program's run, read: every weakly fair execution of its @main terminates with the result reference at the
  value of the last stage (`val_main_v95` of the four arguments) and the four arguments unchanged.

  @main is a straight line of 120 host operations (RunOps.lean, RunMainEq.lean), so after it every reference holds the fold of
  the operations' results over the launch contents; the stage facts (RunStages.lean) say what that fold is at the result
  reference and at the arguments.
-/
import proofs.«117760_g41240275976349_cont_sun_c4_136_3_alg».proof.Proof.RunMainEq
import proofs.«117760_g41240275976349_cont_sun_c4_136_3_alg».proof.Proof.RunStages

noncomputable section

namespace Cert.ReferenceIdeal.RunS

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- On every device, for any float values, from any memory with zero counters: every weakly fair execution of @main terminates
    with the result reference at the last stage's value of the four arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95) = val_main_v95 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v95).trans (at_main_v95 m c),
      (h c main_arg0).trans (at_main_arg0 m c),
      (h c main_arg1).trans (at_main_arg1 m c),
      (h c main_arg2).trans (at_main_arg2 m c),
      (h c main_arg3).trans (at_main_arg3 m c)⟩)
    (run_seq scopedRefs_eq scopedSems_eq defs main (fun _ => ops) main_eq (fun _ => ops_sub) m ρ)

/-- info: 'Cert.ReferenceIdeal.RunS.run' depends on axioms: [propext, Classical.choice, Quot.sound] -/
#guard_msgs in #print axioms run

end Cert.ReferenceIdeal.RunS

end
-- ==== Proof.lean ====
/-
  A graph-convolution layer on two samples of 1024 nodes: the kernel computes, per sample, the dense normalised-adjacency
  product `dinv · (Aᵀ · (dinv · (x · W)) + dinv · (x · W)) + b` with `dinv = 1/√(1 + column sums of A)`, the reference walks the
  list of all candidate edges and self loops with a scatter-add of degrees, gathers of `dinv` and of the features, and a
  scatter-add of the messages. At the ideal instance both are the function `Cert.GraphConv.result` of the arguments
  (Proof/Spec.lean), the kernel for any arguments (Proof/KernelValue.lean), the reference where every feature and weight is a
  real number and every adjacency word is 0 or 1 (Proof/RefValue.lean; the precondition says so, Proof/PreFacts.lean): then
  distributing `dinv` of the receiver over the sum of the senders' terms is a law of the reals (Proof/RefForm.lean).
  The kernel's two frames are the generated ones; the reference's run, a straight line of 120 host operations, is read stage by
  stage (Proof/RunS.lean) and its frame is that run with the result dropped; the idealisation
  rewrote nothing, so there is nothing to preserve.
-/
import proofs.«117760_g41240275976349_cont_sun_c4_136_3_alg».proof.Defs
import proofs.«117760_g41240275976349_cont_sun_c4_136_3_alg».proof.Proof.Gen.Kernel
import proofs.«117760_g41240275976349_cont_sun_c4_136_3_alg».proof.Proof.Gen.Kernel.Skeleton
import proofs.«117760_g41240275976349_cont_sun_c4_136_3_alg».proof.Proof.Gen.Kernel.Launch
import proofs.«117760_g41240275976349_cont_sun_c4_136_3_alg».proof.Proof.Gen.Kernel.Points
import proofs.«117760_g41240275976349_cont_sun_c4_136_3_alg».proof.Proof.Gen.Kernel.Frame
import proofs.«117760_g41240275976349_cont_sun_c4_136_3_alg».proof.Proof.Gen.KernelIdeal
import proofs.«117760_g41240275976349_cont_sun_c4_136_3_alg».proof.Proof.Gen.KernelIdeal.Skeleton
import proofs.«117760_g41240275976349_cont_sun_c4_136_3_alg».proof.Proof.Gen.KernelIdeal.Launch
import proofs.«117760_g41240275976349_cont_sun_c4_136_3_alg».proof.Proof.Gen.KernelIdeal.Points
import proofs.«117760_g41240275976349_cont_sun_c4_136_3_alg».proof.Proof.Gen.KernelIdeal.Frame
import proofs.«117760_g41240275976349_cont_sun_c4_136_3_alg».proof.Proof.Gen.ReferenceIdeal
import proofs.«117760_g41240275976349_cont_sun_c4_136_3_alg».proof.Proof.Gen.Pre_finite_inputs
import proofs.«117760_g41240275976349_cont_sun_c4_136_3_alg».proof.Proof.Gen.KernelIdeal.Value
import proofs.«117760_g41240275976349_cont_sun_c4_136_3_alg».proof.Proof.KernelValue
import proofs.«117760_g41240275976349_cont_sun_c4_136_3_alg».proof.Proof.RefValue
import proofs.«117760_g41240275976349_cont_sun_c4_136_3_alg».proof.Proof.RunS
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference is a straight line of host operations: it runs, and its arguments are never written. -/
theorem frame_referenceIdeal : Cert.frame_ReferenceIdeal := fun m ρ _ =>
  (θ_run Cert.ReferenceIdeal.defs _ _).mono (fun _ h c => (h c).2) (Cert.ReferenceIdeal.RunS.run m ρ)

/-- The idealisation rewrote no operation. -/
theorem preserves : Cert.preserves_Kernel_KernelIdeal := trivial

/-- From memories that agree on the four arguments, both programs end with the layer `Cert.GraphConv.result` of them. -/
theorem algebraic : Cert.algebraic_KernelIdeal_ReferenceIdeal := by
  intro m ρ m' ρ' hpre hagree
  refine ⟨_, Cert.KernelIdeal.Bridge.run m ρ, ?_⟩
  refine (θ_run Cert.ReferenceIdeal.defs _ _).mono (fun _ h c => ⟨(h c).1.trans ?_, (h c).2⟩)
    (Cert.ReferenceIdeal.RunS.run m' ρ')
  obtain ⟨hX, hC, hW, -⟩ := Cert.GraphConv.PreFacts.of_pre _ _ _ _ (hpre c)
  rw [(hagree c).1, (hagree c).2.1, (hagree c).2.2.1, (hagree c).2.2.2]
  exact Cert.ReferenceIdeal.RefValue.result_eq _ _ _ _ hX hC hW

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
